-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x3 : Shape := ⟨2, ![200000, 3]⟩
abbrev S2x5000000 : Shape := ⟨2, ![2, 5000000]⟩
abbrev S5000000 : Shape := ⟨1, ![5000000]⟩
abbrev S3x16 : Shape := ⟨2, ![3, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S200000x3 : S_.BroadcastsInDim S200000x3 (![] : Fin 0 → Fin S200000x3.rank)
  reducesTo_S200000x3_S_d0_1 : S200000x3.ReducesTo [0, 1] S_
  h_S_ : 0 < S_.numel
  bcast_S_S5000000 : S_.BroadcastsInDim S5000000 (![] : Fin 0 → Fin S5000000.rank)
  reducesTo_S5000000_S_d0 : S5000000.ReducesTo [0] S_
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S16x7 .f32) (main_arg6 : FVec F S7 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x7 .f32 := Host.absf main_arg5
  let main_cst_6 : FVec F S_ .f32 := constant S_ .f32 0x7F800000#32
  let main_v20 : FVec F S16x7 .f32 := broadcastInDim S16x7 ![] bcast_S_S16x7 main_cst_6
  let main_v21 : IVec S16x7 1 := cmpf .olt main_v19 main_v20
  let main_c_7 : IVec S_ 1 := constantI S_ 1 1#1
  let main_v22 : IVec S_ 1 := (fun x v => Host.reduce IntOp.andi x v reducesTo_S16x7_S_d0_1 h_S_) main_v21 main_c_7
  let main_v23 : IVec S_ 1 := andi main_v18 main_v22
  let main_v24 : FVec F S7 .f32 := Host.absf main_arg6
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S200000x3 .f32) (main_arg1 : IVec S2x5000000 32) (main_arg2 : FVec F S5000000 .f32) (main_arg3 : FVec F S3x16 .f32) (main_arg4 : FVec F S16 .f32) (main_arg5 : FVec F S16x7 .f32) (main_arg6 : FVec F S7 .f32) : IVec S_ 1 :=
  let main_v0 : FVec F S200000x3 .f32 := Host.absf main_arg0
  let main_cst : FVec F S_ .f32 := constant S_ .f32 0x7F800000#32
  let main_v1 : FVec F S200000x3 .f32 := broadcastInDim S200000x3 ![] bcast_S_S200000x3 main_cst
  let main_v2 : IVec S200000x3 1 := cmpf .olt main_v0 main_v1
  let main_c : IVec S_ 1 := constantI S_ 1 1#1
  let main_v3 : IVec S_ 1 := (fun x v => Host.reduce IntOp.andi x v reducesTo_S200000x3_S_d0_1 h_S_) main_v2 main_c
  let main_v4 : FVec F S5000000 .f32 := Host.absf main_arg2
  let main_cst_0 : FVec F S_ .f32 := constant S_ .f32 0x7F800000#32
  let main_v5 : FVec F S5000000 .f32 := broadcastInDim S5000000 ![] bcast_S_S5000000 main_cst_0
  let main_v6 : IVec S5000000 1 := cmpf .olt main_v4 main_v5
  let main_c_1 : IVec S_ 1 := constantI S_ 1 1#1
  let main_v7 : IVec S_ 1 := (fun x v => Host.reduce IntOp.andi x v reducesTo_S5000000_S_d0 h_S_) main_v6 main_c_1
  let main_v8 : IVec S_ 1 := andi main_v3 main_v7
  let main_v9 : FVec F S3x16 .f32 := Host.absf main_arg3
  let main_cst_2 : FVec F S_ .f32 := constant S_ .f32 0x7F800000#32
  let main_v10 : FVec F S3x16 .f32 := broadcastInDim S3x16 ![] bcast_S_S3x16 main_cst_2
  let main_v11 : IVec S3x16 1 := cmpf .olt main_v9 main_v10
  let main_c_3 : IVec S_ 1 := constantI S_ 1 1#1
  let main_v12 : IVec S_ 1 := (fun x v => Host.reduce IntOp.andi x v reducesTo_S3x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S200000x3 : Shape := ⟨2, ![200000, 3]⟩
abbrev S2x5000000 : Shape := ⟨2, ![2, 5000000]⟩
abbrev S5000000 : Shape := ⟨1, ![5000000]⟩
abbrev S3x16 : Shape := ⟨2, ![3, 16]⟩
abbrev S16 : Shape := ⟨1, ![16]⟩
abbrev S16x7 : Shape := ⟨2, ![16, 7]⟩
abbrev S7 : Shape := ⟨1, ![7]⟩
abbrev S1x5000000 : Shape := ⟨2, ![1, 5000000]⟩
abbrev S200000 : Shape := ⟨1, ![200000]⟩
abbrev S5200000 : Shape := ⟨1, ![5200000]⟩
abbrev S_ : Shape := ⟨0, ![]⟩
abbrev S5200000x1 : Shape := ⟨2, ![5200000, 1]⟩
abbrev S5200000x3 : Shape := ⟨2, ![5200000, 3]⟩
abbrev S200000x16 : Shape := ⟨2, ![200000, 16]⟩
abbrev S10000x3 : Shape := ⟨2, ![10000, 3]⟩
abbrev S10000x16 : Shape := ⟨2, ![10000, 16]⟩
abbrev S5200000x16 : Shape := ⟨2, ![5200000, 16]⟩
abbrev S10400x16 : Shape := ⟨2, ![10400, 16]⟩
abbrev S10400x3 : Shape := ⟨2, ![10400, 3]⟩
abbrev S10400x1 : Shape := ⟨2, ![10400, 1]⟩
abbrev S1x16 : Shape := ⟨2, ![1, 16]⟩
abbrev S200000x7 : Shape := ⟨2, ![200000, 7]⟩
abbrev S10000x7 : Shape := ⟨2, ![10000, 7]⟩
abbrev S5200000x7 : Shape := ⟨2, ![5200000, 7]⟩
abbrev S10400x7 : Shape := ⟨2, ![10400, 7]⟩
abbrev S1x7 : Shape := ⟨2, ![1, 7]⟩

abbrev nBuf : Space → Nat
  | .hbm => 92
  | .vmem => 23
  | .smem => 0
  | _ => 0

abbrev bufTy : (tb : Table) → Fin (tcTables nBuf tb) → BufTy
  | .hbm, ⟨0, _⟩ => ⟨S200000x3, .f32⟩
  | .hbm, ⟨1, _⟩ => ⟨S2x5000000, .i32⟩
  | .hbm, ⟨2, _⟩ => ⟨S5000000, .f32⟩
  | .hbm, ⟨3, _⟩ => ⟨S3x16, .f32⟩
  | .hbm, ⟨4, _⟩ => ⟨S16, .f32⟩
  | .hbm, ⟨5, _⟩ => ⟨S16x7, .f32⟩
  | .hbm, ⟨6, _⟩ => ⟨S7, .f32⟩
  | .hbm, ⟨7, _⟩ => ⟨S1x5000000, .i32⟩
  | .hbm, ⟨8, _⟩ => ⟨S5000000, .i32⟩
  | .hbm, ⟨9, _⟩ => ⟨S1x5000000, .i32⟩
  | .hbm, ⟨10, _⟩ => ⟨S5000000, .i32⟩
  | .hbm, ⟨11, _⟩ => ⟨S200000, .i32⟩
  | .hbm, ⟨12, _⟩ => ⟨S5200000, .i32⟩
  | .hbm, ⟨13, _⟩ => ⟨S5200000, .i32⟩
  | .hbm, ⟨14, _⟩ => ⟨S_, .f32⟩
  | .hbm, ⟨15, _⟩ => ⟨S200000, .f32⟩
  | .hbm, ⟨16, _⟩ => ⟨S5200000, .f32⟩
  | .hbm, ⟨17, _⟩ => ⟨S_, .f32⟩
  | .hbm, ⟨18, _⟩ => ⟨S200000, .f32⟩
  | .hbm, ⟨19, _⟩ => ⟨S5200000x1, .i32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .i1⟩
  | .hbm, ⟨24, _⟩ => ⟨S_, .f32⟩
  | .hbm, ⟨25, _⟩ => ⟨S200000, .f32⟩
  | .hbm, ⟨26, _⟩ => ⟨S200000, .i1⟩
  | .hbm, ⟨27, _⟩ => ⟨S_, .f32⟩
  | .hbm, ⟨28, _⟩ => ⟨S_, .f32⟩
  | .hbm, ⟨29, _⟩ => ⟨S200000, .f32⟩
  | .hbm, ⟨30, _⟩ => ⟨S200000, .f32⟩
  | .hbm, ⟨31, _⟩ => ⟨S200000, .f32⟩
  | .hbm, ⟨32, _⟩ => ⟨S_, .f32⟩
  | .hbm, ⟨33, _⟩ => ⟨S_, .f32⟩
  | .hbm, ⟨34, _⟩ => ⟨S200000, .f32⟩
  | .hbm, ⟨35, _⟩ => ⟨S200000, .f32⟩
  | .hbm, ⟨36, _⟩ => ⟨S_, .i32⟩
  | .hbm, ⟨37, _⟩ => ⟨S5200000, .i32⟩
  | .hbm, ⟨38, _⟩ => ⟨S5200000, .i1⟩
  | .hbm, ⟨39, _⟩ => ⟨S_, .i32⟩
  | .hbm, ⟨40, _⟩ => ⟨S5200000, .i32⟩
  | .hbm, ⟨41, _⟩ => ⟨S5200000, .i32⟩
  | .hbm, ⟨42, _⟩ => ⟨S5200000, .i32⟩
  | .hbm, ⟨43, _⟩ => ⟨S5200000x1, .i32⟩
  | .hbm, ⟨44, _⟩ => ⟨S5200000, .f32⟩
  | .hbm, ⟨45, _⟩ => ⟨S_, .i32⟩
  | .hbm, ⟨46, _⟩ => ⟨S5200000, .i32⟩
  | .hbm, ⟨47, _⟩ => ⟨S5200000, .i1⟩
  | .hbm, ⟨48, _⟩ => ⟨S_, .i32⟩
  | .hbm, ⟨49, _⟩ => ⟨S5200000, .i32⟩
  | .hbm, ⟨50, _⟩ => ⟨S5200000, .i32⟩
  | .hbm, ⟨51, _⟩ => ⟨S5200000, .i32⟩
  | .hbm, ⟨52, _⟩ => ⟨S5200000x1, .i32⟩
  | .hbm, ⟨53, _⟩ => ⟨S5200000, .f32⟩
  | .hbm, ⟨54, _⟩ => ⟨S5200000x1, .f32⟩
  | .hbm, ⟨55, _⟩ => ⟨S5200000x1, .f32⟩
  | .hbm, ⟨56, _⟩ => ⟨S5200000x1, .f32⟩
  | .hbm, ⟨57, _⟩ => ⟨S5200000x3, .f32⟩
  | .hbm, ⟨58, _⟩ => ⟨S200000x16, .f32⟩
  | .hbm, ⟨59, _⟩ => ⟨S_, .i32⟩
  | .hbm, ⟨60, _⟩ => ⟨S5200000, .i32⟩
  | .hbm, ⟨61, _⟩ => ⟨S5200000, .i1⟩
  | .hbm, ⟨62, _⟩ => ⟨S_, .i32⟩
  | .hbm, ⟨63, _⟩ => ⟨S5200000, .i32⟩
  | .hbm, ⟨64, _⟩ => ⟨S5200000, .i32⟩
  | .hbm, ⟨65, _⟩ => ⟨S5200000, .i32⟩
  | .hbm, ⟨66, _⟩ => ⟨S5200000x1, .i32⟩
  | .hbm, ⟨67, _⟩ => ⟨S5200000x16, .f32⟩
  | .hbm, ⟨68, _⟩ => ⟨S5200000x16, .f32⟩
  | .hbm, ⟨69, _⟩ => ⟨S_, .f32⟩
  | .hbm, ⟨70, _⟩ => ⟨S200000x16, .f32⟩
  | .hbm, ⟨71, _⟩ => ⟨S5200000x1, .i32⟩
  | .hbm, ⟨72, _⟩ => ⟨S200000x16, .f32⟩
  | .hbm, ⟨73, _⟩ => ⟨S1x16, .f32⟩
  | .hbm, ⟨74, _⟩ => ⟨S200000x7, .f32⟩
  | .hbm, ⟨75, _⟩ => ⟨S_, .i32⟩
  | .hbm, ⟨76, _⟩ => ⟨S5200000, .i32⟩
  | .hbm, ⟨77, _⟩ => ⟨S5200000, .i1⟩
  | .hbm, ⟨78, _⟩ => ⟨S_, .i32⟩
  | .hbm, ⟨79, _⟩ => ⟨S5200000, .i32⟩
  | .hbm, ⟨80, _⟩ => ⟨S5200000, .i32⟩
  | .hbm, ⟨81, _⟩ => ⟨S5200000, .i32⟩
  | .hbm, ⟨82, _⟩ => ⟨S5200000x1, .i32⟩
  | .hbm, ⟨83, _⟩ => ⟨S5200000x7, .f32⟩
  | .hbm, ⟨84, _⟩ => ⟨S5200000x7, .f32⟩
  | .hbm, ⟨85, _⟩ => ⟨S_, .f32⟩
  | .hbm, ⟨86, _⟩ => ⟨S200000x7, .f32⟩
  | .hbm, ⟨87, _⟩ => ⟨S5200000x1, .i32⟩
  | .hbm, ⟨88, _⟩ => ⟨S200000x7, .f32⟩
  | .hbm, ⟨89, _⟩ => ⟨S1x7, .f32⟩
  | .hbm, ⟨90, _⟩ => ⟨S200000x7, .f32⟩
  | .hbm, ⟨91, _⟩ => ⟨S200000x7, .f32⟩
  | .local _ .vmem, ⟨0, _⟩ => ⟨S10000x3, .f32⟩
  | .local _ .vmem, ⟨1, _⟩ => ⟨S10000x3, .f32⟩
  | .local _ .vmem, ⟨2, _⟩ => ⟨S3x16, .f32⟩
  | .local _ .vmem, ⟨3, _⟩ => ⟨S10000x16, .f32⟩
  | .local _ .vmem, ⟨4, _⟩ => ⟨S10000x16, .f32⟩
  | .local _ .vmem, ⟨5, _⟩ => ⟨S10400x16, .f32⟩
  | .local _ .vmem, ⟨6, _⟩ => ⟨S10400x16, .f32⟩
  | .local _ .vmem, ⟨7, _⟩ => ⟨S10400x3, .f32⟩
  | .local _ .vmem, ⟨8, _⟩ => ⟨S10400x3, .f32⟩
  | .local _ .vmem, ⟨9, _⟩ => ⟨S10400x16, .f32⟩
  | .local _ .vmem, ⟨10, _⟩ => ⟨S10400x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S16x7, .f32⟩
  | .local _ .vmem, ⟨15, _⟩ => ⟨S10000x7, .f32⟩
  | .local _ .vmem, ⟨16, _⟩ => ⟨S10000x7, .f32⟩
  | .local _ .vmem, ⟨17, _⟩ => ⟨S10400x7, .f32⟩
  | .local _ .vmem, ⟨18, _⟩ => ⟨S10400x7, .f32⟩
  | .local _ .vmem, ⟨19, _⟩ => ⟨S10400x3, .f32⟩
  | .local _ .vmem, ⟨20, _⟩ => ⟨S10400x3, .f32⟩
  | .local _ .vmem, ⟨21, _⟩ => ⟨S10400x7, .f32⟩
  | .local _ .vmem, ⟨22, _⟩ => ⟨S10400x7, .f32⟩
  | _, _ => ⟨S200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10400x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10400x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10400x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x7 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x7 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![500], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10400x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10400x3 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10400x7 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  concatenates_S5000000_S200000_S5200000_d0 : Shape.Concatenates [S5000000, S200000] S5200000 0
  bcast_S_S200000 : S_.BroadcastsInDim S200000 (![] : Fin 0 → Fin S200000.rank)
  bcast_S5200000_S5200000x1_0 : S5200000.BroadcastsInDim S5200000x1 (![0] : Fin 1 → Fin S5200000x1.rank)
  bcast_S_S5200000 : S_.BroadcastsInDim S5200000 (![] : Fin 0 → Fin S5200000.rank)
  concatenates_S5200000x1_S5200000x1_S5200000x1_S5200000x3_d1 : Shape.Concatenates [S5200000x1, S5200000x1, S5200000x1] S5200000x3 1
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S10000x16_S10000x16_0_0 : ∀ a, (![0, 0] : Fin 2 → Nat) a + S10000x16.size a ≤ S10000x16.size a
  h_S10000x16 : 0 < S10000x16.numel
  inb_S10400x3_S10400x3_0_0 : ∀ a, (![0, 0] : Fin 2 → Nat) a + S10400x3.size a ≤ S10400x3.size a
  h_S10400x3 : 0 < S10400x3.numel
  shapeCasts_S10400x3_S10400x3 : S10400x3.ShapeCasts S10400x3
  slices_S10400x3_o0_0_S10400x1 : S10400x3.Slices ![0, 0] S10400x1
  slices_S10400x3_o0_2_S10400x1 : S10400x3.Slices ![0, 2] S10400x1
  slices_S10400x3_o0_1_S10400x1 : S10400x3.Slices ![0, 1] S10400x1
  inb_S10400x16_S10400x16_0_0 : ∀ a, (![0, 0] : Fin 2 → Nat) a + S10400x16.size a ≤ S10400x16.size a
  h_S10400x16 : 0 < S10400x16.numel
  shapeCasts_S10400x16_S10400x16 : S10400x16.ShapeCasts S10400x16
  broadcasts_S10400x1_S10400x16 : S10400x1.Broadcasts S10400x16
  bcast_S_S200000x16 : S_.BroadcastsInDim S200000x16 (![] : Fin 0 → Fin S200000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x7_S16x7_0_0 : ∀ a, (![0, 0] : Fin 2 → Nat) a + S16x7.size a ≤ S16x7.size a
  h_S16x7 : 0 < S16x7.numel
  inb_S10000x7_S10000x7_0_0 : ∀ a, (![0, 0] : Fin 2 → Nat) a + S10000x7.size a ≤ S10000x7.size a
  h_S10000x7 : 0 < S10000x7.numel
  inb_S10400x7_S10400x7_0_0 : ∀ a, (![0, 0] : Fin 2 → Nat) a + S10400x7.size a ≤ S10400x7.size a
  h_S10400x7 : 0 < S10400x7.numel
  shapeCasts_S10400x7_S10400x7 : S10400x7.ShapeCasts S10400x7
  broadcasts_S10400x1_S10400x7 : S10400x1.Broadcasts S10400x7
  bcast_S_S200000x7 : S_.BroadcastsInDim S200000x7 (![] : Fin 0 → Fin S200000x7.rank)
  bcast_S7_S1x7_1 : S7.BroadcastsInDim S1x7 (![1] : Fin 1 → Fin S1x7.rank)
  bcast_S1x7_S200000x7_0_1 : S1x7.BroadcastsInDim S200000x7 (![0, 1] : Fin 2 → Fin S200000x7.rank)
  scatter_S200000_S5200000x1_S5200000_n_0_0_1_wf : ScatterDims.WF S200000 S5200000x1 S5200000 [] [0] [0] 1
  gather_S200000_S5200000x1_S5200000_n_0_n_n_0_1_1_wf : GatherDims.WF S200000 S5200000x1 S5200000 [] [0] [] [0] [] 1 ![1]
  dot_S10000x3_S3x16_S10000x16_1_0_0_1_n_n_wf : DotDims.WF S10000x3 S3x16 S10000x16 [1] [0] [0] [1] [] []
  gather_S200000x16_S5200000x1_S5200000x16_1_0_n_n_0_1_116_wf : GatherDims.WF S200000x16 S5200000x1 S5200000x16 [1] [0] [] [0] [] 1 ![1, 16]
  scatter_S200000x16_S5200000x1_S5200000x16_1_0_0_1_wf : ScatterDims.WF S200000x16 S5200000x1 S5200000x16 [1] [0] [0] 1
  dot_S10000x16_S16x7_S10000x7_1_0_0_1_n_n_wf : DotDims.WF S10000x16 S16x7 S10000x7 [1] [0] [0] [1] [] []
  gather_S200000x7_S5200000x1_S5200000x7_1_0_n_n_0_1_17_wf : GatherDims.WF S200000x7 S5200000x1 S5200000x7 [1] [0] [] [0] [] 1 ![1, 7]
  scatter_S200000x7_S5200000x1_S5200000x7_1_0_0_1_wf : ScatterDims.WF S200000x7 S5200000x1 S5200000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S200000x3.size a
  hwx0_0 : ∀ i : grid0.Coords, EltTy.bits .f32 = 32 ∨ (Rect.block (s := S200000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S200000x16.size a
  hwx0_2 : ∀ i : grid0.Coords, EltTy.bits .f32 = 32 ∨ (Rect.block (s := S200000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10400x16.size a ≤ S5200000x16.size a
  hwx1_0 : ∀ i : grid1.Coords, EltTy.bits .f32 = 32 ∨ (Rect.block (s := S5200000x16) S10400x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10400x3.size a ≤ S5200000x3.size a
  hwx1_1 : ∀ i : grid1.Coords, EltTy.bits .f32 = 32 ∨ (Rect.block (s := S5200000x3) S10400x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10400x16.size a ≤ S5200000x16.size a
  hwx1_2 : ∀ i : grid1.Coords, EltTy.bits .f32 = 32 ∨ (Rect.block (s := S5200000x16) S10400x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S200000x16.size a
  hwx2_0 : ∀ i : grid2.Coords, EltTy.bits .f32 = 32 ∨ (Rect.block (s := S200000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x7.size a ≤ S16x7.size a
  hwx2_2 : ∀ i : grid2.Coords, EltTy.bits .f32 = 32 ∨ (Rect.block (s := S16x7) S16x7.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x7.size a ≤ S200000x7.size a
  hwx2_3 : ∀ i : grid2.Coords, EltTy.bits .f32 = 32 ∨ (Rect.block (s := S200000x7) S10000x7.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10400x7.size a ≤ S5200000x7.size a
  hwx3_0 : ∀ i : grid3.Coords, EltTy.bits .f32 = 32 ∨ (Rect.block (s := S5200000x7) S10400x7.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10400x3.size a ≤ S5200000x3.size a
  hwx3_1 : ∀ i : grid3.Coords, EltTy.bits .f32 = 32 ∨ (Rect.block (s := S5200000x3) S10400x3.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10400x7.size a ≤ S5200000x7.size a
  hwx3_2 : ∀ i : grid3.Coords, EltTy.bits .f32 = 32 ∨ (Rect.block (s := S5200000x7) S10400x7.size (cc3_transform_2 i) (hinb3_2 i)).WholeWords (EltTy.packing .f32)

variable [Facts₀]

def scatter_S200000_S5200000x1_S5200000_n_0_0_1 : ScatterDims S200000 S5200000x1 S5200000 where
  updateWindowDims := []
  insertedWindowDims := [0]
  scatterDimsToOperandDims := [0]
  indexVectorDim := 1
  wf := scatter_S200000_S5200000x1_S5200000_n_0_0_1_wf
def gather_S200000_S5200000x1_S5200000_n_0_n_n_0_1_1 : GatherDims S200000 S5200000x1 S5200000 where
  offsetDims := []
  collapsedSliceDims := [0]
  operandBatchingDims := []
  startIndicesBatchingDims := []
  startIndexMap := [0]
  indexVectorDim := 1
  sliceSizes := ![1]
  wf := gather_S200000_S5200000x1_S5200000_n_0_n_n_0_1_1_wf
def dot_S10000x3_S3x16_S10000x16_1_0_0_1_n_n : DotDims S10000x3 S3x16 S10000x16 where
  lhsContracting := [1]
  rhsContracting := [0]
  lhsNonContracting := [0]
  rhsNonContracting := [1]
  lhsBatch := []
  rhsBatch := []
  wf := dot_S10000x3_S3x16_S10000x16_1_0_0_1_n_n_wf
def gather_S200000x16_S5200000x1_S5200000x16_1_0_n_n_0_1_116 : GatherDims S200000x16 S5200000x1 S5200000x16 where
  offsetDims := [1]
  collapsedSliceDims := [0]
  operandBatchingDims := []
  startIndicesBatchingDims := []
  startIndexMap := [0]
  indexVectorDim := 1
  sliceSizes := ![1, 16]
  wf := gather_S200000x16_S5200000x1_S5200000x16_1_0_n_n_0_1_116_wf
def scatter_S200000x16_S5200000x1_S5200000x16_1_0_0_1 : ScatterDims S200000x16 S5200000x1 S5200000x16 where
  updateWindowDims := [1]
  insertedWindowDims := [0]
  scatterDimsToOperandDims := [0]
  indexVectorDim := 1
  wf := scatter_S200000x16_S5200000x1_S5200000x16_1_0_0_1_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def gather_S200000x7_S5200000x1_S5200000x7_1_0_n_n_0_1_17 : GatherDims S200000x7 S5200000x1 S5200000x7 where
  offsetDims := [1]
  collapsedSliceDims := [0]
  operandBatchingDims := []
  startIndicesBatchingDims := []
  startIndexMap := [0]
  indexVectorDim := 1
  sliceSizes := ![1, 7]
  wf := gather_S200000x7_S5200000x1_S5200000x7_1_0_n_n_0_1_17_wf
def scatter_S200000x7_S5200000x1_S5200000x7_1_0_0_1 : ScatterDims S200000x7 S5200000x1 S5200000x7 where
  updateWindowDims := [1]
  insertedWindowDims := [0]
  scatterDimsToOperandDims := [0]
  indexVectorDim := 1
  wf := scatter_S200000x7_S5200000x1_S5200000x7_1_0_0_1_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10400x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S10400x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10400x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S16x7.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S10000x7.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v57) S10400x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S10400x3.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S10400x7.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S200000x3 : Shape := ⟨2, ![200000, 3]⟩
abbrev S2x5000000 : Shape := ⟨2, ![2, 5000000]⟩
abbrev S5000000 : Shape := ⟨1, ![5000000]⟩
abbrev S3x16 : Shape := ⟨2, ![3, 16]⟩
abbrev S16 : Shape := ⟨1, ![16]⟩
abbrev S16x7 : Shape := ⟨2, ![16, 7]⟩
abbrev S7 : Shape := ⟨1, ![7]⟩
abbrev S200000 : Shape := ⟨1, ![200000]⟩
abbrev S1x5000000 : Shape := ⟨2, ![1, 5000000]⟩
abbrev S5200000 : Shape := ⟨1, ![5200000]⟩
abbrev S_ : Shape := ⟨0, ![]⟩
abbrev S5200000x1 : Shape := ⟨2, ![5200000, 1]⟩
abbrev S200000x16 : Shape := ⟨2, ![200000, 16]⟩
abbrev S5200000x16 : Shape := ⟨2, ![5200000, 16]⟩
abbrev S1x16 : Shape := ⟨2, ![1, 16]⟩
abbrev S200000x7 : Shape := ⟨2, ![200000, 7]⟩
abbrev S5200000x7 : Shape := ⟨2, ![5200000, 7]⟩
abbrev S1x7 : Shape := ⟨2, ![1, 7]⟩

abbrev nBuf : Space → Nat
  | .hbm => 99
  | .vmem => 0
  | .smem => 0
  | _ => 0

abbrev bufTy : (tb : Table) → Fin (tcTables nBuf tb) → BufTy
  | .hbm, ⟨0, _⟩ => ⟨S200000x3, .f32⟩
  | .hbm, ⟨1, _⟩ => ⟨S2x5000000, .i32⟩
  | .hbm, ⟨2, _⟩ => ⟨S5000000, .f32⟩
  | .hbm, ⟨3, _⟩ => ⟨S3x16, .f32⟩
  | .hbm, ⟨4, _⟩ => ⟨S16, .f32⟩
  | .hbm, ⟨5, _⟩ => ⟨S16x7, .f32⟩
  | .hbm, ⟨6, _⟩ => ⟨S7, .f32⟩
  | .hbm, ⟨7, _⟩ => ⟨S200000, .i32⟩
  | .hbm, ⟨8, _⟩ => ⟨S1x5000000, .i32⟩
  | .hbm, ⟨9, _⟩ => ⟨S5000000, .i32⟩
  | .hbm, ⟨10, _⟩ => ⟨S5200000, .i32⟩
  | .hbm, ⟨11, _⟩ => ⟨S1x5000000, .i32⟩
  | .hbm, ⟨12, _⟩ => ⟨S5000000, .i32⟩
  | .hbm, ⟨13, _⟩ => ⟨S5200000, .i32⟩
  | .hbm, ⟨14, _⟩ => ⟨S_, .f32⟩
  | .hbm, ⟨15, _⟩ => ⟨S200000, .f32⟩
  | .hbm, ⟨16, _⟩ => ⟨S5200000, .f32⟩
  | .hbm, ⟨17, _⟩ => ⟨S_, .f32⟩
  | .hbm, ⟨18, _⟩ => ⟨S200000, .f32⟩
  | .hbm, ⟨19, _⟩ => ⟨S5200000x1, .i32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .i1⟩
  | .hbm, ⟨24, _⟩ => ⟨S_, .f32⟩
  | .hbm, ⟨25, _⟩ => ⟨S200000, .f32⟩
  | .hbm, ⟨26, _⟩ => ⟨S200000, .i1⟩
  | .hbm, ⟨27, _⟩ => ⟨S_, .f32⟩
  | .hbm, ⟨28, _⟩ => ⟨S_, .f32⟩
  | .hbm, ⟨29, _⟩ => ⟨S200000, .f32⟩
  | .hbm, ⟨30, _⟩ => ⟨S200000, .f32⟩
  | .hbm, ⟨31, _⟩ => ⟨S200000, .f32⟩
  | .hbm, ⟨32, _⟩ => ⟨S_, .f32⟩
  | .hbm, ⟨33, _⟩ => ⟨S_, .f32⟩
  | .hbm, ⟨34, _⟩ => ⟨S200000, .f32⟩
  | .hbm, ⟨35, _⟩ => ⟨S200000, .f32⟩
  | .hbm, ⟨36, _⟩ => ⟨S_, .i32⟩
  | .hbm, ⟨37, _⟩ => ⟨S5200000, .i32⟩
  | .hbm, ⟨38, _⟩ => ⟨S5200000, .i1⟩
  | .hbm, ⟨39, _⟩ => ⟨S_, .i32⟩
  | .hbm, ⟨40, _⟩ => ⟨S5200000, .i32⟩
  | .hbm, ⟨41, _⟩ => ⟨S5200000, .i32⟩
  | .hbm, ⟨42, _⟩ => ⟨S5200000, .i32⟩
  | .hbm, ⟨43, _⟩ => ⟨S5200000x1, .i32⟩
  | .hbm, ⟨44, _⟩ => ⟨S5200000, .f32⟩
  | .hbm, ⟨45, _⟩ => ⟨S5200000, .f32⟩
  | .hbm, ⟨46, _⟩ => ⟨S_, .i32⟩
  | .hbm, ⟨47, _⟩ => ⟨S5200000, .i32⟩
  | .hbm, ⟨48, _⟩ => ⟨S5200000, .i1⟩
  | .hbm, ⟨49, _⟩ => ⟨S_, .i32⟩
  | .hbm, ⟨50, _⟩ => ⟨S5200000, .i32⟩
  | .hbm, ⟨51, _⟩ => ⟨S5200000, .i32⟩
  | .hbm, ⟨52, _⟩ => ⟨S5200000, .i32⟩
  | .hbm, ⟨53, _⟩ => ⟨S5200000x1, .i32⟩
  | .hbm, ⟨54, _⟩ => ⟨S5200000, .f32⟩
  | .hbm, ⟨55, _⟩ => ⟨S5200000, .f32⟩
  | .hbm, ⟨56, _⟩ => ⟨S200000x16, .f32⟩
  | .hbm, ⟨57, _⟩ => ⟨S_, .i32⟩
  | .hbm, ⟨58, _⟩ => ⟨S5200000, .i32⟩
  | .hbm, ⟨59, _⟩ => ⟨S5200000, .i1⟩
  | .hbm, ⟨60, _⟩ => ⟨S_, .i32⟩
  | .hbm, ⟨61, _⟩ => ⟨S5200000, .i32⟩
  | .hbm, ⟨62, _⟩ => ⟨S5200000, .i32⟩
  | .hbm, ⟨63, _⟩ => ⟨S5200000, .i32⟩
  | .hbm, ⟨64, _⟩ => ⟨S5200000x1, .i32⟩
  | .hbm, ⟨65, _⟩ => ⟨S5200000x16, .f32⟩
  | .hbm, ⟨66, _⟩ => ⟨S5200000x1, .f32⟩
  | .hbm, ⟨67, _⟩ => ⟨S5200000x16, .f32⟩
  | .hbm, ⟨68, _⟩ => ⟨S5200000x16, .f32⟩
  | .hbm, ⟨69, _⟩ => ⟨S_, .f32⟩
  | .hbm, ⟨70, _⟩ => ⟨S200000x16, .f32⟩
  | .hbm, ⟨71, _⟩ => ⟨S5200000x1, .i32⟩
  | .hbm, ⟨72, _⟩ => ⟨S200000x16, .f32⟩
  | .hbm, ⟨73, _⟩ => ⟨S1x16, .f32⟩
  | .hbm, ⟨74, _⟩ => ⟨S200000x16, .f32⟩
  | .hbm, ⟨75, _⟩ => ⟨S200000x16, .f32⟩
  | .hbm, ⟨76, _⟩ => ⟨S_, .f32⟩
  | .hbm, ⟨77, _⟩ => ⟨S200000x16, .f32⟩
  | .hbm, ⟨78, _⟩ => ⟨S200000x16, .f32⟩
  | .hbm, ⟨79, _⟩ => ⟨S200000x7, .f32⟩
  | .hbm, ⟨80, _⟩ => ⟨S_, .i32⟩
  | .hbm, ⟨81, _⟩ => ⟨S5200000, .i32⟩
  | .hbm, ⟨82, _⟩ => ⟨S5200000, .i1⟩
  | .hbm, ⟨83, _⟩ => ⟨S_, .i32⟩
  | .hbm, ⟨84, _⟩ => ⟨S5200000, .i32⟩
  | .hbm, ⟨85, _⟩ => ⟨S5200000, .i32⟩
  | .hbm, ⟨86, _⟩ => ⟨S5200000, .i32⟩
  | .hbm, ⟨87, _⟩ => ⟨S5200000x1, .i32⟩
  | .hbm, ⟨88, _⟩ => ⟨S5200000x7, .f32⟩
  | .hbm, ⟨89, _⟩ => ⟨S5200000x1, .f32⟩
  | .hbm, ⟨90, _⟩ => ⟨S5200000x7, .f32⟩
  | .hbm, ⟨91, _⟩ => ⟨S5200000x7, .f32⟩
  | .hbm, ⟨92, _⟩ => ⟨S_, .f32⟩
  | .hbm, ⟨93, _⟩ => ⟨S200000x7, .f32⟩
  | .hbm, ⟨94, _⟩ => ⟨S5200000x1, .i32⟩
  | .hbm, ⟨95, _⟩ => ⟨S200000x7, .f32⟩
  | .hbm, ⟨96, _⟩ => ⟨S1x7, .f32⟩
  | .hbm, ⟨97, _⟩ => ⟨S200000x7, .f32⟩
  | .hbm, ⟨98, _⟩ => ⟨S200000x7, .f32⟩
  | _, _ => ⟨S200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_c_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]

class Facts₀ : Prop where
  slices_S2x5000000_S1x5000000_0_0 : S2x5000000.Slices ![0, 0] S1x5000000
  shapeCasts_S1x5000000_S5000000 : S1x5000000.ShapeCasts S5000000
  concatenates_S5000000_S200000_S5200000_d0 : Shape.Concatenates [S5000000, S200000] S5200000 0
  slices_S2x5000000_S1x5000000_1_0 : S2x5000000.Slices ![1, 0] S1x5000000
  bcast_S_S200000 : S_.BroadcastsInDim S200000 (![] : Fin 0 → Fin S200000.rank)
  bcast_S5200000_S5200000x1_0 : S5200000.BroadcastsInDim S5200000x1 (![0] : Fin 1 → Fin S5200000x1.rank)
  bcast_S_S5200000 : S_.BroadcastsInDim S5200000 (![] : Fin 0 → Fin S5200000.rank)
  bcast_S5200000x1_S5200000x16_0_1 : S5200000x1.BroadcastsInDim S5200000x16 (![0, 1] : Fin 2 → Fin S5200000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S5200000x1_S5200000x7_0_1 : S5200000x1.BroadcastsInDim S5200000x7 (![0, 1] : Fin 2 → Fin S5200000x7.rank)
  bcast_S_S200000x7 : S_.BroadcastsInDim S200000x7 (![] : Fin 0 → Fin S200000x7.rank)
  bcast_S7_S1x7_1 : S7.BroadcastsInDim S1x7 (![1] : Fin 1 → Fin S1x7.rank)
  bcast_S1x7_S200000x7_0_1 : S1x7.BroadcastsInDim S200000x7 (![0, 1] : Fin 2 → Fin S200000x7.rank)
  scatter_S200000_S5200000x1_S5200000_n_0_0_1_wf : ScatterDims.WF S200000 S5200000x1 S5200000 [] [0] [0] 1
  gather_S200000_S5200000x1_S5200000_n_0_n_n_0_1_1_wf : GatherDims.WF S200000 S5200000x1 S5200000 [] [0] [] [0] [] 1 ![1]
  dot_S200000x3_S3x16_S200000x16_1_0_0_1_n_n_wf : DotDims.WF S200000x3 S3x16 S200000x16 [1] [0] [0] [1] [] []
  gather_S200000x16_S5200000x1_S5200000x16_1_0_n_n_0_1_116_wf : GatherDims.WF S200000x16 S5200000x1 S5200000x16 [1] [0] [] [0] [] 1 ![1, 16]
  scatter_S200000x16_S5200000x1_S5200000x16_1_0_0_1_wf : ScatterDims.WF S200000x16 S5200000x1 S5200000x16 [1] [0] [0] 1
  dot_S200000x16_S16x7_S200000x7_1_0_0_1_n_n_wf : DotDims.WF S200000x16 S16x7 S200000x7 [1] [0] [0] [1] [] []
  gather_S200000x7_S5200000x1_S5200000x7_1_0_n_n_0_1_17_wf : GatherDims.WF S200000x7 S5200000x1 S5200000x7 [1] [0] [] [0] [] 1 ![1, 7]
  scatter_S200000x7_S5200000x1_S5200000x7_1_0_0_1_wf : ScatterDims.WF S200000x7 S5200000x1 S5200000x7 [1] [0] [0] 1

variable [Facts₀]

def scatter_S200000_S5200000x1_S5200000_n_0_0_1 : ScatterDims S200000 S5200000x1 S5200000 where
  updateWindowDims := []
  insertedWindowDims := [0]
  scatterDimsToOperandDims := [0]
  indexVectorDim := 1
  wf := scatter_S200000_S5200000x1_S5200000_n_0_0_1_wf
def gather_S200000_S5200000x1_S5200000_n_0_n_n_0_1_1 : GatherDims S200000 S5200000x1 S5200000 where
  offsetDims := []
  collapsedSliceDims := [0]
  operandBatchingDims := []
  startIndicesBatchingDims := []
  startIndexMap := [0]
  indexVectorDim := 1
  sliceSizes := ![1]
  wf := gather_S200000_S5200000x1_S5200000_n_0_n_n_0_1_1_wf
def dot_S200000x3_S3x16_S200000x16_1_0_0_1_n_n : DotDims S200000x3 S3x16 S200000x16 where
  lhsContracting := [1]
  rhsContracting := [0]
  lhsNonContracting := [0]
  rhsNonContracting := [1]
  lhsBatch := []
  rhsBatch := []
  wf := dot_S200000x3_S3x16_S200000x16_1_0_0_1_n_n_wf
def gather_S200000x16_S5200000x1_S5200000x16_1_0_n_n_0_1_116 : GatherDims S200000x16 S5200000x1 S5200000x16 where
  offsetDims := [1]
  collapsedSliceDims := [0]
  operandBatchingDims := []
  startIndicesBatchingDims := []
  startIndexMap := [0]
  indexVectorDim := 1
  sliceSizes := ![1, 16]
  wf := gather_S200000x16_S5200000x1_S5200000x16_1_0_n_n_0_1_116_wf
def scatter_S200000x16_S5200000x1_S5200000x16_1_0_0_1 : ScatterDims S200000x16 S5200000x1 S5200000x16 where
  updateWindowDims := [1]
  insertedWindowDims := [0]
  scatterDimsToOperandDims := [0]
  indexVectorDim := 1
  wf := scatter_S200000x16_S5200000x1_S5200000x16_1_0_0_1_wf
def dot_S200000x16_S16x7_S200000x7_1_0_0_1_n_n : DotDims S200000x16 S16x7 S200000x7 where
  lhsContracting := [1]
  rhsContracting := [0]
  lhsNonContracting := [0]
  rhsNonContracting := [1]
  lhsBatch := []
  rhsBatch := []
  wf := dot_S200000x16_S16x7_S200000x7_1_0_0_1_n_n_wf
def gather_S200000x7_S5200000x1_S5200000x7_1_0_n_n_0_1_17 : GatherDims S200000x7 S5200000x1 S5200000x7 where
  offsetDims := [1]
  collapsedSliceDims := [0]
  operandBatchingDims := []
  startIndicesBatchingDims := []
  startIndexMap := [0]
  indexVectorDim := 1
  sliceSizes := ![1, 7]
  wf := gather_S200000x7_S5200000x1_S5200000x7_1_0_n_n_0_1_17_wf
def scatter_S200000x7_S5200000x1_S5200000x7_1_0_0_1 : ScatterDims S200000x7 S5200000x1 S5200000x7 where
  updateWindowDims := [1]
  insertedWindowDims := [0]
  scatterDimsToOperandDims := [0]
  indexVectorDim := 1
  wf := scatter_S200000x7_S5200000x1_S5200000x7_1_0_0_1_wf

class Facts : Prop extends Facts₀ where

variable [Facts]
-- ==== Proof.Bits.Region0.lean ====
import proofs.«164169_j52767968199326_1_alg».proof.Proof.Gen.Kernel.Launch
import proofs.«164169_j52767968199326_1_alg».proof.Proof.Gen.Kernel.Skeleton
import proofs.«164169_j52767968199326_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle fills a block of ten thousand rows walks the long axis coordinate by coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what the core's buffers hold when the region is entered; everything below is stated relative to it
variable (V : (c : Dev nD) → (b : Ref sig .tc) → Buf (Elt F) ((c : Thread nD τ).loc b))

/-! # Region 0: the first dense layer, one block of rows per grid point

At grid point `t` the body reads a 10000x3 block of the node features and the whole 3x16 weight matrix,
rounds both to bf16, multiplies them into a zero accumulator, and overwrites the 10000x16 output block. -/

/-! ## Blocks -/

/-- The block of window `w` that grid point `t` addresses, cut out of the window's array as it stands at entry. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window (index moves with the point) holds its block whenever the body runs. Needed of the proof
    data: its array for this window is the entry contents, and the body leaves this window's buffer as it found it.
    The window is an input, never idle, and never clipped, so its buffer is what a fetch would have brought. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight window has a constant block index: it is brought in at the first point only. At a later point the
    buffer still holds what the previous point left, which is the same block because the index did not move and the
    body does not write it. So again the buffer holds the window's block at every point. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The rectangles the body touches: each access is of a whole buffer -/

abbrev rc0_0 : Rect S10000x3 := Rect.unit (s := S10000x3) ![0, 0] S10000x3.size inb_S10000x3_S10000x3_0_0
abbrev rc0_1 : Rect S3x16 := Rect.unit (s := S3x16) ![0, 0] S3x16.size inb_S3x16_S3x16_0_0
abbrev rc0_2 : Rect S10000x16 := Rect.unit (s := S10000x16) ![0, 0] S10000x16.size inb_S10000x16_S10000x16_0_0

/-! ## The output buffer after the body -/

/-- The output block as a function of the two input blocks: a single write of the whole buffer, whose value is
    the bf16 product of the feature block and the weights (the payload `k0_pay1`). Every entry (r, j) depends on
    row r of the features and column j of the weights only. -/
def stored0 (x0 : Vec F S10000x3 .f32) (x1 : Vec F S3x16 .f32) : Vec F S10000x16 .f32 :=
  View.canon [⟨rc0_2, k0_pay1 (View.ld x0 rc0_0) (View.ld x1 rc0_1)⟩]

/-- That single write reaches every index of the buffer: the rectangle has the buffer's extents. -/
theorem cover0 (p0 : Vec F S10000x16 .f32) (y : S10000x16.Idx) :
    ∃ pc ∈ ([⟨rc0_2, p0⟩] : List (View.Piece (Elt F) S10000x16 .f32)), y ∈ pc.1.set :=
  View.cover_of_tiled [⟨rc0_2, p0⟩] S10000x16.size (by rfl) y

/-! ## The body as a triple over whole staging buffers -/

set_option maxHeartbeats 1000000 in
/-- Given the two input buffers at read contents `x0`, `x1` and the output buffer at anything, the body returns
    the inputs unchanged and the output at `stored0 x0 x1`. The body's three loads (the third, of the output buffer,
    is never used) and one store are stepped through in order; the store's effect on the buffer is then identified
    with the canonical contents of a covering list of writes. -/
theorem kernel0_triple (c : Dev nD) (E : Set ℕ) (i : grid0.Coords)
    (arg1 : Memref sig .tc .vmem S10000x3 .f32) (harg1 : arg1.IsWhole)
    (arg2 : Memref sig .tc .vmem S3x16 .f32) (harg2 : arg2.IsWhole)
    (arg3 : Memref sig .tc .vmem S10000x16 .f32) (harg3 : arg3.IsWhole)
    (x0 : Vec F S10000x3 .f32) (x1 : Vec F S3x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored0 x0 x1)) -∗ K ⟨⟩))
      ⊢ wp frame (wpE (defs₀ (F := F)) Variants.none c none) E (cc0__dense_kernel i arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## Proof data of the pipeline -/

/-- The pipeline's proof data on core `c`. Arrays: the entry contents. After the body at point `t`: the input
    buffers still hold their blocks, the output buffer holds `stored0` of them. The invariant is the one of a region
    that touches nothing outside its windows; no write-back is owed between points; every share is full. -/
def pdat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => stored0 (blk0 V c 0 t) (blk0 V c 1 t)
  Φ _ := Pipeline.ΦA spec0 c
  q _ := fullShare
  owed _ := 0

/-- The arrays of the proof data, projected. -/
theorem pdat0_A (c : Dev nD) (w : Fin cfg0.W) : (pdat0 V c).A w = V c (Pipeline.arrRef spec0 w) := by
  dsimp only [pdat0]

/-- What the body leaves, one window at a time. -/
theorem pdat0_after_0 (c : Dev nD) (t : Fin cfg0.N) : (pdat0 V c).after 0 t = blk0 V c 0 t := by dsimp only [pdat0]
theorem pdat0_after_1 (c : Dev nD) (t : Fin cfg0.N) : (pdat0 V c).after 1 t = blk0 V c 1 t := by dsimp only [pdat0]
theorem pdat0_after_2 (c : Dev nD) (t : Fin cfg0.N) : (pdat0 V c).after 2 t = stored0 (blk0 V c 0 t) (blk0 V c 1 t) := by dsimp only [pdat0]

/-- Both input buffers hold their blocks when the body is called. -/
theorem before0_0 (c : Dev nD) (t : Fin cfg0.N) (d) : (pdat0 V c).before 0 t d = blk0 V c 0 t :=
  before0_0_of V (pdat0 V c) (pdat0_A V c 0) (pdat0_after_0 V c) t d
theorem before0_1 (c : Dev nD) (t : Fin cfg0.N) (d) : (pdat0 V c).before 1 t d = blk0 V c 1 t :=
  before0_1_of V (pdat0 V c) (pdat0_A V c 1) (pdat0_after_1 V c) t d

/-! ## The obligation on the body at one point -/

/-- What the body is given at point `t`: the invariant, the owed write-backs, and the three current buffers. -/
def bodyPre0 (c : Dev nD) (t : Fin cfg0.N) : sProp 𝕄 :=
  iprop((pdat0 V c).Φ t.castSucc ∗ (pdat0 V c).owesAt () t.castSucc
    ∗ (∃ d, owns (c : Thread nD τ) (st0_0 t) fullShare ((pdat0 V c).before 0 t d))
    ∗ (∃ d, owns (c : Thread nD τ) (st0_1 t) fullShare ((pdat0 V c).before 1 t d))
    ∗ (∃ d, owns (c : Thread nD τ) (st0_2 t) fullShare ((pdat0 V c).before 2 t d)))

/-- What it must give back. -/
def bodyPost0 (c : Dev nD) (t : Fin cfg0.N) : sProp 𝕄 :=
  iprop((pdat0 V c).Φ t.succ ∗ (pdat0 V c).owesAt () t.succ
    ∗ owns (c : Thread nD τ) (st0_0 t) fullShare ((pdat0 V c).after 0 t)
    ∗ owns (c : Thread nD τ) (st0_1 t) fullShare ((pdat0 V c).after 1 t)
    ∗ owns (c : Thread nD τ) (st0_2 t) fullShare ((pdat0 V c).after 2 t))

/-- At any point the input buffers hold their blocks, so the triple above applies with those blocks as `x0`, `x1`;
    the invariant and the owed write-backs do not depend on the point and are handed through untouched. -/
theorem body0_at (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (pdat0 V c).Φ t.succ = (pdat0 V c).Φ t.castSucc from rfl,
    show (pdat0 V c).owesAt () t.succ = (pdat0 V c).owesAt () t.castSucc from rfl,
    pdat0_after_0, pdat0_after_1, pdat0_after_2]
  iintro ⟨HΦ, Ho, ⟨%d0, H0⟩, ⟨%d1, H1⟩, ⟨%d2, H2⟩⟩
  iapply (kernel0_triple c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point: the separating product over the three windows written out. -/
theorem body0 (c : Dev nD) : BodyObligation (pdat0 (F := F) V c) (defs₀ (F := F)) Variants.none () Set.univ := fun t => by
  rw [bigSep_W0, bigSep_W0]
  exact body0_at V c t

end Cert.Kernel.Hand

end
-- ==== Proof.Bits.Region1.lean ====
import proofs.«164169_j52767968199326_1_alg».proof.Proof.Gen.Kernel.Launch
import proofs.«164169_j52767968199326_1_alg».proof.Proof.Gen.Kernel.Skeleton
import proofs.«164169_j52767968199326_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when this region starts; everything below is stated relative to it
variable (V : (c : Dev nD) → (b : Ref sig .tc) → Buf (Elt F) ((c : Thread nD τ).loc b))

/-! # Region 1: the edge-message kernel with 16 feature columns

Per grid point the body sees a 10400x16 block `h` of gathered features and the matching 10400x3 block `r` of
per-edge scalars, and writes the 10400x16 block whose row `i` is `h i` scaled by `(r i 0 * r i 2) * r i 1`. -/

/-! ## Blocks -/

/-- The block of window `w` at grid point `t`: the entries of the window's array, as the region finds it, that the
    window's index map selects at `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's staging buffer holds the block of point `t` when the body starts there, for any proof data
    over the entry arrays whose body leaves that buffer as it found it. A point that does not fetch has the same block
    index as the point before it, so the block left there is this point's block; the window is an input, is never
    idle, and is not clipped. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The same for the window of per-edge scalars. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The rectangles the body reads and writes -/

/-- All of a 10400x16 buffer. -/
abbrev r1_0 : Rect S10400x16 := Rect.unit (s := S10400x16) ![0, 0] S10400x16.size inb_S10400x16_S10400x16_0_0
/-- All of a 10400x3 buffer. -/
abbrev r1_1 : Rect S10400x3 := Rect.unit (s := S10400x3) ![0, 0] S10400x3.size inb_S10400x3_S10400x3_0_0

/-! ## What the body leaves in the output buffer -/

/-- The output buffer after the body, as a function of the feature block `x0` and the scalar block `x1`: one write
    over the whole buffer, of the product of `x0` with the row scale computed from `x1`. -/
def stored1 (x0 : Vec F S10400x16 .f32) (x1 : Vec F S10400x3 .f32) : Vec F S10400x16 .f32 :=
  View.canon [⟨r1_0, k1_pay1 (View.ld x1 r1_1) (View.ld x0 r1_0)⟩]

/-- That one write reaches every index of the buffer: its rectangle has the buffer's extents. -/
theorem cover1_2 (p0 : Vec F S10400x16 .f32) (y : S10400x16.Idx) :
    ∃ pc ∈ ([⟨r1_0, p0⟩] : List (View.Piece (Elt F) S10400x16 .f32)), y ∈ pc.1.set :=
  View.cover_of_tiled [⟨r1_0, p0⟩] S10400x16.size (by rfl) y

/-! ## The body's triple -/

set_option maxHeartbeats 1000000 in
/-- Run on whole buffers — the features' holding `x0`, the scalars' holding `x1`, the output's holding anything — the
    body ends with the two inputs unchanged and the output holding `stored1 x0 x1`. The body reads the scalars, the
    features and (without using it) the output, then writes the output once. -/
theorem sound_kernel1 (c : Dev nD) (E : Set ℕ) (i : grid1.Coords) (arg0 : Memref sig .tc .vmem S10400x16 .f32) (harg0 : arg0.IsWhole) (arg1 : Memref sig .tc .vmem S10400x3 .f32) (harg1 : arg1.IsWhole) (arg2 : Memref sig .tc .vmem S10400x16 .f32) (harg2 : arg2.IsWhole)
    (x0 : Vec F S10400x16 .f32) (x1 : Vec F S10400x3 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (stored1 x0 x1)) -∗ K ⟨⟩))
      ⊢ wp frame (wpE (defs₀ (F := F)) Variants.none c none) E (cc1__message_kernel i arg0 harg0 arg1 harg1 arg2 harg2) K := by
  simp only [cc1__message_kernel_eq_skeleton]; unfold cc1__message_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data of the pipeline -/

/-- On core `c`: the arrays are the entry contents; after the body at point `t` each input buffer still holds its block
    and the output buffer holds `stored1` of the two input blocks; the invariant is the one that leaves every other
    buffer and the generator register untouched; full shares; nothing owed. -/
def pdat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => stored1 (blk1 V c 0 t) (blk1 V c 1 t)
  Φ _ := Pipeline.ΦA spec1 c
  q _ := fullShare
  owed _ := 0

/-- Its arrays are the entry contents (a projection of the definition). -/
theorem pdat1_A (c : Dev nD) (w : Fin cfg1.W) : (pdat1 V c).A w = V c (Pipeline.arrRef spec1 w) := by
  dsimp only [pdat1]

/-- What the body leaves in each window's buffer (the definition's case split, reduced). -/
theorem pdat1_after_0 (c : Dev nD) (t : Fin cfg1.N) : (pdat1 V c).after 0 t = blk1 V c 0 t := by dsimp only [pdat1]
theorem pdat1_after_1 (c : Dev nD) (t : Fin cfg1.N) : (pdat1 V c).after 1 t = blk1 V c 1 t := by dsimp only [pdat1]
theorem pdat1_after_2 (c : Dev nD) (t : Fin cfg1.N) : (pdat1 V c).after 2 t = stored1 (blk1 V c 0 t) (blk1 V c 1 t) := by dsimp only [pdat1]

/-- When the body starts at any point, each input buffer holds that point's block. -/
theorem before1_0 (c : Dev nD) (t : Fin cfg1.N) (d) : (pdat1 V c).before 0 t d = blk1 V c 0 t :=
  before1_0_of V (pdat1 V c) (pdat1_A V c 0) (pdat1_after_0 V c) t d
theorem before1_1 (c : Dev nD) (t : Fin cfg1.N) (d) : (pdat1 V c).before 1 t d = blk1 V c 1 t :=
  before1_1_of V (pdat1 V c) (pdat1_A V c 1) (pdat1_after_1 V c) t d

/-! ## The body obligation -/

/-- What the body is given at point `t`: the invariant, the debt, and each window's current buffer. -/
def bodyPre1 (c : Dev nD) (t : Fin cfg1.N) : sProp 𝕄 :=
  iprop((pdat1 V c).Φ t.castSucc ∗ (pdat1 V c).owesAt () t.castSucc
    ∗ (∃ d, owns (c : Thread nD τ) (st1_0 t) fullShare ((pdat1 V c).before 0 t d))
    ∗ (∃ d, owns (c : Thread nD τ) (st1_1 t) fullShare ((pdat1 V c).before 1 t d))
    ∗ (∃ d, owns (c : Thread nD τ) (st1_2 t) fullShare ((pdat1 V c).before 2 t d)))

/-- What it gives back. -/
def bodyPost1 (c : Dev nD) (t : Fin cfg1.N) : sProp 𝕄 :=
  iprop((pdat1 V c).Φ t.succ ∗ (pdat1 V c).owesAt () t.succ
    ∗ owns (c : Thread nD τ) (st1_0 t) fullShare ((pdat1 V c).after 0 t)
    ∗ owns (c : Thread nD τ) (st1_1 t) fullShare ((pdat1 V c).after 1 t)
    ∗ owns (c : Thread nD τ) (st1_2 t) fullShare ((pdat1 V c).after 2 t))

/-- The body at point `t`: the input buffers hold the point's blocks, so the triple applies with `x0`, `x1` those
    blocks; the invariant and the debt do not depend on the point and are handed through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (pdat1 V c).Φ t.succ = (pdat1 V c).Φ t.castSucc from rfl,
    show (pdat1 V c).owesAt () t.succ = (pdat1 V c).owesAt () t.castSucc from rfl,
    pdat1_after_0, pdat1_after_1, pdat1_after_2]
  iintro ⟨HΦ, Ho, ⟨%d0, H0⟩, ⟨%d1, H1⟩, ⟨%d2, H2⟩⟩
  iapply (sound_kernel1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline rule asks for, at every point. -/
theorem body1 (c : Dev nD) : BodyObligation (pdat1 (F := F) V c) (defs₀ (F := F)) Variants.none () Set.univ := fun t => by
  rw [bigSep_W1, bigSep_W1]
  exact sound_body1 V c t

end Cert.Kernel.Hand

end
-- ==== Proof.Bits.Region2.lean ====
import proofs.«164169_j52767968199326_1_alg».proof.Proof.Gen.Kernel.Launch
import proofs.«164169_j52767968199326_1_alg».proof.Proof.Gen.Kernel.Skeleton
import proofs.«164169_j52767968199326_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle fills a block of ten thousand rows walks the long axis coordinate by coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what the core's buffers hold when the region is entered; everything below is stated relative to it
variable (V : (c : Dev nD) → (b : Ref sig .tc) → Buf (Elt F) ((c : Thread nD τ).loc b))

/-! # Region 2: bias, rectifier and the second dense layer, one block of rows per grid point

At grid point `t` the body reads a 10000x16 block of the aggregated messages, the 1x16 bias row and the whole
16x7 weight matrix; adds the bias to every row, takes the maximum with zero, rounds that and the weights to bf16,
multiplies them into a zero accumulator, and overwrites the 10000x7 output block. -/

/-! ## Blocks -/

/-- The block of window `w` that grid point `t` addresses, cut out of the window's array as it stands at entry. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The aggregate window (index moves with the point) holds its block whenever the body runs. Needed of the proof
    data: its array for this window is the entry contents, and the body leaves this window's buffer as it found it.
    The window is an input, never idle, and never clipped, so its buffer is what a fetch would have brought. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The bias window has a constant block index: it is brought in at the first point only. At a later point the
    buffer still holds what the previous point left, which is the same block because the index did not move and the
    body does not write it. So the buffer holds the window's block at every point. -/
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The weight window is constant in the same way, with the same conclusion. -/
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-! ## The rectangles the body touches: each access is of a whole buffer -/

abbrev rc2_0 : Rect S10000x16 := Rect.unit (s := S10000x16) ![0, 0] S10000x16.size inb_S10000x16_S10000x16_0_0
abbrev rc2_1 : Rect S1x16 := Rect.unit (s := S1x16) ![0, 0] S1x16.size inb_S1x16_S1x16_0_0
abbrev rc2_2 : Rect S16x7 := Rect.unit (s := S16x7) ![0, 0] S16x7.size inb_S16x7_S16x7_0_0
abbrev rc2_3 : Rect S10000x7 := Rect.unit (s := S10000x7) ![0, 0] S10000x7.size inb_S10000x7_S10000x7_0_0

/-! ## The output buffer after the body -/

/-- The output block as a function of the three input blocks: a single write of the whole buffer, whose value is
    the bf16 product of max(aggregate + bias, 0) and the weights (the payload `k2_pay1`). Every entry (r, j) depends
    on row r of the aggregate, the whole bias row, and column j of the weights only. -/
def stored2 (x0 : Vec F S10000x16 .f32) (x1 : Vec F S1x16 .f32) (x2 : Vec F S16x7 .f32) : Vec F S10000x7 .f32 :=
  View.canon [⟨rc2_3, k2_pay1 (View.ld x0 rc2_0) (View.ld x1 rc2_1) (View.ld x2 rc2_2)⟩]

/-- That single write reaches every index of the buffer: the rectangle has the buffer's extents. -/
theorem cover2 (p0 : Vec F S10000x7 .f32) (y : S10000x7.Idx) :
    ∃ pc ∈ ([⟨rc2_3, p0⟩] : List (View.Piece (Elt F) S10000x7 .f32)), y ∈ pc.1.set :=
  View.cover_of_tiled [⟨rc2_3, p0⟩] S10000x7.size (by rfl) y

/-! ## The body as a triple over whole staging buffers -/

set_option maxHeartbeats 1000000 in
/-- Given the three input buffers at read contents `x0`, `x1`, `x2` and the output buffer at anything, the body
    returns the inputs unchanged and the output at `stored2 x0 x1 x2`. The body's four loads (the fourth, of the
    output buffer, is never used) and one store are stepped through in order; the store's effect on the buffer is then
    identified with the canonical contents of a covering list of writes. -/
theorem kernel2_triple (c : Dev nD) (E : Set ℕ) (i : grid2.Coords)
    (arg1 : Memref sig .tc .vmem S10000x16 .f32) (harg1 : arg1.IsWhole)
    (arg2 : Memref sig .tc .vmem S1x16 .f32) (harg2 : arg2.IsWhole)
    (arg3 : Memref sig .tc .vmem S16x7 .f32) (harg3 : arg3.IsWhole)
    (arg4 : Memref sig .tc .vmem S10000x7 .f32) (harg4 : arg4.IsWhole)
    (x0 : Vec F S10000x16 .f32) (x1 : Vec F S1x16 .f32) (x2 : Vec F S16x7 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (stored2 x0 x1 x2)) -∗ K ⟨⟩))
      ⊢ wp frame (wpE (defs₀ (F := F)) Variants.none c none) E (cc2__bias_relu_matmul_kernel i arg1 harg1 arg2 harg2 arg3 harg3 arg4 harg4) K := by
  simp only [cc2__bias_relu_matmul_kernel_eq_skeleton]; unfold cc2__bias_relu_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## Proof data of the pipeline -/

/-- The pipeline's proof data on core `c`. Arrays: the entry contents. After the body at point `t`: the input
    buffers still hold their blocks, the output buffer holds `stored2` of them. The invariant is the one of a region
    that touches nothing outside its windows; no write-back is owed between points; every share is full. -/
def pdat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => stored2 (blk2 V c 0 t) (blk2 V c 1 t) (blk2 V c 2 t)
  Φ _ := Pipeline.ΦA spec2 c
  q _ := fullShare
  owed _ := 0

/-- The arrays of the proof data, projected. -/
theorem pdat2_A (c : Dev nD) (w : Fin cfg2.W) : (pdat2 V c).A w = V c (Pipeline.arrRef spec2 w) := by
  dsimp only [pdat2]

/-- What the body leaves, one window at a time. -/
theorem pdat2_after_0 (c : Dev nD) (t : Fin cfg2.N) : (pdat2 V c).after 0 t = blk2 V c 0 t := by dsimp only [pdat2]
theorem pdat2_after_1 (c : Dev nD) (t : Fin cfg2.N) : (pdat2 V c).after 1 t = blk2 V c 1 t := by dsimp only [pdat2]
theorem pdat2_after_2 (c : Dev nD) (t : Fin cfg2.N) : (pdat2 V c).after 2 t = blk2 V c 2 t := by dsimp only [pdat2]
theorem pdat2_after_3 (c : Dev nD) (t : Fin cfg2.N) :
    (pdat2 V c).after 3 t = stored2 (blk2 V c 0 t) (blk2 V c 1 t) (blk2 V c 2 t) := by dsimp only [pdat2]

/-- All three input buffers hold their blocks when the body is called. -/
theorem before2_0 (c : Dev nD) (t : Fin cfg2.N) (d) : (pdat2 V c).before 0 t d = blk2 V c 0 t :=
  before2_0_of V (pdat2 V c) (pdat2_A V c 0) (pdat2_after_0 V c) t d
theorem before2_1 (c : Dev nD) (t : Fin cfg2.N) (d) : (pdat2 V c).before 1 t d = blk2 V c 1 t :=
  before2_1_of V (pdat2 V c) (pdat2_A V c 1) (pdat2_after_1 V c) t d
theorem before2_2 (c : Dev nD) (t : Fin cfg2.N) (d) : (pdat2 V c).before 2 t d = blk2 V c 2 t :=
  before2_2_of V (pdat2 V c) (pdat2_A V c 2) (pdat2_after_2 V c) t d

/-! ## The obligation on the body at one point -/

/-- What the body is given at point `t`: the invariant, the owed write-backs, and the four current buffers. -/
def bodyPre2 (c : Dev nD) (t : Fin cfg2.N) : sProp 𝕄 :=
  iprop((pdat2 V c).Φ t.castSucc ∗ (pdat2 V c).owesAt () t.castSucc
    ∗ (∃ d, owns (c : Thread nD τ) (st2_0 t) fullShare ((pdat2 V c).before 0 t d))
    ∗ (∃ d, owns (c : Thread nD τ) (st2_1 t) fullShare ((pdat2 V c).before 1 t d))
    ∗ (∃ d, owns (c : Thread nD τ) (st2_2 t) fullShare ((pdat2 V c).before 2 t d))
    ∗ (∃ d, owns (c : Thread nD τ) (st2_3 t) fullShare ((pdat2 V c).before 3 t d)))

/-- What it must give back. -/
def bodyPost2 (c : Dev nD) (t : Fin cfg2.N) : sProp 𝕄 :=
  iprop((pdat2 V c).Φ t.succ ∗ (pdat2 V c).owesAt () t.succ
    ∗ owns (c : Thread nD τ) (st2_0 t) fullShare ((pdat2 V c).after 0 t)
    ∗ owns (c : Thread nD τ) (st2_1 t) fullShare ((pdat2 V c).after 1 t)
    ∗ owns (c : Thread nD τ) (st2_2 t) fullShare ((pdat2 V c).after 2 t)
    ∗ owns (c : Thread nD τ) (st2_3 t) fullShare ((pdat2 V c).after 3 t))

/-- At any point the input buffers hold their blocks, so the triple above applies with those blocks as `x0`, `x1`,
    `x2`; the invariant and the owed write-backs do not depend on the point and are handed through untouched. -/
theorem body2_at (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (pdat2 V c).Φ t.succ = (pdat2 V c).Φ t.castSucc from rfl,
    show (pdat2 V c).owesAt () t.succ = (pdat2 V c).owesAt () t.castSucc from rfl,
    pdat2_after_0, pdat2_after_1, pdat2_after_2, pdat2_after_3]
  iintro ⟨HΦ, Ho, ⟨%d0, H0⟩, ⟨%d1, H1⟩, ⟨%d2, H2⟩, ⟨%d3, H3⟩⟩
  iapply (kernel2_triple c Set.univ (grid2.coords t) _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point: the separating product over the four windows written out. -/
theorem body2 (c : Dev nD) : BodyObligation (pdat2 (F := F) V c) (defs₀ (F := F)) Variants.none () Set.univ := fun t => by
  rw [bigSep_W2, bigSep_W2]
  exact body2_at V c t

end Cert.Kernel.Hand

end
-- ==== Proof.Bits.Region3.lean ====
import proofs.«164169_j52767968199326_1_alg».proof.Proof.Gen.Kernel.Launch
import proofs.«164169_j52767968199326_1_alg».proof.Proof.Gen.Kernel.Skeleton
import proofs.«164169_j52767968199326_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when this region starts; everything below is stated relative to it
variable (V : (c : Dev nD) → (b : Ref sig .tc) → Buf (Elt F) ((c : Thread nD τ).loc b))

/-! # Region 3: the edge-message kernel with 7 feature columns

Per grid point the body sees a 10400x7 block `h` of gathered features and the matching 10400x3 block `r` of
per-edge scalars, and writes the 10400x7 block whose row `i` is `h i` scaled by `(r i 0 * r i 2) * r i 1`. -/

/-! ## Blocks -/

/-- The block of window `w` at grid point `t`: the entries of the window's array, as the region finds it, that the
    window's index map selects at `t`. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The feature window's staging buffer holds the block of point `t` when the body starts there, for any proof data
    over the entry arrays whose body leaves that buffer as it found it. A point that does not fetch has the same block
    index as the point before it, so the block left there is this point's block; the window is an input, is never
    idle, and is not clipped. -/
theorem before3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- The same for the window of per-edge scalars. -/
theorem before3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-! ## The rectangles the body reads and writes -/

/-- All of a 10400x7 buffer. -/
abbrev r3_0 : Rect S10400x7 := Rect.unit (s := S10400x7) ![0, 0] S10400x7.size inb_S10400x7_S10400x7_0_0
/-- All of a 10400x3 buffer. -/
abbrev r3_1 : Rect S10400x3 := Rect.unit (s := S10400x3) ![0, 0] S10400x3.size inb_S10400x3_S10400x3_0_0

/-! ## What the body leaves in the output buffer -/

/-- The output buffer after the body, as a function of the feature block `x0` and the scalar block `x1`: one write
    over the whole buffer, of the product of `x0` with the row scale computed from `x1`. -/
def stored3 (x0 : Vec F S10400x7 .f32) (x1 : Vec F S10400x3 .f32) : Vec F S10400x7 .f32 :=
  View.canon [⟨r3_0, k3_pay1 (View.ld x1 r3_1) (View.ld x0 r3_0)⟩]

/-- That one write reaches every index of the buffer: its rectangle has the buffer's extents. -/
theorem cover3_2 (p0 : Vec F S10400x7 .f32) (y : S10400x7.Idx) :
    ∃ pc ∈ ([⟨r3_0, p0⟩] : List (View.Piece (Elt F) S10400x7 .f32)), y ∈ pc.1.set :=
  View.cover_of_tiled [⟨r3_0, p0⟩] S10400x7.size (by rfl) y

/-! ## The body's triple -/

set_option maxHeartbeats 1000000 in
/-- Run on whole buffers — the features' holding `x0`, the scalars' holding `x1`, the output's holding anything — the
    body ends with the two inputs unchanged and the output holding `stored3 x0 x1`. The body reads the scalars, the
    features and (without using it) the output, then writes the output once. -/
theorem sound_kernel3 (c : Dev nD) (E : Set ℕ) (i : grid3.Coords) (arg0 : Memref sig .tc .vmem S10400x7 .f32) (harg0 : arg0.IsWhole) (arg1 : Memref sig .tc .vmem S10400x3 .f32) (harg1 : arg1.IsWhole) (arg2 : Memref sig .tc .vmem S10400x7 .f32) (harg2 : arg2.IsWhole)
    (x0 : Vec F S10400x7 .f32) (x1 : Vec F S10400x3 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (stored3 x0 x1)) -∗ K ⟨⟩))
      ⊢ wp frame (wpE (defs₀ (F := F)) Variants.none c none) E (cc3__message_kernel i arg0 harg0 arg1 harg1 arg2 harg2) K := by
  simp only [cc3__message_kernel_eq_skeleton]; unfold cc3__message_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data of the pipeline -/

/-- On core `c`: the arrays are the entry contents; after the body at point `t` each input buffer still holds its block
    and the output buffer holds `stored3` of the two input blocks; the invariant is the one that leaves every other
    buffer and the generator register untouched; full shares; nothing owed. -/
def pdat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => stored3 (blk3 V c 0 t) (blk3 V c 1 t)
  Φ _ := Pipeline.ΦA spec3 c
  q _ := fullShare
  owed _ := 0

/-- Its arrays are the entry contents (a projection of the definition). -/
theorem pdat3_A (c : Dev nD) (w : Fin cfg3.W) : (pdat3 V c).A w = V c (Pipeline.arrRef spec3 w) := by
  dsimp only [pdat3]

/-- What the body leaves in each window's buffer (the definition's case split, reduced). -/
theorem pdat3_after_0 (c : Dev nD) (t : Fin cfg3.N) : (pdat3 V c).after 0 t = blk3 V c 0 t := by dsimp only [pdat3]
theorem pdat3_after_1 (c : Dev nD) (t : Fin cfg3.N) : (pdat3 V c).after 1 t = blk3 V c 1 t := by dsimp only [pdat3]
theorem pdat3_after_2 (c : Dev nD) (t : Fin cfg3.N) : (pdat3 V c).after 2 t = stored3 (blk3 V c 0 t) (blk3 V c 1 t) := by dsimp only [pdat3]

/-- When the body starts at any point, each input buffer holds that point's block. -/
theorem before3_0 (c : Dev nD) (t : Fin cfg3.N) (d) : (pdat3 V c).before 0 t d = blk3 V c 0 t :=
  before3_0_of V (pdat3 V c) (pdat3_A V c 0) (pdat3_after_0 V c) t d
theorem before3_1 (c : Dev nD) (t : Fin cfg3.N) (d) : (pdat3 V c).before 1 t d = blk3 V c 1 t :=
  before3_1_of V (pdat3 V c) (pdat3_A V c 1) (pdat3_after_1 V c) t d

/-! ## The body obligation -/

/-- What the body is given at point `t`: the invariant, the debt, and each window's current buffer. -/
def bodyPre3 (c : Dev nD) (t : Fin cfg3.N) : sProp 𝕄 :=
  iprop((pdat3 V c).Φ t.castSucc ∗ (pdat3 V c).owesAt () t.castSucc
    ∗ (∃ d, owns (c : Thread nD τ) (st3_0 t) fullShare ((pdat3 V c).before 0 t d))
    ∗ (∃ d, owns (c : Thread nD τ) (st3_1 t) fullShare ((pdat3 V c).before 1 t d))
    ∗ (∃ d, owns (c : Thread nD τ) (st3_2 t) fullShare ((pdat3 V c).before 2 t d)))

/-- What it gives back. -/
def bodyPost3 (c : Dev nD) (t : Fin cfg3.N) : sProp 𝕄 :=
  iprop((pdat3 V c).Φ t.succ ∗ (pdat3 V c).owesAt () t.succ
    ∗ owns (c : Thread nD τ) (st3_0 t) fullShare ((pdat3 V c).after 0 t)
    ∗ owns (c : Thread nD τ) (st3_1 t) fullShare ((pdat3 V c).after 1 t)
    ∗ owns (c : Thread nD τ) (st3_2 t) fullShare ((pdat3 V c).after 2 t))

/-- The body at point `t`: the input buffers hold the point's blocks, so the triple applies with `x0`, `x1` those
    blocks; the invariant and the debt do not depend on the point and are handed through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (pdat3 V c).Φ t.succ = (pdat3 V c).Φ t.castSucc from rfl,
    show (pdat3 V c).owesAt () t.succ = (pdat3 V c).owesAt () t.castSucc from rfl,
    pdat3_after_0, pdat3_after_1, pdat3_after_2]
  iintro ⟨HΦ, Ho, ⟨%d0, H0⟩, ⟨%d1, H1⟩, ⟨%d2, H2⟩⟩
  iapply (sound_kernel3 c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline rule asks for, at every point. -/
theorem body3 (c : Dev nD) : BodyObligation (pdat3 (F := F) V c) (defs₀ (F := F)) Variants.none () Set.univ := fun t => by
  rw [bigSep_W3, bigSep_W3]
  exact sound_body3 V c t

end Cert.Kernel.Hand

end
-- ==== Proof.Bits.Run.lean ====
/-
  The run of @main: thirteen items — host stretches and the four pallas regions — from the launch to the return.

  Between two items the unscoped buffers of a core hold the contents `B j`: a host stretch applies its operations to
  them, a region leaves every buffer as it found it except its output window's array, which ends at what the
  write-backs of all grid points leave. Each region is an item whose obligations are the body's (proved region by
  region) and the exchange of its windows' arrays with the buffers at entry and exit. The launch theorem then gives:
  every weakly fair execution terminates without a fault and ends with every buffer at `B 13`. The frame follows
  because no item writes an argument; the value of the result is read off `B 13` elsewhere.
-/
import proofs.«164169_j52767968199326_1_alg».proof.Proof.Gen.Kernel.Launch
import proofs.«164169_j52767968199326_1_alg».proof.Proof.Gen.Kernel.Skeleton
import proofs.«164169_j52767968199326_1_alg».proof.Proof.Gen.Kernel.Points
import proofs.«164169_j52767968199326_1_alg».proof.Proof.Gen.Kernel.Regions
import proofs.«164169_j52767968199326_1_alg».proof.Proof.Bits.Region0
import proofs.«164169_j52767968199326_1_alg».proof.Proof.Bits.Region1
import proofs.«164169_j52767968199326_1_alg».proof.Proof.Bits.Region2
import proofs.«164169_j52767968199326_1_alg».proof.Proof.Bits.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of @main

@main is thirteen items: five stretches of host operations (the index vectors, the degrees and their inverse square
roots through two selections, the packed per-edge factors), the dense product, a gather, the first per-edge scaling, a
scatter-add, the bias–rectify–product, a gather, the second scaling, and the last scatter-add with its bias. `B j c` is
what core `c`'s unscoped buffers hold after item `j - 1`: a host stretch applies its operations; a region changes only
its windows' arrays — the inputs stay, the output ends at what the write-backs of all grid points leave. -/

/-- Core `c`'s buffers at launch. -/
abbrev B0 (c : Dev nD) : Valuation τ sig (Elt F) := fun b => m (c, b)
/-- After the host stretch `hostOps0`. -/
abbrev B1 (c : Dev nD) : Valuation τ sig (Elt F) := StableHlo.after hostOps0 (B0 m c)
/-- After the host stretch `hostOps0_1`. -/
abbrev B2 (c : Dev nD) : Valuation τ sig (Elt F) := StableHlo.after hostOps0_1 (B1 m c)
/-- After the host stretch `hostOps0_2`. -/
abbrev B3 (c : Dev nD) : Valuation τ sig (Elt F) := StableHlo.after hostOps0_2 (B2 m c)
/-- After the host stretch `hostOps0_3`. -/
abbrev B4 (c : Dev nD) : Valuation τ sig (Elt F) := StableHlo.after hostOps0_3 (B3 m c)
/-- After the host stretch `hostOps0_4`. -/
abbrev B5 (c : Dev nD) : Valuation τ sig (Elt F) := StableHlo.after hostOps0_4 (B4 m c)
/-- The same contents read at the TensorCore's references: what region 0's proof data are stated at. -/
abbrev E5 : (c : Dev nD) → (b : Ref sig .tc) → Buf (Elt F) ((c : Thread nD τ).loc b) := fun c b => B5 m c b
/-- After region 0: its windows' arrays at what the pipeline leaves, every other buffer as entered. -/
def B6 (c : Dev nD) : Valuation τ sig (Elt F) :=
  Pipeline.withArrays spec0 c (B5 m c) fun w => (pdat0 (E5 m) c).arrAt w cfg0.N
theorem B6_arr (c : Dev nD) (w : Fin cfg0.W) :
    B6 m c (Proc.devRef .tc (Pipeline.arrRef spec0 w)) = (pdat0 (E5 m) c).arrAt w cfg0.N := by
  unfold B6; exact Pipeline.withArrays_arr spec0 launch0.win.arr_inj c _ _ w
theorem B6_of_ne (c : Dev nD) (b : Ref sig .tc) (hb : ∀ w, Pipeline.arrRef spec0 w ≠ b) :
    B6 m c (Proc.devRef .tc b) = B5 m c (Proc.devRef .tc b) := by
  unfold B6; exact Pipeline.withArrays_of_ne spec0 c _ _ b hb
abbrev E6 : (c : Dev nD) → (b : Ref sig .tc) → Buf (Elt F) ((c : Thread nD τ).loc b) := fun c b => B6 m c b
theorem exitArr0 (c : Dev nD) (w : Fin cfg0.W) : (pdat0 (E5 m) c).arrAt w cfg0.N = E6 m c (Pipeline.arrRef spec0 w) :=
  (B6_arr m c w).symm
theorem exitRest0 (c : Dev nD) : ∀ b, b ∉ Finset.univ.image (Pipeline.arrRef spec0) → E6 m c b = E5 m c b :=
  fun b hb => B6_of_ne m c b fun w e => hb (Finset.mem_image.mpr ⟨w, Finset.mem_univ _, e⟩)
/-- An input window's array leaves region 0 as it entered. -/
theorem B6_in (c : Dev nD) (w : Fin cfg0.W) (hw : (cfg0.win w).isOut = false) :
    B6 m c (Proc.devRef .tc (Pipeline.arrRef spec0 w)) = B5 m c (Proc.devRef .tc (Pipeline.arrRef spec0 w)) :=
  (B6_arr m c w).trans (((pdat0 (E5 m) c).arrAt_in w hw _).trans (pdat0_A (E5 m) c w))
/-- After the host stretch `hostOps1`. -/
abbrev B7 (c : Dev nD) : Valuation τ sig (Elt F) := StableHlo.after hostOps1 (B6 m c)
/-- The same contents read at the TensorCore's references: what region 1's proof data are stated at. -/
abbrev E7 : (c : Dev nD) → (b : Ref sig .tc) → Buf (Elt F) ((c : Thread nD τ).loc b) := fun c b => B7 m c b
/-- After region 1: its windows' arrays at what the pipeline leaves, every other buffer as entered. -/
def B8 (c : Dev nD) : Valuation τ sig (Elt F) :=
  Pipeline.withArrays spec1 c (B7 m c) fun w => (pdat1 (E7 m) c).arrAt w cfg1.N
theorem B8_arr (c : Dev nD) (w : Fin cfg1.W) :
    B8 m c (Proc.devRef .tc (Pipeline.arrRef spec1 w)) = (pdat1 (E7 m) c).arrAt w cfg1.N := by
  unfold B8; exact Pipeline.withArrays_arr spec1 launch1.win.arr_inj c _ _ w
theorem B8_of_ne (c : Dev nD) (b : Ref sig .tc) (hb : ∀ w, Pipeline.arrRef spec1 w ≠ b) :
    B8 m c (Proc.devRef .tc b) = B7 m c (Proc.devRef .tc b) := by
  unfold B8; exact Pipeline.withArrays_of_ne spec1 c _ _ b hb
abbrev E8 : (c : Dev nD) → (b : Ref sig .tc) → Buf (Elt F) ((c : Thread nD τ).loc b) := fun c b => B8 m c b
theorem exitArr1 (c : Dev nD) (w : Fin cfg1.W) : (pdat1 (E7 m) c).arrAt w cfg1.N = E8 m c (Pipeline.arrRef spec1 w) :=
  (B8_arr m c w).symm
theorem exitRest1 (c : Dev nD) : ∀ b, b ∉ Finset.univ.image (Pipeline.arrRef spec1) → E8 m c b = E7 m c b :=
  fun b hb => B8_of_ne m c b fun w e => hb (Finset.mem_image.mpr ⟨w, Finset.mem_univ _, e⟩)
/-- An input window's array leaves region 1 as it entered. -/
theorem B8_in (c : Dev nD) (w : Fin cfg1.W) (hw : (cfg1.win w).isOut = false) :
    B8 m c (Proc.devRef .tc (Pipeline.arrRef spec1 w)) = B7 m c (Proc.devRef .tc (Pipeline.arrRef spec1 w)) :=
  (B8_arr m c w).trans (((pdat1 (E7 m) c).arrAt_in w hw _).trans (pdat1_A (E7 m) c w))
/-- After the host stretch `hostOps2`. -/
abbrev B9 (c : Dev nD) : Valuation τ sig (Elt F) := StableHlo.after hostOps2 (B8 m c)
/-- The same contents read at the TensorCore's references: what region 2's proof data are stated at. -/
abbrev E9 : (c : Dev nD) → (b : Ref sig .tc) → Buf (Elt F) ((c : Thread nD τ).loc b) := fun c b => B9 m c b
/-- After region 2: its windows' arrays at what the pipeline leaves, every other buffer as entered. -/
def B10 (c : Dev nD) : Valuation τ sig (Elt F) :=
  Pipeline.withArrays spec2 c (B9 m c) fun w => (pdat2 (E9 m) c).arrAt w cfg2.N
theorem B10_arr (c : Dev nD) (w : Fin cfg2.W) :
    B10 m c (Proc.devRef .tc (Pipeline.arrRef spec2 w)) = (pdat2 (E9 m) c).arrAt w cfg2.N := by
  unfold B10; exact Pipeline.withArrays_arr spec2 launch2.win.arr_inj c _ _ w
theorem B10_of_ne (c : Dev nD) (b : Ref sig .tc) (hb : ∀ w, Pipeline.arrRef spec2 w ≠ b) :
    B10 m c (Proc.devRef .tc b) = B9 m c (Proc.devRef .tc b) := by
  unfold B10; exact Pipeline.withArrays_of_ne spec2 c _ _ b hb
abbrev E10 : (c : Dev nD) → (b : Ref sig .tc) → Buf (Elt F) ((c : Thread nD τ).loc b) := fun c b => B10 m c b
theorem exitArr2 (c : Dev nD) (w : Fin cfg2.W) : (pdat2 (E9 m) c).arrAt w cfg2.N = E10 m c (Pipeline.arrRef spec2 w) :=
  (B10_arr m c w).symm
theorem exitRest2 (c : Dev nD) : ∀ b, b ∉ Finset.univ.image (Pipeline.arrRef spec2) → E10 m c b = E9 m c b :=
  fun b hb => B10_of_ne m c b fun w e => hb (Finset.mem_image.mpr ⟨w, Finset.mem_univ _, e⟩)
/-- An input window's array leaves region 2 as it entered. -/
theorem B10_in (c : Dev nD) (w : Fin cfg2.W) (hw : (cfg2.win w).isOut = false) :
    B10 m c (Proc.devRef .tc (Pipeline.arrRef spec2 w)) = B9 m c (Proc.devRef .tc (Pipeline.arrRef spec2 w)) :=
  (B10_arr m c w).trans (((pdat2 (E9 m) c).arrAt_in w hw _).trans (pdat2_A (E9 m) c w))
/-- After the host stretch `hostOps3`. -/
abbrev B11 (c : Dev nD) : Valuation τ sig (Elt F) := StableHlo.after hostOps3 (B10 m c)
/-- The same contents read at the TensorCore's references: what region 3's proof data are stated at. -/
abbrev E11 : (c : Dev nD) → (b : Ref sig .tc) → Buf (Elt F) ((c : Thread nD τ).loc b) := fun c b => B11 m c b
/-- After region 3: its windows' arrays at what the pipeline leaves, every other buffer as entered. -/
def B12 (c : Dev nD) : Valuation τ sig (Elt F) :=
  Pipeline.withArrays spec3 c (B11 m c) fun w => (pdat3 (E11 m) c).arrAt w cfg3.N
theorem B12_arr (c : Dev nD) (w : Fin cfg3.W) :
    B12 m c (Proc.devRef .tc (Pipeline.arrRef spec3 w)) = (pdat3 (E11 m) c).arrAt w cfg3.N := by
  unfold B12; exact Pipeline.withArrays_arr spec3 launch3.win.arr_inj c _ _ w
theorem B12_of_ne (c : Dev nD) (b : Ref sig .tc) (hb : ∀ w, Pipeline.arrRef spec3 w ≠ b) :
    B12 m c (Proc.devRef .tc b) = B11 m c (Proc.devRef .tc b) := by
  unfold B12; exact Pipeline.withArrays_of_ne spec3 c _ _ b hb
abbrev E12 : (c : Dev nD) → (b : Ref sig .tc) → Buf (Elt F) ((c : Thread nD τ).loc b) := fun c b => B12 m c b
theorem exitArr3 (c : Dev nD) (w : Fin cfg3.W) : (pdat3 (E11 m) c).arrAt w cfg3.N = E12 m c (Pipeline.arrRef spec3 w) :=
  (B12_arr m c w).symm
theorem exitRest3 (c : Dev nD) : ∀ b, b ∉ Finset.univ.image (Pipeline.arrRef spec3) → E12 m c b = E11 m c b :=
  fun b hb => B12_of_ne m c b fun w e => hb (Finset.mem_image.mpr ⟨w, Finset.mem_univ _, e⟩)
/-- An input window's array leaves region 3 as it entered. -/
theorem B12_in (c : Dev nD) (w : Fin cfg3.W) (hw : (cfg3.win w).isOut = false) :
    B12 m c (Proc.devRef .tc (Pipeline.arrRef spec3 w)) = B11 m c (Proc.devRef .tc (Pipeline.arrRef spec3 w)) :=
  (B12_arr m c w).trans (((pdat3 (E11 m) c).arrAt_in w hw _).trans (pdat3_A (E11 m) c w))
/-- After the host stretch `hostOps4`. -/
abbrev B13 (c : Dev nD) : Valuation τ sig (Elt F) := StableHlo.after hostOps4 (B12 m c)

/-! ## A host stretch leaves every buffer it does not write -/
theorem B1_of (c : Dev nD) (r : Ref sig .tc) (h : r ∉ hostOps0_W) : B1 m c r = B0 m c r :=
  StableHlo.after_of_writes_sub hostOps0 _ hostOps0_writes h
theorem B2_of (c : Dev nD) (r : Ref sig .tc) (h : r ∉ hostOps0_1_W) : B2 m c r = B1 m c r :=
  StableHlo.after_of_writes_sub hostOps0_1 _ hostOps0_1_writes h
theorem B3_of (c : Dev nD) (r : Ref sig .tc) (h : r ∉ hostOps0_2_W) : B3 m c r = B2 m c r :=
  StableHlo.after_of_writes_sub hostOps0_2 _ hostOps0_2_writes h
theorem B4_of (c : Dev nD) (r : Ref sig .tc) (h : r ∉ hostOps0_3_W) : B4 m c r = B3 m c r :=
  StableHlo.after_of_writes_sub hostOps0_3 _ hostOps0_3_writes h
theorem B5_of (c : Dev nD) (r : Ref sig .tc) (h : r ∉ hostOps0_4_W) : B5 m c r = B4 m c r :=
  StableHlo.after_of_writes_sub hostOps0_4 _ hostOps0_4_writes h
theorem B7_of (c : Dev nD) (r : Ref sig .tc) (h : r ∉ hostOps1_W) : B7 m c r = B6 m c r :=
  StableHlo.after_of_writes_sub hostOps1 _ hostOps1_writes h
theorem B9_of (c : Dev nD) (r : Ref sig .tc) (h : r ∉ hostOps2_W) : B9 m c r = B8 m c r :=
  StableHlo.after_of_writes_sub hostOps2 _ hostOps2_writes h
theorem B11_of (c : Dev nD) (r : Ref sig .tc) (h : r ∉ hostOps3_W) : B11 m c r = B10 m c r :=
  StableHlo.after_of_writes_sub hostOps3 _ hostOps3_writes h
theorem B13_of (c : Dev nD) (r : Ref sig .tc) (h : r ∉ hostOps4_W) : B13 m c r = B12 m c r :=
  StableHlo.after_of_writes_sub hostOps4 _ hostOps4_writes h

/-! ## The proof data of the four pipelines, and what rides beside the buffers -/

/-- Every pipeline's proof data, each at the contents its region is entered with. -/
def pdats : (p : Fin 4) → (c : Dev nD) → Dat τ (Elt F) Unit ℕ (UR sig nD τ) ℕ (Pipeline.pin (pcfgs (F := F)) adm p) c
  | ⟨0, _⟩ => fun c => pdat0 (E5 m) c
  | ⟨1, _⟩ => fun c => pdat1 (E7 m) c
  | ⟨2, _⟩ => fun c => pdat2 (E9 m) c
  | ⟨3, _⟩ => fun c => pdat3 (E11 m) c
abbrev novar : Variants := Variants.none
/-- No core owes another anything: no level is assigned. -/
abbrev noL : GSem nD τ sig → Finset Unit := fun _ => ∅
abbrev nolv : GSem nD τ sig → Unit → ℕ := fun _ _ => 0
/-- Beside the buffers every item carries the core's generator register at some state and its dues, which are none. -/
abbrev Rest (c : Dev nD) : sProp 𝕄 := iprop((∃ r, prngReg c r) ∗ ∃ W, owes (c : Thread nD τ) (0 : CellTallies nD τ sig Unit) W)
/-- A host stretch as an item: its operations over the unscoped buffers from the contents `W`, the rest riding along. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ novar noL nolv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Last (c : Dev nD) : sProp 𝕄 := iprop(StableHlo.held (c : Thread nD τ) (Pipeline.ucRefs τ sig) (B13 m c) ∗ ∃ r, prngReg c r)

/-! ## The regions as items

Each region is entered from "every unscoped buffer at the boundary's contents": its windows' arrays are split out of the
buffers, the pipeline runs over them with the body's obligation, and the arrays are put back at what the pipeline leaves. -/

set_option backward.isDefEq.respectTransparency.types false in
/-- Region 0: entered from the buffers at `B5`, left at `B6`. -/
def regionItem0 : Pipeline.RegionSeg (pcfgs (F := F)) adm (pdats m) () defs₀ novar noL nolv 0 where
  win := launch0.win.to₀
  block_pos := launch0.block_pos
  stage_whole := launch0.stage_whole
  K := PEmpty
  osem k := k.elim
  ho := Pipeline.OwnSemFacts.none _
  hbody c := (body0 (E5 m) c).loose
  hwaits := Pipeline.hwaits_of_owed_zero _ _ _ _ noL nolv 0 fun _ _ => rfl
  pre c := iprop(StableHlo.held (c : Thread nD τ) (Pipeline.ucRefs τ sig) (B5 m c) ∗ Rest c)
  post c := iprop(StableHlo.held (c : Thread nD τ) (Pipeline.ucRefs τ sig) (B6 m c) ∗ Rest c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from the buffers at `B7`, left at `B8`. -/
def regionItem1 : Pipeline.RegionSeg (pcfgs (F := F)) adm (pdats m) () defs₀ novar noL nolv 1 where
  win := launch1.win.to₀
  block_pos := launch1.block_pos
  stage_whole := launch1.stage_whole
  K := PEmpty
  osem k := k.elim
  ho := Pipeline.OwnSemFacts.none _
  hbody c := (body1 (E7 m) c).loose
  hwaits := Pipeline.hwaits_of_owed_zero _ _ _ _ noL nolv 1 fun _ _ => rfl
  pre c := iprop(StableHlo.held (c : Thread nD τ) (Pipeline.ucRefs τ sig) (B7 m c) ∗ Rest c)
  post c := iprop(StableHlo.held (c : Thread nD τ) (Pipeline.ucRefs τ sig) (B8 m c) ∗ Rest c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7 m c) (E8 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from the buffers at `B9`, left at `B10`. -/
def regionItem2 : Pipeline.RegionSeg (pcfgs (F := F)) adm (pdats m) () defs₀ novar noL nolv 2 where
  win := launch2.win.to₀
  block_pos := launch2.block_pos
  stage_whole := launch2.stage_whole
  K := PEmpty
  osem k := k.elim
  ho := Pipeline.OwnSemFacts.none _
  hbody c := (body2 (E9 m) c).loose
  hwaits := Pipeline.hwaits_of_owed_zero _ _ _ _ noL nolv 2 fun _ _ => rfl
  pre c := iprop(StableHlo.held (c : Thread nD τ) (Pipeline.ucRefs τ sig) (B9 m c) ∗ Rest c)
  post c := iprop(StableHlo.held (c : Thread nD τ) (Pipeline.ucRefs τ sig) (B10 m c) ∗ Rest c)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E9 m c) (E10 m c) ((pdats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from the buffers at `B11`, left at `B12`. -/
def regionItem3 : Pipeline.RegionSeg (pcfgs (F := F)) adm (pdats m) () defs₀ novar noL nolv 3 where
  win := launch3.win.to₀
  block_pos := launch3.block_pos
  stage_whole := launch3.stage_whole
  K := PEmpty
  osem k := k.elim
  ho := Pipeline.OwnSemFacts.none _
  hbody c := (body3 (E11 m) c).loose
  hwaits := Pipeline.hwaits_of_owed_zero _ _ _ _ noL nolv 3 fun _ _ => rfl
  pre c := iprop(StableHlo.held (c : Thread nD τ) (Pipeline.ucRefs τ sig) (B11 m c) ∗ Rest c)
  post c := iprop(StableHlo.held (c : Thread nD τ) (Pipeline.ucRefs τ sig) (B12 m c) ∗ Rest c)
  X c := iprop(∃ r, prngReg c r)
  Y c := iprop(∃ r, prngReg c r)
  Z c := Pipeline.unscopedRest (Ix := Unit) (Name := ℕ) (U := UR sig nD τ) (Lvl := ℕ) spec3 c (E11 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E11 m c) (E12 m c) ((pdats m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

/-- @main's thirteen items in order. -/
abbrev items : List (Pipeline.Seg (pcfgs (F := F)) adm (pdats m) () defs₀ novar noL nolv) :=
  [ .host (hostItem hostOps0 hostOps0_sub hostOps0_fresh (B0 m)),
    .host (hostItem hostOps0_1 hostOps0_1_sub hostOps0_1_fresh (B1 m)),
    .host (hostItem hostOps0_2 hostOps0_2_sub hostOps0_2_fresh (B2 m)),
    .host (hostItem hostOps0_3 hostOps0_3_sub hostOps0_3_fresh (B3 m)),
    .host (hostItem hostOps0_4 hostOps0_4_sub hostOps0_4_fresh (B4 m)),
    .region (regionItem0 m),
    .host (hostItem hostOps1 hostOps1_sub hostOps1_fresh (B6 m)),
    .region (regionItem1 m),
    .host (hostItem hostOps2 hostOps2_sub hostOps2_fresh (B8 m)),
    .region (regionItem2 m),
    .host (hostItem hostOps3 hostOps3_sub hostOps3_fresh (B10 m)),
    .region (regionItem3 m),
    .host (hostItem hostOps4 hostOps4_sub hostOps4_fresh (B12 m)) ]
/-- @main is the run of its items. -/
theorem main_items (c : Dev nD) : main (F := F) c = Pipeline.Seg.run (items m) := (main_chain c).trans (by chain_rfl)

set_option backward.isDefEq.respectTransparency.types false in
/-- THE RUN. From any memory with zero counters every weakly fair execution of @main terminates, nothing faulting, and in
    every final state every unscoped buffer of every core holds the last boundary's contents `B13`. Both the frame
    (the arguments unchanged) and the value of the result are read off this. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B13 m c b) :=
  Pipeline.θ_run_regions_kit (pcfgs (F := F)) adm (pdats m) () cellOf_inj emb₁ defs₀ novar noL nolv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c)) (Tₙ := Last m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (B13 m c) ∗ Rest c)
          ⊢ iprop(Last m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach noL nolv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B13 m c b)
    (hfin := fun c s' => by
      iintro ⟨⟨Hh, -⟩, HSI⟩
      unfold StableHlo.held
      imodintro
      iapply (pointsTo_read_all (Pipeline.ucRefs τ sig) (fun b => (((c : Thread nD τ)).1, b)) (B13 m c) s')
      isplitl [Hh] <;> iassumption)
    (hQ := fun s h => h)

/-! ## No item writes an argument

No host operation writes an argument; a region that reads one reads it through an input window, whose array it leaves
as it found it. -/
theorem B13_main_arg0 (c : Dev nD) : B13 m c (Proc.devRef .tc main_arg0) = m ((c : Thread nD τ).loc main_arg0) :=
  (B13_of m c main_arg0 (by decide)).trans <| (B12_of_ne m c main_arg0 (by decide)).trans <| (B11_of m c main_arg0 (by decide)).trans <| (B10_of_ne m c main_arg0 (by decide)).trans <| (B9_of m c main_arg0 (by decide)).trans <| (B8_of_ne m c main_arg0 (by decide)).trans <| (B7_of m c main_arg0 (by decide)).trans <| (B6_in m c 0 rfl).trans <| (B5_of m c main_arg0 (by decide)).trans <| (B4_of m c main_arg0 (by decide)).trans <| (B3_of m c main_arg0 (by decide)).trans <| (B2_of m c main_arg0 (by decide)).trans <| (B1_of m c main_arg0 (by decide)).trans rfl
theorem B13_main_arg1 (c : Dev nD) : B13 m c (Proc.devRef .tc main_arg1) = m ((c : Thread nD τ).loc main_arg1) :=
  (B13_of m c main_arg1 (by decide)).trans <| (B12_of_ne m c main_arg1 (by decide)).trans <| (B11_of m c main_arg1 (by decide)).trans <| (B10_of_ne m c main_arg1 (by decide)).trans <| (B9_of m c main_arg1 (by decide)).trans <| (B8_of_ne m c main_arg1 (by decide)).trans <| (B7_of m c main_arg1 (by decide)).trans <| (B6_of_ne m c main_arg1 (by decide)).trans <| (B5_of m c main_arg1 (by decide)).trans <| (B4_of m c main_arg1 (by decide)).trans <| (B3_of m c main_arg1 (by decide)).trans <| (B2_of m c main_arg1 (by decide)).trans <| (B1_of m c main_arg1 (by decide)).trans rfl
theorem B13_main_arg2 (c : Dev nD) : B13 m c (Proc.devRef .tc main_arg2) = m ((c : Thread nD τ).loc main_arg2) :=
  (B13_of m c main_arg2 (by decide)).trans <| (B12_of_ne m c main_arg2 (by decide)).trans <| (B11_of m c main_arg2 (by decide)).trans <| (B10_of_ne m c main_arg2 (by decide)).trans <| (B9_of m c main_arg2 (by decide)).trans <| (B8_of_ne m c main_arg2 (by decide)).trans <| (B7_of m c main_arg2 (by decide)).trans <| (B6_of_ne m c main_arg2 (by decide)).trans <| (B5_of m c main_arg2 (by decide)).trans <| (B4_of m c main_arg2 (by decide)).trans <| (B3_of m c main_arg2 (by decide)).trans <| (B2_of m c main_arg2 (by decide)).trans <| (B1_of m c main_arg2 (by decide)).trans rfl
theorem B13_main_arg3 (c : Dev nD) : B13 m c (Proc.devRef .tc main_arg3) = m ((c : Thread nD τ).loc main_arg3) :=
  (B13_of m c main_arg3 (by decide)).trans <| (B12_of_ne m c main_arg3 (by decide)).trans <| (B11_of m c main_arg3 (by decide)).trans <| (B10_of_ne m c main_arg3 (by decide)).trans <| (B9_of m c main_arg3 (by decide)).trans <| (B8_of_ne m c main_arg3 (by decide)).trans <| (B7_of m c main_arg3 (by decide)).trans <| (B6_in m c 1 rfl).trans <| (B5_of m c main_arg3 (by decide)).trans <| (B4_of m c main_arg3 (by decide)).trans <| (B3_of m c main_arg3 (by decide)).trans <| (B2_of m c main_arg3 (by decide)).trans <| (B1_of m c main_arg3 (by decide)).trans rfl
theorem B13_main_arg4 (c : Dev nD) : B13 m c (Proc.devRef .tc main_arg4) = m ((c : Thread nD τ).loc main_arg4) :=
  (B13_of m c main_arg4 (by decide)).trans <| (B12_of_ne m c main_arg4 (by decide)).trans <| (B11_of m c main_arg4 (by decide)).trans <| (B10_of_ne m c main_arg4 (by decide)).trans <| (B9_of m c main_arg4 (by decide)).trans <| (B8_of_ne m c main_arg4 (by decide)).trans <| (B7_of m c main_arg4 (by decide)).trans <| (B6_of_ne m c main_arg4 (by decide)).trans <| (B5_of m c main_arg4 (by decide)).trans <| (B4_of m c main_arg4 (by decide)).trans <| (B3_of m c main_arg4 (by decide)).trans <| (B2_of m c main_arg4 (by decide)).trans <| (B1_of m c main_arg4 (by decide)).trans rfl
theorem B13_main_arg5 (c : Dev nD) : B13 m c (Proc.devRef .tc main_arg5) = m ((c : Thread nD τ).loc main_arg5) :=
  (B13_of m c main_arg5 (by decide)).trans <| (B12_of_ne m c main_arg5 (by decide)).trans <| (B11_of m c main_arg5 (by decide)).trans <| (B10_in m c 2 rfl).trans <| (B9_of m c main_arg5 (by decide)).trans <| (B8_of_ne m c main_arg5 (by decide)).trans <| (B7_of m c main_arg5 (by decide)).trans <| (B6_of_ne m c main_arg5 (by decide)).trans <| (B5_of m c main_arg5 (by decide)).trans <| (B4_of m c main_arg5 (by decide)).trans <| (B3_of m c main_arg5 (by decide)).trans <| (B2_of m c main_arg5 (by decide)).trans <| (B1_of m c main_arg5 (by decide)).trans rfl
theorem B13_main_arg6 (c : Dev nD) : B13 m c (Proc.devRef .tc main_arg6) = m ((c : Thread nD τ).loc main_arg6) :=
  (B13_of m c main_arg6 (by decide)).trans <| (B12_of_ne m c main_arg6 (by decide)).trans <| (B11_of m c main_arg6 (by decide)).trans <| (B10_of_ne m c main_arg6 (by decide)).trans <| (B9_of m c main_arg6 (by decide)).trans <| (B8_of_ne m c main_arg6 (by decide)).trans <| (B7_of m c main_arg6 (by decide)).trans <| (B6_of_ne m c main_arg6 (by decide)).trans <| (B5_of m c main_arg6 (by decide)).trans <| (B4_of m c main_arg6 (by decide)).trans <| (B3_of m c main_arg6 (by decide)).trans <| (B2_of m c main_arg6 (by decide)).trans <| (B1_of m c main_arg6 (by decide)).trans rfl

/-- THE FRAME: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (B13_main_arg0 m c),
    (h c _ (mem_uc main_arg1 (by decide))).trans (B13_main_arg1 m c),
    (h c _ (mem_uc main_arg2 (by decide))).trans (B13_main_arg2 m c),
    (h c _ (mem_uc main_arg3 (by decide))).trans (B13_main_arg3 m c),
    (h c _ (mem_uc main_arg4 (by decide))).trans (B13_main_arg4 m c),
    (h c _ (mem_uc main_arg5 (by decide))).trans (B13_main_arg5 m c),
    (h c _ (mem_uc main_arg6 (by decide))).trans (B13_main_arg6 m c)⟩) (run_all m ρ)

end Cert.Kernel.Hand

end
-- ==== Proof.Ideal.Region0.lean ====
import proofs.«164169_j52767968199326_1_alg».proof.Proof.Gen.KernelIdeal.Launch
import proofs.«164169_j52767968199326_1_alg».proof.Proof.Gen.KernelIdeal.Skeleton
import proofs.«164169_j52767968199326_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle fills a block of ten thousand rows walks the long axis coordinate by coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what the core's buffers hold when the region is entered; everything below is stated relative to it
variable (V : (c : Dev nD) → (b : Ref sig .tc) → Buf (Elt F) ((c : Thread nD τ).loc b))

/-! # Region 0: the first dense layer, one block of rows per grid point

At grid point `t` the body reads a 10000x3 block of the node features and the whole 3x16 weight matrix,
rounds both to bf16, multiplies them into a zero accumulator, and overwrites the 10000x16 output block. -/

/-! ## Blocks -/

/-- The block of window `w` that grid point `t` addresses, cut out of the window's array as it stands at entry. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window (index moves with the point) holds its block whenever the body runs. Needed of the proof
    data: its array for this window is the entry contents, and the body leaves this window's buffer as it found it.
    The window is an input, never idle, and never clipped, so its buffer is what a fetch would have brought. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight window has a constant block index: it is brought in at the first point only. At a later point the
    buffer still holds what the previous point left, which is the same block because the index did not move and the
    body does not write it. So again the buffer holds the window's block at every point. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The rectangles the body touches: each access is of a whole buffer -/

abbrev rc0_0 : Rect S10000x3 := Rect.unit (s := S10000x3) ![0, 0] S10000x3.size inb_S10000x3_S10000x3_0_0
abbrev rc0_1 : Rect S3x16 := Rect.unit (s := S3x16) ![0, 0] S3x16.size inb_S3x16_S3x16_0_0
abbrev rc0_2 : Rect S10000x16 := Rect.unit (s := S10000x16) ![0, 0] S10000x16.size inb_S10000x16_S10000x16_0_0

/-! ## The output buffer after the body -/

/-- The output block as a function of the two input blocks: a single write of the whole buffer, whose value is
    the bf16 product of the feature block and the weights (the payload `k0_pay1`). Every entry (r, j) depends on
    row r of the features and column j of the weights only. -/
def stored0 (x0 : Vec F S10000x3 .f32) (x1 : Vec F S3x16 .f32) : Vec F S10000x16 .f32 :=
  View.canon [⟨rc0_2, k0_pay1 (View.ld x0 rc0_0) (View.ld x1 rc0_1)⟩]

/-- That single write reaches every index of the buffer: the rectangle has the buffer's extents. -/
theorem cover0 (p0 : Vec F S10000x16 .f32) (y : S10000x16.Idx) :
    ∃ pc ∈ ([⟨rc0_2, p0⟩] : List (View.Piece (Elt F) S10000x16 .f32)), y ∈ pc.1.set :=
  View.cover_of_tiled [⟨rc0_2, p0⟩] S10000x16.size (by rfl) y

/-! ## The body as a triple over whole staging buffers -/

set_option maxHeartbeats 1000000 in
/-- Given the two input buffers at read contents `x0`, `x1` and the output buffer at anything, the body returns
    the inputs unchanged and the output at `stored0 x0 x1`. The body's three loads (the third, of the output buffer,
    is never used) and one store are stepped through in order; the store's effect on the buffer is then identified
    with the canonical contents of a covering list of writes. -/
theorem kernel0_triple (c : Dev nD) (E : Set ℕ) (i : grid0.Coords)
    (arg1 : Memref sig .tc .vmem S10000x3 .f32) (harg1 : arg1.IsWhole)
    (arg2 : Memref sig .tc .vmem S3x16 .f32) (harg2 : arg2.IsWhole)
    (arg3 : Memref sig .tc .vmem S10000x16 .f32) (harg3 : arg3.IsWhole)
    (x0 : Vec F S10000x3 .f32) (x1 : Vec F S3x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored0 x0 x1)) -∗ K ⟨⟩))
      ⊢ wp frame (wpE (defs₀ (F := F)) Variants.none c none) E (cc0__dense_kernel i arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## Proof data of the pipeline -/

/-- The pipeline's proof data on core `c`. Arrays: the entry contents. After the body at point `t`: the input
    buffers still hold their blocks, the output buffer holds `stored0` of them. The invariant is the one of a region
    that touches nothing outside its windows; no write-back is owed between points; every share is full. -/
def pdat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => stored0 (blk0 V c 0 t) (blk0 V c 1 t)
  Φ _ := Pipeline.ΦA spec0 c
  q _ := fullShare
  owed _ := 0

/-- The arrays of the proof data, projected. -/
theorem pdat0_A (c : Dev nD) (w : Fin cfg0.W) : (pdat0 V c).A w = V c (Pipeline.arrRef spec0 w) := by
  dsimp only [pdat0]

/-- What the body leaves, one window at a time. -/
theorem pdat0_after_0 (c : Dev nD) (t : Fin cfg0.N) : (pdat0 V c).after 0 t = blk0 V c 0 t := by dsimp only [pdat0]
theorem pdat0_after_1 (c : Dev nD) (t : Fin cfg0.N) : (pdat0 V c).after 1 t = blk0 V c 1 t := by dsimp only [pdat0]
theorem pdat0_after_2 (c : Dev nD) (t : Fin cfg0.N) : (pdat0 V c).after 2 t = stored0 (blk0 V c 0 t) (blk0 V c 1 t) := by dsimp only [pdat0]

/-- Both input buffers hold their blocks when the body is called. -/
theorem before0_0 (c : Dev nD) (t : Fin cfg0.N) (d) : (pdat0 V c).before 0 t d = blk0 V c 0 t :=
  before0_0_of V (pdat0 V c) (pdat0_A V c 0) (pdat0_after_0 V c) t d
theorem before0_1 (c : Dev nD) (t : Fin cfg0.N) (d) : (pdat0 V c).before 1 t d = blk0 V c 1 t :=
  before0_1_of V (pdat0 V c) (pdat0_A V c 1) (pdat0_after_1 V c) t d

/-! ## The obligation on the body at one point -/

/-- What the body is given at point `t`: the invariant, the owed write-backs, and the three current buffers. -/
def bodyPre0 (c : Dev nD) (t : Fin cfg0.N) : sProp 𝕄 :=
  iprop((pdat0 V c).Φ t.castSucc ∗ (pdat0 V c).owesAt () t.castSucc
    ∗ (∃ d, owns (c : Thread nD τ) (st0_0 t) fullShare ((pdat0 V c).before 0 t d))
    ∗ (∃ d, owns (c : Thread nD τ) (st0_1 t) fullShare ((pdat0 V c).before 1 t d))
    ∗ (∃ d, owns (c : Thread nD τ) (st0_2 t) fullShare ((pdat0 V c).before 2 t d)))

/-- What it must give back. -/
def bodyPost0 (c : Dev nD) (t : Fin cfg0.N) : sProp 𝕄 :=
  iprop((pdat0 V c).Φ t.succ ∗ (pdat0 V c).owesAt () t.succ
    ∗ owns (c : Thread nD τ) (st0_0 t) fullShare ((pdat0 V c).after 0 t)
    ∗ owns (c : Thread nD τ) (st0_1 t) fullShare ((pdat0 V c).after 1 t)
    ∗ owns (c : Thread nD τ) (st0_2 t) fullShare ((pdat0 V c).after 2 t))

/-- At any point the input buffers hold their blocks, so the triple above applies with those blocks as `x0`, `x1`;
    the invariant and the owed write-backs do not depend on the point and are handed through untouched. -/
theorem body0_at (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (pdat0 V c).Φ t.succ = (pdat0 V c).Φ t.castSucc from rfl,
    show (pdat0 V c).owesAt () t.succ = (pdat0 V c).owesAt () t.castSucc from rfl,
    pdat0_after_0, pdat0_after_1, pdat0_after_2]
  iintro ⟨HΦ, Ho, ⟨%d0, H0⟩, ⟨%d1, H1⟩, ⟨%d2, H2⟩⟩
  iapply (kernel0_triple c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point: the separating product over the three windows written out. -/
theorem body0 (c : Dev nD) : BodyObligation (pdat0 (F := F) V c) (defs₀ (F := F)) Variants.none () Set.univ := fun t => by
  rw [bigSep_W0, bigSep_W0]
  exact body0_at V c t

end Cert.KernelIdeal.Hand

end
-- ==== Proof.Ideal.Region1.lean ====
import proofs.«164169_j52767968199326_1_alg».proof.Proof.Gen.KernelIdeal.Launch
import proofs.«164169_j52767968199326_1_alg».proof.Proof.Gen.KernelIdeal.Skeleton
import proofs.«164169_j52767968199326_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when this region starts; everything below is stated relative to it
variable (V : (c : Dev nD) → (b : Ref sig .tc) → Buf (Elt F) ((c : Thread nD τ).loc b))

/-! # Region 1: the edge-message kernel with 16 feature columns

Per grid point the body sees a 10400x16 block `h` of gathered features and the matching 10400x3 block `r` of
per-edge scalars, and writes the 10400x16 block whose row `i` is `h i` scaled by `(r i 0 * r i 2) * r i 1`. -/

/-! ## Blocks -/

/-- The block of window `w` at grid point `t`: the entries of the window's array, as the region finds it, that the
    window's index map selects at `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's staging buffer holds the block of point `t` when the body starts there, for any proof data
    over the entry arrays whose body leaves that buffer as it found it. A point that does not fetch has the same block
    index as the point before it, so the block left there is this point's block; the window is an input, is never
    idle, and is not clipped. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The same for the window of per-edge scalars. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The rectangles the body reads and writes -/

/-- All of a 10400x16 buffer. -/
abbrev r1_0 : Rect S10400x16 := Rect.unit (s := S10400x16) ![0, 0] S10400x16.size inb_S10400x16_S10400x16_0_0
/-- All of a 10400x3 buffer. -/
abbrev r1_1 : Rect S10400x3 := Rect.unit (s := S10400x3) ![0, 0] S10400x3.size inb_S10400x3_S10400x3_0_0

/-! ## What the body leaves in the output buffer -/

/-- The output buffer after the body, as a function of the feature block `x0` and the scalar block `x1`: one write
    over the whole buffer, of the product of `x0` with the row scale computed from `x1`. -/
def stored1 (x0 : Vec F S10400x16 .f32) (x1 : Vec F S10400x3 .f32) : Vec F S10400x16 .f32 :=
  View.canon [⟨r1_0, k1_pay1 (View.ld x1 r1_1) (View.ld x0 r1_0)⟩]

/-- That one write reaches every index of the buffer: its rectangle has the buffer's extents. -/
theorem cover1_2 (p0 : Vec F S10400x16 .f32) (y : S10400x16.Idx) :
    ∃ pc ∈ ([⟨r1_0, p0⟩] : List (View.Piece (Elt F) S10400x16 .f32)), y ∈ pc.1.set :=
  View.cover_of_tiled [⟨r1_0, p0⟩] S10400x16.size (by rfl) y

/-! ## The body's triple -/

set_option maxHeartbeats 1000000 in
/-- Run on whole buffers — the features' holding `x0`, the scalars' holding `x1`, the output's holding anything — the
    body ends with the two inputs unchanged and the output holding `stored1 x0 x1`. The body reads the scalars, the
    features and (without using it) the output, then writes the output once. -/
theorem sound_kernel1 (c : Dev nD) (E : Set ℕ) (i : grid1.Coords) (arg0 : Memref sig .tc .vmem S10400x16 .f32) (harg0 : arg0.IsWhole) (arg1 : Memref sig .tc .vmem S10400x3 .f32) (harg1 : arg1.IsWhole) (arg2 : Memref sig .tc .vmem S10400x16 .f32) (harg2 : arg2.IsWhole)
    (x0 : Vec F S10400x16 .f32) (x1 : Vec F S10400x3 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (stored1 x0 x1)) -∗ K ⟨⟩))
      ⊢ wp frame (wpE (defs₀ (F := F)) Variants.none c none) E (cc1__message_kernel i arg0 harg0 arg1 harg1 arg2 harg2) K := by
  simp only [cc1__message_kernel_eq_skeleton]; unfold cc1__message_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data of the pipeline -/

/-- On core `c`: the arrays are the entry contents; after the body at point `t` each input buffer still holds its block
    and the output buffer holds `stored1` of the two input blocks; the invariant is the one that leaves every other
    buffer and the generator register untouched; full shares; nothing owed. -/
def pdat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => stored1 (blk1 V c 0 t) (blk1 V c 1 t)
  Φ _ := Pipeline.ΦA spec1 c
  q _ := fullShare
  owed _ := 0

/-- Its arrays are the entry contents (a projection of the definition). -/
theorem pdat1_A (c : Dev nD) (w : Fin cfg1.W) : (pdat1 V c).A w = V c (Pipeline.arrRef spec1 w) := by
  dsimp only [pdat1]

/-- What the body leaves in each window's buffer (the definition's case split, reduced). -/
theorem pdat1_after_0 (c : Dev nD) (t : Fin cfg1.N) : (pdat1 V c).after 0 t = blk1 V c 0 t := by dsimp only [pdat1]
theorem pdat1_after_1 (c : Dev nD) (t : Fin cfg1.N) : (pdat1 V c).after 1 t = blk1 V c 1 t := by dsimp only [pdat1]
theorem pdat1_after_2 (c : Dev nD) (t : Fin cfg1.N) : (pdat1 V c).after 2 t = stored1 (blk1 V c 0 t) (blk1 V c 1 t) := by dsimp only [pdat1]

/-- When the body starts at any point, each input buffer holds that point's block. -/
theorem before1_0 (c : Dev nD) (t : Fin cfg1.N) (d) : (pdat1 V c).before 0 t d = blk1 V c 0 t :=
  before1_0_of V (pdat1 V c) (pdat1_A V c 0) (pdat1_after_0 V c) t d
theorem before1_1 (c : Dev nD) (t : Fin cfg1.N) (d) : (pdat1 V c).before 1 t d = blk1 V c 1 t :=
  before1_1_of V (pdat1 V c) (pdat1_A V c 1) (pdat1_after_1 V c) t d

/-! ## The body obligation -/

/-- What the body is given at point `t`: the invariant, the debt, and each window's current buffer. -/
def bodyPre1 (c : Dev nD) (t : Fin cfg1.N) : sProp 𝕄 :=
  iprop((pdat1 V c).Φ t.castSucc ∗ (pdat1 V c).owesAt () t.castSucc
    ∗ (∃ d, owns (c : Thread nD τ) (st1_0 t) fullShare ((pdat1 V c).before 0 t d))
    ∗ (∃ d, owns (c : Thread nD τ) (st1_1 t) fullShare ((pdat1 V c).before 1 t d))
    ∗ (∃ d, owns (c : Thread nD τ) (st1_2 t) fullShare ((pdat1 V c).before 2 t d)))

/-- What it gives back. -/
def bodyPost1 (c : Dev nD) (t : Fin cfg1.N) : sProp 𝕄 :=
  iprop((pdat1 V c).Φ t.succ ∗ (pdat1 V c).owesAt () t.succ
    ∗ owns (c : Thread nD τ) (st1_0 t) fullShare ((pdat1 V c).after 0 t)
    ∗ owns (c : Thread nD τ) (st1_1 t) fullShare ((pdat1 V c).after 1 t)
    ∗ owns (c : Thread nD τ) (st1_2 t) fullShare ((pdat1 V c).after 2 t))

/-- The body at point `t`: the input buffers hold the point's blocks, so the triple applies with `x0`, `x1` those
    blocks; the invariant and the debt do not depend on the point and are handed through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (pdat1 V c).Φ t.succ = (pdat1 V c).Φ t.castSucc from rfl,
    show (pdat1 V c).owesAt () t.succ = (pdat1 V c).owesAt () t.castSucc from rfl,
    pdat1_after_0, pdat1_after_1, pdat1_after_2]
  iintro ⟨HΦ, Ho, ⟨%d0, H0⟩, ⟨%d1, H1⟩, ⟨%d2, H2⟩⟩
  iapply (sound_kernel1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline rule asks for, at every point. -/
theorem body1 (c : Dev nD) : BodyObligation (pdat1 (F := F) V c) (defs₀ (F := F)) Variants.none () Set.univ := fun t => by
  rw [bigSep_W1, bigSep_W1]
  exact sound_body1 V c t

end Cert.KernelIdeal.Hand

end
-- ==== Proof.Ideal.Region2.lean ====
import proofs.«164169_j52767968199326_1_alg».proof.Proof.Gen.KernelIdeal.Launch
import proofs.«164169_j52767968199326_1_alg».proof.Proof.Gen.KernelIdeal.Skeleton
import proofs.«164169_j52767968199326_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle fills a block of ten thousand rows walks the long axis coordinate by coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what the core's buffers hold when the region is entered; everything below is stated relative to it
variable (V : (c : Dev nD) → (b : Ref sig .tc) → Buf (Elt F) ((c : Thread nD τ).loc b))

/-! # Region 2: bias, rectifier and the second dense layer, one block of rows per grid point

At grid point `t` the body reads a 10000x16 block of the aggregated messages, the 1x16 bias row and the whole
16x7 weight matrix; adds the bias to every row, takes the maximum with zero, rounds that and the weights to bf16,
multiplies them into a zero accumulator, and overwrites the 10000x7 output block. -/

/-! ## Blocks -/

/-- The block of window `w` that grid point `t` addresses, cut out of the window's array as it stands at entry. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The aggregate window (index moves with the point) holds its block whenever the body runs. Needed of the proof
    data: its array for this window is the entry contents, and the body leaves this window's buffer as it found it.
    The window is an input, never idle, and never clipped, so its buffer is what a fetch would have brought. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The bias window has a constant block index: it is brought in at the first point only. At a later point the
    buffer still holds what the previous point left, which is the same block because the index did not move and the
    body does not write it. So the buffer holds the window's block at every point. -/
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The weight window is constant in the same way, with the same conclusion. -/
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-! ## The rectangles the body touches: each access is of a whole buffer -/

abbrev rc2_0 : Rect S10000x16 := Rect.unit (s := S10000x16) ![0, 0] S10000x16.size inb_S10000x16_S10000x16_0_0
abbrev rc2_1 : Rect S1x16 := Rect.unit (s := S1x16) ![0, 0] S1x16.size inb_S1x16_S1x16_0_0
abbrev rc2_2 : Rect S16x7 := Rect.unit (s := S16x7) ![0, 0] S16x7.size inb_S16x7_S16x7_0_0
abbrev rc2_3 : Rect S10000x7 := Rect.unit (s := S10000x7) ![0, 0] S10000x7.size inb_S10000x7_S10000x7_0_0

/-! ## The output buffer after the body -/

/-- The output block as a function of the three input blocks: a single write of the whole buffer, whose value is
    the bf16 product of max(aggregate + bias, 0) and the weights (the payload `k2_pay1`). Every entry (r, j) depends
    on row r of the aggregate, the whole bias row, and column j of the weights only. -/
def stored2 (x0 : Vec F S10000x16 .f32) (x1 : Vec F S1x16 .f32) (x2 : Vec F S16x7 .f32) : Vec F S10000x7 .f32 :=
  View.canon [⟨rc2_3, k2_pay1 (View.ld x0 rc2_0) (View.ld x1 rc2_1) (View.ld x2 rc2_2)⟩]

/-- That single write reaches every index of the buffer: the rectangle has the buffer's extents. -/
theorem cover2 (p0 : Vec F S10000x7 .f32) (y : S10000x7.Idx) :
    ∃ pc ∈ ([⟨rc2_3, p0⟩] : List (View.Piece (Elt F) S10000x7 .f32)), y ∈ pc.1.set :=
  View.cover_of_tiled [⟨rc2_3, p0⟩] S10000x7.size (by rfl) y

/-! ## The body as a triple over whole staging buffers -/

set_option maxHeartbeats 1000000 in
/-- Given the three input buffers at read contents `x0`, `x1`, `x2` and the output buffer at anything, the body
    returns the inputs unchanged and the output at `stored2 x0 x1 x2`. The body's four loads (the fourth, of the
    output buffer, is never used) and one store are stepped through in order; the store's effect on the buffer is then
    identified with the canonical contents of a covering list of writes. -/
theorem kernel2_triple (c : Dev nD) (E : Set ℕ) (i : grid2.Coords)
    (arg1 : Memref sig .tc .vmem S10000x16 .f32) (harg1 : arg1.IsWhole)
    (arg2 : Memref sig .tc .vmem S1x16 .f32) (harg2 : arg2.IsWhole)
    (arg3 : Memref sig .tc .vmem S16x7 .f32) (harg3 : arg3.IsWhole)
    (arg4 : Memref sig .tc .vmem S10000x7 .f32) (harg4 : arg4.IsWhole)
    (x0 : Vec F S10000x16 .f32) (x1 : Vec F S1x16 .f32) (x2 : Vec F S16x7 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (stored2 x0 x1 x2)) -∗ K ⟨⟩))
      ⊢ wp frame (wpE (defs₀ (F := F)) Variants.none c none) E (cc2__bias_relu_matmul_kernel i arg1 harg1 arg2 harg2 arg3 harg3 arg4 harg4) K := by
  simp only [cc2__bias_relu_matmul_kernel_eq_skeleton]; unfold cc2__bias_relu_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## Proof data of the pipeline -/

/-- The pipeline's proof data on core `c`. Arrays: the entry contents. After the body at point `t`: the input
    buffers still hold their blocks, the output buffer holds `stored2` of them. The invariant is the one of a region
    that touches nothing outside its windows; no write-back is owed between points; every share is full. -/
def pdat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => stored2 (blk2 V c 0 t) (blk2 V c 1 t) (blk2 V c 2 t)
  Φ _ := Pipeline.ΦA spec2 c
  q _ := fullShare
  owed _ := 0

/-- The arrays of the proof data, projected. -/
theorem pdat2_A (c : Dev nD) (w : Fin cfg2.W) : (pdat2 V c).A w = V c (Pipeline.arrRef spec2 w) := by
  dsimp only [pdat2]

/-- What the body leaves, one window at a time. -/
theorem pdat2_after_0 (c : Dev nD) (t : Fin cfg2.N) : (pdat2 V c).after 0 t = blk2 V c 0 t := by dsimp only [pdat2]
theorem pdat2_after_1 (c : Dev nD) (t : Fin cfg2.N) : (pdat2 V c).after 1 t = blk2 V c 1 t := by dsimp only [pdat2]
theorem pdat2_after_2 (c : Dev nD) (t : Fin cfg2.N) : (pdat2 V c).after 2 t = blk2 V c 2 t := by dsimp only [pdat2]
theorem pdat2_after_3 (c : Dev nD) (t : Fin cfg2.N) :
    (pdat2 V c).after 3 t = stored2 (blk2 V c 0 t) (blk2 V c 1 t) (blk2 V c 2 t) := by dsimp only [pdat2]

/-- All three input buffers hold their blocks when the body is called. -/
theorem before2_0 (c : Dev nD) (t : Fin cfg2.N) (d) : (pdat2 V c).before 0 t d = blk2 V c 0 t :=
  before2_0_of V (pdat2 V c) (pdat2_A V c 0) (pdat2_after_0 V c) t d
theorem before2_1 (c : Dev nD) (t : Fin cfg2.N) (d) : (pdat2 V c).before 1 t d = blk2 V c 1 t :=
  before2_1_of V (pdat2 V c) (pdat2_A V c 1) (pdat2_after_1 V c) t d
theorem before2_2 (c : Dev nD) (t : Fin cfg2.N) (d) : (pdat2 V c).before 2 t d = blk2 V c 2 t :=
  before2_2_of V (pdat2 V c) (pdat2_A V c 2) (pdat2_after_2 V c) t d

/-! ## The obligation on the body at one point -/

/-- What the body is given at point `t`: the invariant, the owed write-backs, and the four current buffers. -/
def bodyPre2 (c : Dev nD) (t : Fin cfg2.N) : sProp 𝕄 :=
  iprop((pdat2 V c).Φ t.castSucc ∗ (pdat2 V c).owesAt () t.castSucc
    ∗ (∃ d, owns (c : Thread nD τ) (st2_0 t) fullShare ((pdat2 V c).before 0 t d))
    ∗ (∃ d, owns (c : Thread nD τ) (st2_1 t) fullShare ((pdat2 V c).before 1 t d))
    ∗ (∃ d, owns (c : Thread nD τ) (st2_2 t) fullShare ((pdat2 V c).before 2 t d))
    ∗ (∃ d, owns (c : Thread nD τ) (st2_3 t) fullShare ((pdat2 V c).before 3 t d)))

/-- What it must give back. -/
def bodyPost2 (c : Dev nD) (t : Fin cfg2.N) : sProp 𝕄 :=
  iprop((pdat2 V c).Φ t.succ ∗ (pdat2 V c).owesAt () t.succ
    ∗ owns (c : Thread nD τ) (st2_0 t) fullShare ((pdat2 V c).after 0 t)
    ∗ owns (c : Thread nD τ) (st2_1 t) fullShare ((pdat2 V c).after 1 t)
    ∗ owns (c : Thread nD τ) (st2_2 t) fullShare ((pdat2 V c).after 2 t)
    ∗ owns (c : Thread nD τ) (st2_3 t) fullShare ((pdat2 V c).after 3 t))

/-- At any point the input buffers hold their blocks, so the triple above applies with those blocks as `x0`, `x1`,
    `x2`; the invariant and the owed write-backs do not depend on the point and are handed through untouched. -/
theorem body2_at (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (pdat2 V c).Φ t.succ = (pdat2 V c).Φ t.castSucc from rfl,
    show (pdat2 V c).owesAt () t.succ = (pdat2 V c).owesAt () t.castSucc from rfl,
    pdat2_after_0, pdat2_after_1, pdat2_after_2, pdat2_after_3]
  iintro ⟨HΦ, Ho, ⟨%d0, H0⟩, ⟨%d1, H1⟩, ⟨%d2, H2⟩, ⟨%d3, H3⟩⟩
  iapply (kernel2_triple c Set.univ (grid2.coords t) _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point: the separating product over the four windows written out. -/
theorem body2 (c : Dev nD) : BodyObligation (pdat2 (F := F) V c) (defs₀ (F := F)) Variants.none () Set.univ := fun t => by
  rw [bigSep_W2, bigSep_W2]
  exact body2_at V c t

end Cert.KernelIdeal.Hand

end
-- ==== Proof.Ideal.Region3.lean ====
import proofs.«164169_j52767968199326_1_alg».proof.Proof.Gen.KernelIdeal.Launch
import proofs.«164169_j52767968199326_1_alg».proof.Proof.Gen.KernelIdeal.Skeleton
import proofs.«164169_j52767968199326_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when this region starts; everything below is stated relative to it
variable (V : (c : Dev nD) → (b : Ref sig .tc) → Buf (Elt F) ((c : Thread nD τ).loc b))

/-! # Region 3: the edge-message kernel with 7 feature columns

Per grid point the body sees a 10400x7 block `h` of gathered features and the matching 10400x3 block `r` of
per-edge scalars, and writes the 10400x7 block whose row `i` is `h i` scaled by `(r i 0 * r i 2) * r i 1`. -/

/-! ## Blocks -/

/-- The block of window `w` at grid point `t`: the entries of the window's array, as the region finds it, that the
    window's index map selects at `t`. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The feature window's staging buffer holds the block of point `t` when the body starts there, for any proof data
    over the entry arrays whose body leaves that buffer as it found it. A point that does not fetch has the same block
    index as the point before it, so the block left there is this point's block; the window is an input, is never
    idle, and is not clipped. -/
theorem before3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- The same for the window of per-edge scalars. -/
theorem before3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-! ## The rectangles the body reads and writes -/

/-- All of a 10400x7 buffer. -/
abbrev r3_0 : Rect S10400x7 := Rect.unit (s := S10400x7) ![0, 0] S10400x7.size inb_S10400x7_S10400x7_0_0
/-- All of a 10400x3 buffer. -/
abbrev r3_1 : Rect S10400x3 := Rect.unit (s := S10400x3) ![0, 0] S10400x3.size inb_S10400x3_S10400x3_0_0

/-! ## What the body leaves in the output buffer -/

/-- The output buffer after the body, as a function of the feature block `x0` and the scalar block `x1`: one write
    over the whole buffer, of the product of `x0` with the row scale computed from `x1`. -/
def stored3 (x0 : Vec F S10400x7 .f32) (x1 : Vec F S10400x3 .f32) : Vec F S10400x7 .f32 :=
  View.canon [⟨r3_0, k3_pay1 (View.ld x1 r3_1) (View.ld x0 r3_0)⟩]

/-- That one write reaches every index of the buffer: its rectangle has the buffer's extents. -/
theorem cover3_2 (p0 : Vec F S10400x7 .f32) (y : S10400x7.Idx) :
    ∃ pc ∈ ([⟨r3_0, p0⟩] : List (View.Piece (Elt F) S10400x7 .f32)), y ∈ pc.1.set :=
  View.cover_of_tiled [⟨r3_0, p0⟩] S10400x7.size (by rfl) y

/-! ## The body's triple -/

set_option maxHeartbeats 1000000 in
/-- Run on whole buffers — the features' holding `x0`, the scalars' holding `x1`, the output's holding anything — the
    body ends with the two inputs unchanged and the output holding `stored3 x0 x1`. The body reads the scalars, the
    features and (without using it) the output, then writes the output once. -/
theorem sound_kernel3 (c : Dev nD) (E : Set ℕ) (i : grid3.Coords) (arg0 : Memref sig .tc .vmem S10400x7 .f32) (harg0 : arg0.IsWhole) (arg1 : Memref sig .tc .vmem S10400x3 .f32) (harg1 : arg1.IsWhole) (arg2 : Memref sig .tc .vmem S10400x7 .f32) (harg2 : arg2.IsWhole)
    (x0 : Vec F S10400x7 .f32) (x1 : Vec F S10400x3 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (stored3 x0 x1)) -∗ K ⟨⟩))
      ⊢ wp frame (wpE (defs₀ (F := F)) Variants.none c none) E (cc3__message_kernel i arg0 harg0 arg1 harg1 arg2 harg2) K := by
  simp only [cc3__message_kernel_eq_skeleton]; unfold cc3__message_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data of the pipeline -/

/-- On core `c`: the arrays are the entry contents; after the body at point `t` each input buffer still holds its block
    and the output buffer holds `stored3` of the two input blocks; the invariant is the one that leaves every other
    buffer and the generator register untouched; full shares; nothing owed. -/
def pdat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => stored3 (blk3 V c 0 t) (blk3 V c 1 t)
  Φ _ := Pipeline.ΦA spec3 c
  q _ := fullShare
  owed _ := 0

/-- Its arrays are the entry contents (a projection of the definition). -/
theorem pdat3_A (c : Dev nD) (w : Fin cfg3.W) : (pdat3 V c).A w = V c (Pipeline.arrRef spec3 w) := by
  dsimp only [pdat3]

/-- What the body leaves in each window's buffer (the definition's case split, reduced). -/
theorem pdat3_after_0 (c : Dev nD) (t : Fin cfg3.N) : (pdat3 V c).after 0 t = blk3 V c 0 t := by dsimp only [pdat3]
theorem pdat3_after_1 (c : Dev nD) (t : Fin cfg3.N) : (pdat3 V c).after 1 t = blk3 V c 1 t := by dsimp only [pdat3]
theorem pdat3_after_2 (c : Dev nD) (t : Fin cfg3.N) : (pdat3 V c).after 2 t = stored3 (blk3 V c 0 t) (blk3 V c 1 t) := by dsimp only [pdat3]

/-- When the body starts at any point, each input buffer holds that point's block. -/
theorem before3_0 (c : Dev nD) (t : Fin cfg3.N) (d) : (pdat3 V c).before 0 t d = blk3 V c 0 t :=
  before3_0_of V (pdat3 V c) (pdat3_A V c 0) (pdat3_after_0 V c) t d
theorem before3_1 (c : Dev nD) (t : Fin cfg3.N) (d) : (pdat3 V c).before 1 t d = blk3 V c 1 t :=
  before3_1_of V (pdat3 V c) (pdat3_A V c 1) (pdat3_after_1 V c) t d

/-! ## The body obligation -/

/-- What the body is given at point `t`: the invariant, the debt, and each window's current buffer. -/
def bodyPre3 (c : Dev nD) (t : Fin cfg3.N) : sProp 𝕄 :=
  iprop((pdat3 V c).Φ t.castSucc ∗ (pdat3 V c).owesAt () t.castSucc
    ∗ (∃ d, owns (c : Thread nD τ) (st3_0 t) fullShare ((pdat3 V c).before 0 t d))
    ∗ (∃ d, owns (c : Thread nD τ) (st3_1 t) fullShare ((pdat3 V c).before 1 t d))
    ∗ (∃ d, owns (c : Thread nD τ) (st3_2 t) fullShare ((pdat3 V c).before 2 t d)))

/-- What it gives back. -/
def bodyPost3 (c : Dev nD) (t : Fin cfg3.N) : sProp 𝕄 :=
  iprop((pdat3 V c).Φ t.succ ∗ (pdat3 V c).owesAt () t.succ
    ∗ owns (c : Thread nD τ) (st3_0 t) fullShare ((pdat3 V c).after 0 t)
    ∗ owns (c : Thread nD τ) (st3_1 t) fullShare ((pdat3 V c).after 1 t)
    ∗ owns (c : Thread nD τ) (st3_2 t) fullShare ((pdat3 V c).after 2 t))

/-- The body at point `t`: the input buffers hold the point's blocks, so the triple applies with `x0`, `x1` those
    blocks; the invariant and the debt do not depend on the point and are handed through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (pdat3 V c).Φ t.succ = (pdat3 V c).Φ t.castSucc from rfl,
    show (pdat3 V c).owesAt () t.succ = (pdat3 V c).owesAt () t.castSucc from rfl,
    pdat3_after_0, pdat3_after_1, pdat3_after_2]
  iintro ⟨HΦ, Ho, ⟨%d0, H0⟩, ⟨%d1, H1⟩, ⟨%d2, H2⟩⟩
  iapply (sound_kernel3 c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline rule asks for, at every point. -/
theorem body3 (c : Dev nD) : BodyObligation (pdat3 (F := F) V c) (defs₀ (F := F)) Variants.none () Set.univ := fun t => by
  rw [bigSep_W3, bigSep_W3]
  exact sound_body3 V c t

end Cert.KernelIdeal.Hand

end
-- ==== Proof.Ideal.Run.lean ====
/-
  The run of @main: thirteen items — host stretches and the four pallas regions — from the launch to the return.

  Between two items the unscoped buffers of a core hold the contents `B j`: a host stretch applies its operations to
  them, a region leaves every buffer as it found it except its output window's array, which ends at what the
  write-backs of all grid points leave. Each region is an item whose obligations are the body's (proved region by
  region) and the exchange of its windows' arrays with the buffers at entry and exit. The launch theorem then gives:
  every weakly fair execution terminates without a fault and ends with every buffer at `B 13`. The frame follows
  because no item writes an argument; the value of the result is read off `B 13` elsewhere.
-/
import proofs.«164169_j52767968199326_1_alg».proof.Proof.Gen.KernelIdeal.Launch
import proofs.«164169_j52767968199326_1_alg».proof.Proof.Gen.KernelIdeal.Skeleton
import proofs.«164169_j52767968199326_1_alg».proof.Proof.Gen.KernelIdeal.Points
import proofs.«164169_j52767968199326_1_alg».proof.Proof.Gen.KernelIdeal.Regions
import proofs.«164169_j52767968199326_1_alg».proof.Proof.Ideal.Region0
import proofs.«164169_j52767968199326_1_alg».proof.Proof.Ideal.Region1
import proofs.«164169_j52767968199326_1_alg».proof.Proof.Ideal.Region2
import proofs.«164169_j52767968199326_1_alg».proof.Proof.Ideal.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of @main

@main is thirteen items: five stretches of host operations (the index vectors, the degrees and their inverse square
roots through two selections, the packed per-edge factors), the dense product, a gather, the first per-edge scaling, a
scatter-add, the bias–rectify–product, a gather, the second scaling, and the last scatter-add with its bias. `B j c` is
what core `c`'s unscoped buffers hold after item `j - 1`: a host stretch applies its operations; a region changes only
its windows' arrays — the inputs stay, the output ends at what the write-backs of all grid points leave. -/

/-- Core `c`'s buffers at launch. -/
abbrev B0 (c : Dev nD) : Valuation τ sig (Elt F) := fun b => m (c, b)
/-- After the host stretch `hostOps0`. -/
abbrev B1 (c : Dev nD) : Valuation τ sig (Elt F) := StableHlo.after hostOps0 (B0 m c)
/-- After the host stretch `hostOps0_1`. -/
abbrev B2 (c : Dev nD) : Valuation τ sig (Elt F) := StableHlo.after hostOps0_1 (B1 m c)
/-- After the host stretch `hostOps0_2`. -/
abbrev B3 (c : Dev nD) : Valuation τ sig (Elt F) := StableHlo.after hostOps0_2 (B2 m c)
/-- After the host stretch `hostOps0_3`. -/
abbrev B4 (c : Dev nD) : Valuation τ sig (Elt F) := StableHlo.after hostOps0_3 (B3 m c)
/-- After the host stretch `hostOps0_4`. -/
abbrev B5 (c : Dev nD) : Valuation τ sig (Elt F) := StableHlo.after hostOps0_4 (B4 m c)
/-- The same contents read at the TensorCore's references: what region 0's proof data are stated at. -/
abbrev E5 : (c : Dev nD) → (b : Ref sig .tc) → Buf (Elt F) ((c : Thread nD τ).loc b) := fun c b => B5 m c b
/-- After region 0: its windows' arrays at what the pipeline leaves, every other buffer as entered. -/
def B6 (c : Dev nD) : Valuation τ sig (Elt F) :=
  Pipeline.withArrays spec0 c (B5 m c) fun w => (pdat0 (E5 m) c).arrAt w cfg0.N
theorem B6_arr (c : Dev nD) (w : Fin cfg0.W) :
    B6 m c (Proc.devRef .tc (Pipeline.arrRef spec0 w)) = (pdat0 (E5 m) c).arrAt w cfg0.N := by
  unfold B6; exact Pipeline.withArrays_arr spec0 launch0.win.arr_inj c _ _ w
theorem B6_of_ne (c : Dev nD) (b : Ref sig .tc) (hb : ∀ w, Pipeline.arrRef spec0 w ≠ b) :
    B6 m c (Proc.devRef .tc b) = B5 m c (Proc.devRef .tc b) := by
  unfold B6; exact Pipeline.withArrays_of_ne spec0 c _ _ b hb
abbrev E6 : (c : Dev nD) → (b : Ref sig .tc) → Buf (Elt F) ((c : Thread nD τ).loc b) := fun c b => B6 m c b
theorem exitArr0 (c : Dev nD) (w : Fin cfg0.W) : (pdat0 (E5 m) c).arrAt w cfg0.N = E6 m c (Pipeline.arrRef spec0 w) :=
  (B6_arr m c w).symm
theorem exitRest0 (c : Dev nD) : ∀ b, b ∉ Finset.univ.image (Pipeline.arrRef spec0) → E6 m c b = E5 m c b :=
  fun b hb => B6_of_ne m c b fun w e => hb (Finset.mem_image.mpr ⟨w, Finset.mem_univ _, e⟩)
/-- An input window's array leaves region 0 as it entered. -/
theorem B6_in (c : Dev nD) (w : Fin cfg0.W) (hw : (cfg0.win w).isOut = false) :
    B6 m c (Proc.devRef .tc (Pipeline.arrRef spec0 w)) = B5 m c (Proc.devRef .tc (Pipeline.arrRef spec0 w)) :=
  (B6_arr m c w).trans (((pdat0 (E5 m) c).arrAt_in w hw _).trans (pdat0_A (E5 m) c w))
/-- After the host stretch `hostOps1`. -/
abbrev B7 (c : Dev nD) : Valuation τ sig (Elt F) := StableHlo.after hostOps1 (B6 m c)
/-- The same contents read at the TensorCore's references: what region 1's proof data are stated at. -/
abbrev E7 : (c : Dev nD) → (b : Ref sig .tc) → Buf (Elt F) ((c : Thread nD τ).loc b) := fun c b => B7 m c b
/-- After region 1: its windows' arrays at what the pipeline leaves, every other buffer as entered. -/
def B8 (c : Dev nD) : Valuation τ sig (Elt F) :=
  Pipeline.withArrays spec1 c (B7 m c) fun w => (pdat1 (E7 m) c).arrAt w cfg1.N
theorem B8_arr (c : Dev nD) (w : Fin cfg1.W) :
    B8 m c (Proc.devRef .tc (Pipeline.arrRef spec1 w)) = (pdat1 (E7 m) c).arrAt w cfg1.N := by
  unfold B8; exact Pipeline.withArrays_arr spec1 launch1.win.arr_inj c _ _ w
theorem B8_of_ne (c : Dev nD) (b : Ref sig .tc) (hb : ∀ w, Pipeline.arrRef spec1 w ≠ b) :
    B8 m c (Proc.devRef .tc b) = B7 m c (Proc.devRef .tc b) := by
  unfold B8; exact Pipeline.withArrays_of_ne spec1 c _ _ b hb
abbrev E8 : (c : Dev nD) → (b : Ref sig .tc) → Buf (Elt F) ((c : Thread nD τ).loc b) := fun c b => B8 m c b
theorem exitArr1 (c : Dev nD) (w : Fin cfg1.W) : (pdat1 (E7 m) c).arrAt w cfg1.N = E8 m c (Pipeline.arrRef spec1 w) :=
  (B8_arr m c w).symm
theorem exitRest1 (c : Dev nD) : ∀ b, b ∉ Finset.univ.image (Pipeline.arrRef spec1) → E8 m c b = E7 m c b :=
  fun b hb => B8_of_ne m c b fun w e => hb (Finset.mem_image.mpr ⟨w, Finset.mem_univ _, e⟩)
/-- An input window's array leaves region 1 as it entered. -/
theorem B8_in (c : Dev nD) (w : Fin cfg1.W) (hw : (cfg1.win w).isOut = false) :
    B8 m c (Proc.devRef .tc (Pipeline.arrRef spec1 w)) = B7 m c (Proc.devRef .tc (Pipeline.arrRef spec1 w)) :=
  (B8_arr m c w).trans (((pdat1 (E7 m) c).arrAt_in w hw _).trans (pdat1_A (E7 m) c w))
/-- After the host stretch `hostOps2`. -/
abbrev B9 (c : Dev nD) : Valuation τ sig (Elt F) := StableHlo.after hostOps2 (B8 m c)
/-- The same contents read at the TensorCore's references: what region 2's proof data are stated at. -/
abbrev E9 : (c : Dev nD) → (b : Ref sig .tc) → Buf (Elt F) ((c : Thread nD τ).loc b) := fun c b => B9 m c b
/-- After region 2: its windows' arrays at what the pipeline leaves, every other buffer as entered. -/
def B10 (c : Dev nD) : Valuation τ sig (Elt F) :=
  Pipeline.withArrays spec2 c (B9 m c) fun w => (pdat2 (E9 m) c).arrAt w cfg2.N
theorem B10_arr (c : Dev nD) (w : Fin cfg2.W) :
    B10 m c (Proc.devRef .tc (Pipeline.arrRef spec2 w)) = (pdat2 (E9 m) c).arrAt w cfg2.N := by
  unfold B10; exact Pipeline.withArrays_arr spec2 launch2.win.arr_inj c _ _ w
theorem B10_of_ne (c : Dev nD) (b : Ref sig .tc) (hb : ∀ w, Pipeline.arrRef spec2 w ≠ b) :
    B10 m c (Proc.devRef .tc b) = B9 m c (Proc.devRef .tc b) := by
  unfold B10; exact Pipeline.withArrays_of_ne spec2 c _ _ b hb
abbrev E10 : (c : Dev nD) → (b : Ref sig .tc) → Buf (Elt F) ((c : Thread nD τ).loc b) := fun c b => B10 m c b
theorem exitArr2 (c : Dev nD) (w : Fin cfg2.W) : (pdat2 (E9 m) c).arrAt w cfg2.N = E10 m c (Pipeline.arrRef spec2 w) :=
  (B10_arr m c w).symm
theorem exitRest2 (c : Dev nD) : ∀ b, b ∉ Finset.univ.image (Pipeline.arrRef spec2) → E10 m c b = E9 m c b :=
  fun b hb => B10_of_ne m c b fun w e => hb (Finset.mem_image.mpr ⟨w, Finset.mem_univ _, e⟩)
/-- An input window's array leaves region 2 as it entered. -/
theorem B10_in (c : Dev nD) (w : Fin cfg2.W) (hw : (cfg2.win w).isOut = false) :
    B10 m c (Proc.devRef .tc (Pipeline.arrRef spec2 w)) = B9 m c (Proc.devRef .tc (Pipeline.arrRef spec2 w)) :=
  (B10_arr m c w).trans (((pdat2 (E9 m) c).arrAt_in w hw _).trans (pdat2_A (E9 m) c w))
/-- After the host stretch `hostOps3`. -/
abbrev B11 (c : Dev nD) : Valuation τ sig (Elt F) := StableHlo.after hostOps3 (B10 m c)
/-- The same contents read at the TensorCore's references: what region 3's proof data are stated at. -/
abbrev E11 : (c : Dev nD) → (b : Ref sig .tc) → Buf (Elt F) ((c : Thread nD τ).loc b) := fun c b => B11 m c b
/-- After region 3: its windows' arrays at what the pipeline leaves, every other buffer as entered. -/
def B12 (c : Dev nD) : Valuation τ sig (Elt F) :=
  Pipeline.withArrays spec3 c (B11 m c) fun w => (pdat3 (E11 m) c).arrAt w cfg3.N
theorem B12_arr (c : Dev nD) (w : Fin cfg3.W) :
    B12 m c (Proc.devRef .tc (Pipeline.arrRef spec3 w)) = (pdat3 (E11 m) c).arrAt w cfg3.N := by
  unfold B12; exact Pipeline.withArrays_arr spec3 launch3.win.arr_inj c _ _ w
theorem B12_of_ne (c : Dev nD) (b : Ref sig .tc) (hb : ∀ w, Pipeline.arrRef spec3 w ≠ b) :
    B12 m c (Proc.devRef .tc b) = B11 m c (Proc.devRef .tc b) := by
  unfold B12; exact Pipeline.withArrays_of_ne spec3 c _ _ b hb
abbrev E12 : (c : Dev nD) → (b : Ref sig .tc) → Buf (Elt F) ((c : Thread nD τ).loc b) := fun c b => B12 m c b
theorem exitArr3 (c : Dev nD) (w : Fin cfg3.W) : (pdat3 (E11 m) c).arrAt w cfg3.N = E12 m c (Pipeline.arrRef spec3 w) :=
  (B12_arr m c w).symm
theorem exitRest3 (c : Dev nD) : ∀ b, b ∉ Finset.univ.image (Pipeline.arrRef spec3) → E12 m c b = E11 m c b :=
  fun b hb => B12_of_ne m c b fun w e => hb (Finset.mem_image.mpr ⟨w, Finset.mem_univ _, e⟩)
/-- An input window's array leaves region 3 as it entered. -/
theorem B12_in (c : Dev nD) (w : Fin cfg3.W) (hw : (cfg3.win w).isOut = false) :
    B12 m c (Proc.devRef .tc (Pipeline.arrRef spec3 w)) = B11 m c (Proc.devRef .tc (Pipeline.arrRef spec3 w)) :=
  (B12_arr m c w).trans (((pdat3 (E11 m) c).arrAt_in w hw _).trans (pdat3_A (E11 m) c w))
/-- After the host stretch `hostOps4`. -/
abbrev B13 (c : Dev nD) : Valuation τ sig (Elt F) := StableHlo.after hostOps4 (B12 m c)

/-! ## A host stretch leaves every buffer it does not write -/
theorem B1_of (c : Dev nD) (r : Ref sig .tc) (h : r ∉ hostOps0_W) : B1 m c r = B0 m c r :=
  StableHlo.after_of_writes_sub hostOps0 _ hostOps0_writes h
theorem B2_of (c : Dev nD) (r : Ref sig .tc) (h : r ∉ hostOps0_1_W) : B2 m c r = B1 m c r :=
  StableHlo.after_of_writes_sub hostOps0_1 _ hostOps0_1_writes h
theorem B3_of (c : Dev nD) (r : Ref sig .tc) (h : r ∉ hostOps0_2_W) : B3 m c r = B2 m c r :=
  StableHlo.after_of_writes_sub hostOps0_2 _ hostOps0_2_writes h
theorem B4_of (c : Dev nD) (r : Ref sig .tc) (h : r ∉ hostOps0_3_W) : B4 m c r = B3 m c r :=
  StableHlo.after_of_writes_sub hostOps0_3 _ hostOps0_3_writes h
theorem B5_of (c : Dev nD) (r : Ref sig .tc) (h : r ∉ hostOps0_4_W) : B5 m c r = B4 m c r :=
  StableHlo.after_of_writes_sub hostOps0_4 _ hostOps0_4_writes h
theorem B7_of (c : Dev nD) (r : Ref sig .tc) (h : r ∉ hostOps1_W) : B7 m c r = B6 m c r :=
  StableHlo.after_of_writes_sub hostOps1 _ hostOps1_writes h
theorem B9_of (c : Dev nD) (r : Ref sig .tc) (h : r ∉ hostOps2_W) : B9 m c r = B8 m c r :=
  StableHlo.after_of_writes_sub hostOps2 _ hostOps2_writes h
theorem B11_of (c : Dev nD) (r : Ref sig .tc) (h : r ∉ hostOps3_W) : B11 m c r = B10 m c r :=
  StableHlo.after_of_writes_sub hostOps3 _ hostOps3_writes h
theorem B13_of (c : Dev nD) (r : Ref sig .tc) (h : r ∉ hostOps4_W) : B13 m c r = B12 m c r :=
  StableHlo.after_of_writes_sub hostOps4 _ hostOps4_writes h

/-! ## The proof data of the four pipelines, and what rides beside the buffers -/

/-- Every pipeline's proof data, each at the contents its region is entered with. -/
def pdats : (p : Fin 4) → (c : Dev nD) → Dat τ (Elt F) Unit ℕ (UR sig nD τ) ℕ (Pipeline.pin (pcfgs (F := F)) adm p) c
  | ⟨0, _⟩ => fun c => pdat0 (E5 m) c
  | ⟨1, _⟩ => fun c => pdat1 (E7 m) c
  | ⟨2, _⟩ => fun c => pdat2 (E9 m) c
  | ⟨3, _⟩ => fun c => pdat3 (E11 m) c
abbrev novar : Variants := Variants.none
/-- No core owes another anything: no level is assigned. -/
abbrev noL : GSem nD τ sig → Finset Unit := fun _ => ∅
abbrev nolv : GSem nD τ sig → Unit → ℕ := fun _ _ => 0
/-- Beside the buffers every item carries the core's generator register at some state and its dues, which are none. -/
abbrev Rest (c : Dev nD) : sProp 𝕄 := iprop((∃ r, prngReg c r) ∗ ∃ W, owes (c : Thread nD τ) (0 : CellTallies nD τ sig Unit) W)
/-- A host stretch as an item: its operations over the unscoped buffers from the contents `W`, the rest riding along. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ novar noL nolv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Last (c : Dev nD) : sProp 𝕄 := iprop(StableHlo.held (c : Thread nD τ) (Pipeline.ucRefs τ sig) (B13 m c) ∗ ∃ r, prngReg c r)

/-! ## The regions as items

Each region is entered from "every unscoped buffer at the boundary's contents": its windows' arrays are split out of the
buffers, the pipeline runs over them with the body's obligation, and the arrays are put back at what the pipeline leaves. -/

set_option backward.isDefEq.respectTransparency.types false in
/-- Region 0: entered from the buffers at `B5`, left at `B6`. -/
def regionItem0 : Pipeline.RegionSeg (pcfgs (F := F)) adm (pdats m) () defs₀ novar noL nolv 0 where
  win := launch0.win.to₀
  block_pos := launch0.block_pos
  stage_whole := launch0.stage_whole
  K := PEmpty
  osem k := k.elim
  ho := Pipeline.OwnSemFacts.none _
  hbody c := (body0 (E5 m) c).loose
  hwaits := Pipeline.hwaits_of_owed_zero _ _ _ _ noL nolv 0 fun _ _ => rfl
  pre c := iprop(StableHlo.held (c : Thread nD τ) (Pipeline.ucRefs τ sig) (B5 m c) ∗ Rest c)
  post c := iprop(StableHlo.held (c : Thread nD τ) (Pipeline.ucRefs τ sig) (B6 m c) ∗ Rest c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from the buffers at `B7`, left at `B8`. -/
def regionItem1 : Pipeline.RegionSeg (pcfgs (F := F)) adm (pdats m) () defs₀ novar noL nolv 1 where
  win := launch1.win.to₀
  block_pos := launch1.block_pos
  stage_whole := launch1.stage_whole
  K := PEmpty
  osem k := k.elim
  ho := Pipeline.OwnSemFacts.none _
  hbody c := (body1 (E7 m) c).loose
  hwaits := Pipeline.hwaits_of_owed_zero _ _ _ _ noL nolv 1 fun _ _ => rfl
  pre c := iprop(StableHlo.held (c : Thread nD τ) (Pipeline.ucRefs τ sig) (B7 m c) ∗ Rest c)
  post c := iprop(StableHlo.held (c : Thread nD τ) (Pipeline.ucRefs τ sig) (B8 m c) ∗ Rest c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7 m c) (E8 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from the buffers at `B9`, left at `B10`. -/
def regionItem2 : Pipeline.RegionSeg (pcfgs (F := F)) adm (pdats m) () defs₀ novar noL nolv 2 where
  win := launch2.win.to₀
  block_pos := launch2.block_pos
  stage_whole := launch2.stage_whole
  K := PEmpty
  osem k := k.elim
  ho := Pipeline.OwnSemFacts.none _
  hbody c := (body2 (E9 m) c).loose
  hwaits := Pipeline.hwaits_of_owed_zero _ _ _ _ noL nolv 2 fun _ _ => rfl
  pre c := iprop(StableHlo.held (c : Thread nD τ) (Pipeline.ucRefs τ sig) (B9 m c) ∗ Rest c)
  post c := iprop(StableHlo.held (c : Thread nD τ) (Pipeline.ucRefs τ sig) (B10 m c) ∗ Rest c)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E9 m c) (E10 m c) ((pdats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from the buffers at `B11`, left at `B12`. -/
def regionItem3 : Pipeline.RegionSeg (pcfgs (F := F)) adm (pdats m) () defs₀ novar noL nolv 3 where
  win := launch3.win.to₀
  block_pos := launch3.block_pos
  stage_whole := launch3.stage_whole
  K := PEmpty
  osem k := k.elim
  ho := Pipeline.OwnSemFacts.none _
  hbody c := (body3 (E11 m) c).loose
  hwaits := Pipeline.hwaits_of_owed_zero _ _ _ _ noL nolv 3 fun _ _ => rfl
  pre c := iprop(StableHlo.held (c : Thread nD τ) (Pipeline.ucRefs τ sig) (B11 m c) ∗ Rest c)
  post c := iprop(StableHlo.held (c : Thread nD τ) (Pipeline.ucRefs τ sig) (B12 m c) ∗ Rest c)
  X c := iprop(∃ r, prngReg c r)
  Y c := iprop(∃ r, prngReg c r)
  Z c := Pipeline.unscopedRest (Ix := Unit) (Name := ℕ) (U := UR sig nD τ) (Lvl := ℕ) spec3 c (E11 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E11 m c) (E12 m c) ((pdats m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

/-- @main's thirteen items in order. -/
abbrev items : List (Pipeline.Seg (pcfgs (F := F)) adm (pdats m) () defs₀ novar noL nolv) :=
  [ .host (hostItem hostOps0 hostOps0_sub hostOps0_fresh (B0 m)),
    .host (hostItem hostOps0_1 hostOps0_1_sub hostOps0_1_fresh (B1 m)),
    .host (hostItem hostOps0_2 hostOps0_2_sub hostOps0_2_fresh (B2 m)),
    .host (hostItem hostOps0_3 hostOps0_3_sub hostOps0_3_fresh (B3 m)),
    .host (hostItem hostOps0_4 hostOps0_4_sub hostOps0_4_fresh (B4 m)),
    .region (regionItem0 m),
    .host (hostItem hostOps1 hostOps1_sub hostOps1_fresh (B6 m)),
    .region (regionItem1 m),
    .host (hostItem hostOps2 hostOps2_sub hostOps2_fresh (B8 m)),
    .region (regionItem2 m),
    .host (hostItem hostOps3 hostOps3_sub hostOps3_fresh (B10 m)),
    .region (regionItem3 m),
    .host (hostItem hostOps4 hostOps4_sub hostOps4_fresh (B12 m)) ]
/-- @main is the run of its items. -/
theorem main_items (c : Dev nD) : main (F := F) c = Pipeline.Seg.run (items m) := (main_chain c).trans (by chain_rfl)

set_option backward.isDefEq.respectTransparency.types false in
/-- THE RUN. From any memory with zero counters every weakly fair execution of @main terminates, nothing faulting, and in
    every final state every unscoped buffer of every core holds the last boundary's contents `B13`. Both the frame
    (the arguments unchanged) and the value of the result are read off this. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B13 m c b) :=
  Pipeline.θ_run_regions_kit (pcfgs (F := F)) adm (pdats m) () cellOf_inj emb₁ defs₀ novar noL nolv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c)) (Tₙ := Last m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (B13 m c) ∗ Rest c)
          ⊢ iprop(Last m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach noL nolv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B13 m c b)
    (hfin := fun c s' => by
      iintro ⟨⟨Hh, -⟩, HSI⟩
      unfold StableHlo.held
      imodintro
      iapply (pointsTo_read_all (Pipeline.ucRefs τ sig) (fun b => (((c : Thread nD τ)).1, b)) (B13 m c) s')
      isplitl [Hh] <;> iassumption)
    (hQ := fun s h => h)

/-! ## No item writes an argument

No host operation writes an argument; a region that reads one reads it through an input window, whose array it leaves
as it found it. -/
theorem B13_main_arg0 (c : Dev nD) : B13 m c (Proc.devRef .tc main_arg0) = m ((c : Thread nD τ).loc main_arg0) :=
  (B13_of m c main_arg0 (by decide)).trans <| (B12_of_ne m c main_arg0 (by decide)).trans <| (B11_of m c main_arg0 (by decide)).trans <| (B10_of_ne m c main_arg0 (by decide)).trans <| (B9_of m c main_arg0 (by decide)).trans <| (B8_of_ne m c main_arg0 (by decide)).trans <| (B7_of m c main_arg0 (by decide)).trans <| (B6_in m c 0 rfl).trans <| (B5_of m c main_arg0 (by decide)).trans <| (B4_of m c main_arg0 (by decide)).trans <| (B3_of m c main_arg0 (by decide)).trans <| (B2_of m c main_arg0 (by decide)).trans <| (B1_of m c main_arg0 (by decide)).trans rfl
theorem B13_main_arg1 (c : Dev nD) : B13 m c (Proc.devRef .tc main_arg1) = m ((c : Thread nD τ).loc main_arg1) :=
  (B13_of m c main_arg1 (by decide)).trans <| (B12_of_ne m c main_arg1 (by decide)).trans <| (B11_of m c main_arg1 (by decide)).trans <| (B10_of_ne m c main_arg1 (by decide)).trans <| (B9_of m c main_arg1 (by decide)).trans <| (B8_of_ne m c main_arg1 (by decide)).trans <| (B7_of m c main_arg1 (by decide)).trans <| (B6_of_ne m c main_arg1 (by decide)).trans <| (B5_of m c main_arg1 (by decide)).trans <| (B4_of m c main_arg1 (by decide)).trans <| (B3_of m c main_arg1 (by decide)).trans <| (B2_of m c main_arg1 (by decide)).trans <| (B1_of m c main_arg1 (by decide)).trans rfl
theorem B13_main_arg2 (c : Dev nD) : B13 m c (Proc.devRef .tc main_arg2) = m ((c : Thread nD τ).loc main_arg2) :=
  (B13_of m c main_arg2 (by decide)).trans <| (B12_of_ne m c main_arg2 (by decide)).trans <| (B11_of m c main_arg2 (by decide)).trans <| (B10_of_ne m c main_arg2 (by decide)).trans <| (B9_of m c main_arg2 (by decide)).trans <| (B8_of_ne m c main_arg2 (by decide)).trans <| (B7_of m c main_arg2 (by decide)).trans <| (B6_of_ne m c main_arg2 (by decide)).trans <| (B5_of m c main_arg2 (by decide)).trans <| (B4_of m c main_arg2 (by decide)).trans <| (B3_of m c main_arg2 (by decide)).trans <| (B2_of m c main_arg2 (by decide)).trans <| (B1_of m c main_arg2 (by decide)).trans rfl
theorem B13_main_arg3 (c : Dev nD) : B13 m c (Proc.devRef .tc main_arg3) = m ((c : Thread nD τ).loc main_arg3) :=
  (B13_of m c main_arg3 (by decide)).trans <| (B12_of_ne m c main_arg3 (by decide)).trans <| (B11_of m c main_arg3 (by decide)).trans <| (B10_of_ne m c main_arg3 (by decide)).trans <| (B9_of m c main_arg3 (by decide)).trans <| (B8_of_ne m c main_arg3 (by decide)).trans <| (B7_of m c main_arg3 (by decide)).trans <| (B6_in m c 1 rfl).trans <| (B5_of m c main_arg3 (by decide)).trans <| (B4_of m c main_arg3 (by decide)).trans <| (B3_of m c main_arg3 (by decide)).trans <| (B2_of m c main_arg3 (by decide)).trans <| (B1_of m c main_arg3 (by decide)).trans rfl
theorem B13_main_arg4 (c : Dev nD) : B13 m c (Proc.devRef .tc main_arg4) = m ((c : Thread nD τ).loc main_arg4) :=
  (B13_of m c main_arg4 (by decide)).trans <| (B12_of_ne m c main_arg4 (by decide)).trans <| (B11_of m c main_arg4 (by decide)).trans <| (B10_of_ne m c main_arg4 (by decide)).trans <| (B9_of m c main_arg4 (by decide)).trans <| (B8_of_ne m c main_arg4 (by decide)).trans <| (B7_of m c main_arg4 (by decide)).trans <| (B6_of_ne m c main_arg4 (by decide)).trans <| (B5_of m c main_arg4 (by decide)).trans <| (B4_of m c main_arg4 (by decide)).trans <| (B3_of m c main_arg4 (by decide)).trans <| (B2_of m c main_arg4 (by decide)).trans <| (B1_of m c main_arg4 (by decide)).trans rfl
theorem B13_main_arg5 (c : Dev nD) : B13 m c (Proc.devRef .tc main_arg5) = m ((c : Thread nD τ).loc main_arg5) :=
  (B13_of m c main_arg5 (by decide)).trans <| (B12_of_ne m c main_arg5 (by decide)).trans <| (B11_of m c main_arg5 (by decide)).trans <| (B10_in m c 2 rfl).trans <| (B9_of m c main_arg5 (by decide)).trans <| (B8_of_ne m c main_arg5 (by decide)).trans <| (B7_of m c main_arg5 (by decide)).trans <| (B6_of_ne m c main_arg5 (by decide)).trans <| (B5_of m c main_arg5 (by decide)).trans <| (B4_of m c main_arg5 (by decide)).trans <| (B3_of m c main_arg5 (by decide)).trans <| (B2_of m c main_arg5 (by decide)).trans <| (B1_of m c main_arg5 (by decide)).trans rfl
theorem B13_main_arg6 (c : Dev nD) : B13 m c (Proc.devRef .tc main_arg6) = m ((c : Thread nD τ).loc main_arg6) :=
  (B13_of m c main_arg6 (by decide)).trans <| (B12_of_ne m c main_arg6 (by decide)).trans <| (B11_of m c main_arg6 (by decide)).trans <| (B10_of_ne m c main_arg6 (by decide)).trans <| (B9_of m c main_arg6 (by decide)).trans <| (B8_of_ne m c main_arg6 (by decide)).trans <| (B7_of m c main_arg6 (by decide)).trans <| (B6_of_ne m c main_arg6 (by decide)).trans <| (B5_of m c main_arg6 (by decide)).trans <| (B4_of m c main_arg6 (by decide)).trans <| (B3_of m c main_arg6 (by decide)).trans <| (B2_of m c main_arg6 (by decide)).trans <| (B1_of m c main_arg6 (by decide)).trans rfl

/-- THE FRAME: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (B13_main_arg0 m c),
    (h c _ (mem_uc main_arg1 (by decide))).trans (B13_main_arg1 m c),
    (h c _ (mem_uc main_arg2 (by decide))).trans (B13_main_arg2 m c),
    (h c _ (mem_uc main_arg3 (by decide))).trans (B13_main_arg3 m c),
    (h c _ (mem_uc main_arg4 (by decide))).trans (B13_main_arg4 m c),
    (h c _ (mem_uc main_arg5 (by decide))).trans (B13_main_arg5 m c),
    (h c _ (mem_uc main_arg6 (by decide))).trans (B13_main_arg6 m c)⟩) (run_all m ρ)

end Cert.KernelIdeal.Hand

end
-- ==== Proof.Ideal.HostReads.lean ====
/-
  The host stretches of @main read as pure functions, at the exact instance.

  The graph's edge list, extended by one self-loop per node of weight one: `rowOf` / `colOf` are the source and target
  index vectors, `ewOf` the weights. `degOf` sums the weights into their targets; `disOf` is the inverse square root of
  a positive degree and zero elsewhere (computed, as printed, through a guarded argument `safeOf`). `packedOf` lays the
  source's factor, the target's factor and the weight side by side as three columns, one row per edge. `wrap` is the
  index column a gather reads (a negative index counted from the end), `idxCol` the one a scatter-add writes through.
  Each lemma says what one stretch leaves in one buffer, as such a function of what it found in the buffers it reads.
-/
import proofs.«164169_j52767968199326_1_alg».proof.Proof.Gen.KernelIdeal.Launch
import Idealize.ShloMosaic.Lib.StableHlo.Run
import Idealize.ShloMosaic.PureOps.Ideal

set_option maxRecDepth 16384

noncomputable section

namespace Cert.KernelIdeal.Hand

open Idealize.ShloMosaic Idealize.ShloMosaic.TcCoe Idealize.SL.Sem
open Cert.KernelIdeal Cert.KernelIdeal.Gen

abbrev IV (S : Shape) := (⟨S, .i32⟩ : BufTy).Contents (Elt Ideal)
abbrev FV (S : Shape) := FVec Ideal S .f32
abbrev BV (S : Shape) := (⟨S, .i1⟩ : BufTy).Contents (Elt Ideal)

/-- The sources of the edges, then the nodes themselves (the self-loops). -/
def rowOf (a1 : IV S2x5000000) : IV S5200000 :=
  concatenate S5200000 0 [⟨S5000000, shapeCast _ (extractStridedSlice S1x5000000 ![0, 0] a1 slices_S2x5000000_S1x5000000_0_0) shapeCasts_S1x5000000_S5000000⟩, ⟨S200000, iotaInDim S200000 32 0⟩] concatenates_S5000000_S200000_S5200000_d0
/-- The targets of the edges, then the nodes themselves. -/
def colOf (a1 : IV S2x5000000) : IV S5200000 :=
  concatenate S5200000 0 [⟨S5000000, shapeCast _ (extractStridedSlice S1x5000000 ![1, 0] a1 slices_S2x5000000_S1x5000000_1_0) shapeCasts_S1x5000000_S5000000⟩, ⟨S200000, iotaInDim S200000 32 0⟩] concatenates_S5000000_S200000_S5200000_d0
/-- The edge weights, then weight one for every self-loop. -/
def ewOf (a2 : FV S5000000) : FV S5200000 :=
  concatenate S5200000 0 [⟨S5000000, a2⟩, ⟨S200000, broadcastInDim S200000 ![] bcast_S_S200000 (constant (F := Ideal) S_ .f32 0x3F800000#32)⟩] concatenates_S5000000_S200000_S5200000_d0
/-- An index vector as the column a scatter-add writes through. -/
def idxCol (v : IV S5200000) : IV S5200000x1 := broadcastInDim S5200000x1 ![0] bcast_S5200000_S5200000x1_0 v
/-- An index vector as the column a gather reads through: a negative index is counted from the end. -/
def wrap (v : IV S5200000) : IV S5200000x1 :=
  broadcastInDim S5200000x1 ![0] bcast_S5200000_S5200000x1_0 (select (cmpi .slt v (broadcastInDim S5200000 ![] bcast_S_S5200000 (constantI S_ 32 0#32))) (addi v (broadcastInDim S5200000 ![] bcast_S_S5200000 (constantI S_ 32 200000#32))) v)
/-- The zero vector over the nodes. -/
def zeroN : FV S200000 := broadcastInDim S200000 ![] bcast_S_S200000 (constant (F := Ideal) S_ .f32 0x00000000#32)
/-- A node's degree: the weights of the edges that end at it. -/
def degOf (col : IV S5200000) (ew : FV S5200000) : FV S200000 :=
  Host.scatterAdd scatter_S200000_S5200000x1_S5200000_n_0_0_1 zeroN (idxCol col) ew
/-- Where the degree is positive. -/
def posOf (deg : FV S200000) : BV S200000 := cmpf .ogt deg zeroN
/-- The degree where positive, one elsewhere. -/
def safeOf (pos : BV S200000) (deg : FV S200000) (one : FV S_) : FV S200000 :=
  select pos deg (broadcastInDim S200000 ![] bcast_S_S200000 (id one))
/-- The inverse square root of a positive degree, zero elsewhere. -/
def disOf (pos : BV S200000) (r : FV S200000) (zero : FV S_) : FV S200000 :=
  select pos r (broadcastInDim S200000 ![] bcast_S_S200000 (id zero))
/-- A vector over the edges as a column. -/
def colF (v : FV S5200000) : FV S5200000x1 := broadcastInDim S5200000x1 ![0] bcast_S5200000_S5200000x1_0 v
/-- Per edge: the source's factor, the target's factor, the weight, side by side. -/
def packedOf (dis : FV S200000) (row col : IV S5200000) (ew : FV S5200000) : FV S5200000x3 :=
  concatenate S5200000x3 1 [⟨S5200000x1, colF (Host.gather gather_S200000_S5200000x1_S5200000_n_0_n_n_0_1_1 dis (wrap row))⟩, ⟨S5200000x1, colF (Host.gather gather_S200000_S5200000x1_S5200000_n_0_n_n_0_1_1 dis (wrap col))⟩, ⟨S5200000x1, colF ew⟩] concatenates_S5200000x1_S5200000x1_S5200000x1_S5200000x3_d1

variable (W : Valuation τ sig (Elt Ideal))

/-! ## The first stretch: index vectors, weights, degrees -/

theorem ops0_row : StableHlo.after (hostOps0 (F := Ideal)) W (Proc.devRef .tc main_v5) = rowOf (W (Proc.devRef .tc main_arg1)) := by
  after_results_simp <;> rfl
theorem ops0_col : StableHlo.after (hostOps0 (F := Ideal)) W (Proc.devRef .tc main_v6) = colOf (W (Proc.devRef .tc main_arg1)) := by
  after_results_simp <;> rfl
theorem ops0_ew : StableHlo.after (hostOps0 (F := Ideal)) W (Proc.devRef .tc main_v8) = ewOf (W (Proc.devRef .tc main_arg2)) := by
  after_results_simp <;> rfl
theorem ops0_deg : StableHlo.after (hostOps0 (F := Ideal)) W (Proc.devRef .tc main_v11)
    = degOf (colOf (W (Proc.devRef .tc main_arg1))) (ewOf (W (Proc.devRef .tc main_arg2))) := by
  after_results_simp <;> rfl
theorem ops0_pos13 : StableHlo.after (hostOps0 (F := Ideal)) W (Proc.devRef .tc main_v13)
    = posOf (degOf (colOf (W (Proc.devRef .tc main_arg1))) (ewOf (W (Proc.devRef .tc main_arg2)))) := by
  after_results_simp <;> rfl
theorem ops0_pos15 : StableHlo.after (hostOps0 (F := Ideal)) W (Proc.devRef .tc main_v15)
    = posOf (degOf (colOf (W (Proc.devRef .tc main_arg1))) (ewOf (W (Proc.devRef .tc main_arg2)))) := by
  after_results_simp <;> rfl
theorem ops0_one : StableHlo.after (hostOps0 (F := Ideal)) W (Proc.devRef .tc main_cst_3) = constant (F := Ideal) S_ .f32 0x3F800000#32 := by
  after_results_simp <;> rfl

/-! ## The guarded argument, the inverse square root, the factor per node -/

theorem ops01_safe : StableHlo.after (hostOps0_1 (F := Ideal)) W (Proc.devRef .tc main_v16)
    = safeOf (W (Proc.devRef .tc main_v15)) (W (Proc.devRef .tc main_v11)) (W (Proc.devRef .tc main_cst_3)) := by
  after_results_simp <;> rfl
theorem ops02_rsqrt : StableHlo.after (hostOps0_2 (F := Ideal)) W (Proc.devRef .tc main_v17)
    = (Host.rsqrt (W (Proc.devRef .tc main_v16)) : FV S200000) := by
  after_results_simp <;> rfl
theorem ops02_zero : StableHlo.after (hostOps0_2 (F := Ideal)) W (Proc.devRef .tc main_cst_4) = constant (F := Ideal) S_ .f32 0x00000000#32 := by
  after_results_simp <;> rfl
theorem ops03_dis : StableHlo.after (hostOps0_3 (F := Ideal)) W (Proc.devRef .tc main_v18)
    = disOf (W (Proc.devRef .tc main_v13)) (W (Proc.devRef .tc main_v17)) (W (Proc.devRef .tc main_cst_4)) := by
  after_results_simp <;> rfl

/-! ## The packed factors, the gathers, the scatter-adds -/

theorem ops04_packed : StableHlo.after (hostOps0_4 (F := Ideal)) W (Proc.devRef .tc main_v36)
    = packedOf (W (Proc.devRef .tc main_v18)) (W (Proc.devRef .tc main_v5)) (W (Proc.devRef .tc main_v6)) (W (Proc.devRef .tc main_v8)) := by
  after_results_simp <;> rfl
/-- The rows of the first layer's features at the edges' sources. -/
theorem ops1_gather : StableHlo.after (hostOps1 (F := Ideal)) W (Proc.devRef .tc main_v44)
    = (Host.gather gather_S200000x16_S5200000x1_S5200000x16_1_0_n_n_0_1_116 (W (Proc.devRef .tc main_v37)) (wrap (W (Proc.devRef .tc main_v5))) : FV S5200000x16) := by
  after_results_simp <;> rfl
/-- The first layer's messages summed into their targets. -/
theorem ops2_sum : StableHlo.after (hostOps2 (F := Ideal)) W (Proc.devRef .tc main_v48)
    = (Host.scatterAdd scatter_S200000x16_S5200000x1_S5200000x16_1_0_0_1 (broadcastInDim S200000x16 ![] bcast_S_S200000x16 (constant (F := Ideal) S_ .f32 0x00000000#32)) (idxCol (W (Proc.devRef .tc main_v6))) (W (Proc.devRef .tc main_v45)) : FV S200000x16) := by
  after_results_simp <;> rfl
/-- The first bias as a one-row array. -/
theorem ops2_bias : StableHlo.after (hostOps2 (F := Ideal)) W (Proc.devRef .tc main_v49)
    = (shapeCast S1x16 (W (Proc.devRef .tc main_arg4)) shapeCasts_S16_S1x16 : FV S1x16) := by
  after_results_simp <;> rfl
/-- The rows of the second layer's features at the edges' sources. -/
theorem ops3_gather : StableHlo.after (hostOps3 (F := Ideal)) W (Proc.devRef .tc main_v57)
    = (Host.gather gather_S200000x7_S5200000x1_S5200000x7_1_0_n_n_0_1_17 (W (Proc.devRef .tc main_v50)) (wrap (W (Proc.devRef .tc main_v5))) : FV S5200000x7) := by
  after_results_simp <;> rfl
/-- The second layer's messages summed into their targets, plus the second bias on every row: the result. -/
theorem ops4_out : StableHlo.after (hostOps4 (F := Ideal)) W (Proc.devRef .tc main_v64)
    = (addf (Host.scatterAdd scatter_S200000x7_S5200000x1_S5200000x7_1_0_0_1 (broadcastInDim S200000x7 ![] bcast_S_S200000x7 (constant (F := Ideal) S_ .f32 0x00000000#32)) (idxCol (W (Proc.devRef .tc main_v6))) (W (Proc.devRef .tc main_v58)))
        (broadcastInDim S200000x7 ![0, 1] bcast_S1x7_S200000x7_0_1 (broadcastInDim S1x7 ![1] bcast_S7_S1x7_1 (W (Proc.devRef .tc main_arg6)))) : FV S200000x7) := by
  after_results_simp <;> rfl

end Cert.KernelIdeal.Hand

end
-- ==== Proof.Ideal.ArrayFns.lean ====
/-
  The four pallas regions as whole-array functions on the extended reals, entry by entry.

  * the dense layer: entry (p, j) is the product of row p of the node features with column j of the weights;
  * a per-edge scaling: row e of the gathered features times the edge's factor, which is read off the packed array
    of three columns as (column 0 · column 2) · column 1 — the source's inverse root degree, the edge weight, the
    target's inverse root degree, multiplied in that order;
  * the hidden layer: the aggregate plus the bias row, rectified at zero, times the second weights.
-/
import proofs.«164169_j52767968199326_1_alg».proof.KernelIdeal
import Idealize.ShloMosaic.Lib.ValueIdx
import Idealize.ShloMosaic.PureOps.Ideal

noncomputable section

namespace Cert.KernelIdeal.Hand

open Idealize.ShloMosaic Idealize.ShloMosaic.ValueIdx Cert.KernelIdeal

/-- x · W1, entry by entry. -/
def denseArr (X : S200000x3.Idx → EReal) (W : S3x16.Idx → EReal) : S200000x16.Idx → EReal :=
  fun i => ∑ k : Fin 3, X (ix2 (i 0) k) * W (ix2 k (i 1))

/-- Sixteen-wide messages: each row scaled by its edge's factor. -/
def scaleArr16 (H : S5200000x16.Idx → EReal) (P : S5200000x3.Idx → EReal) : S5200000x16.Idx → EReal :=
  fun i => H i * ((P (ix2 (i 0) 0) * P (ix2 (i 0) 2)) * P (ix2 (i 0) 1))

/-- Seven-wide messages: each row scaled by its edge's factor. -/
def scaleArr7 (H : S5200000x7.Idx → EReal) (P : S5200000x3.Idx → EReal) : S5200000x7.Idx → EReal :=
  fun i => H i * ((P (ix2 (i 0) 0) * P (ix2 (i 0) 2)) * P (ix2 (i 0) 1))

/-- max(agg + b, 0) · W2, entry by entry; the bias is a one-row array. -/
def hiddenArr (G : S200000x16.Idx → EReal) (Brow : S1x16.Idx → EReal) (W : S16x7.Idx → EReal) : S200000x7.Idx → EReal :=
  fun i => ∑ k : Fin 16, max (G (ix2 (i 0) k) + Brow (ix2 0 k)) (Ideal.ofBits .f32 0x00000000#32) * W (ix2 k (i 1))

end Cert.KernelIdeal.Hand

end
-- ==== Proof.Ideal.KernelOut.lean ====
/-
  The kernel's result as one function of its seven arguments, composed of the host stretches' functions and the four
  regions' whole-array functions: two rounds of "features · weights at the edges' sources, scaled per edge, summed into
  the targets", the first followed by bias and rectification inside the second product, the second by its bias.
-/
import proofs.«164169_j52767968199326_1_alg».proof.Proof.Ideal.HostReads
import proofs.«164169_j52767968199326_1_alg».proof.Proof.Ideal.ArrayFns

set_option maxRecDepth 16384

noncomputable section

namespace Cert.KernelIdeal.Hand

open Idealize.ShloMosaic Idealize.ShloMosaic.TcCoe Idealize.SL.Sem
open Cert.KernelIdeal Cert.KernelIdeal.Gen

/-- The kernel's result as one function of its arguments. -/
def kernelOut (a0 : FV S200000x3) (a1 : IV S2x5000000) (a2 : FV S5000000) (a3 : FV S3x16) (a4 : FV S16) (a5 : FV S16x7) (a6 : FV S7) : FV S200000x7 :=
  let row := rowOf a1
  let col := colOf a1
  let ew := ewOf a2
  let deg := degOf col ew
  let pos := posOf deg
  let dis := disOf pos (Host.rsqrt (safeOf pos deg (constant (F := Ideal) S_ .f32 0x3F800000#32))) (constant (F := Ideal) S_ .f32 0x00000000#32)
  let packed := packedOf dis row col ew
  let msg1 := scaleArr16 (Host.gather gather_S200000x16_S5200000x1_S5200000x16_1_0_n_n_0_1_116 (denseArr a0 a3) (wrap row)) packed
  let agg1 : FV S200000x16 := Host.scatterAdd scatter_S200000x16_S5200000x1_S5200000x16_1_0_0_1 (broadcastInDim S200000x16 ![] bcast_S_S200000x16 (constant (F := Ideal) S_ .f32 0x00000000#32)) (idxCol col) msg1
  let h2 := hiddenArr agg1 (shapeCast S1x16 a4 shapeCasts_S16_S1x16) a5
  let msg2 := scaleArr7 (Host.gather gather_S200000x7_S5200000x1_S5200000x7_1_0_n_n_0_1_17 h2 (wrap row)) packed
  addf (Host.scatterAdd scatter_S200000x7_S5200000x1_S5200000x7_1_0_0_1 (broadcastInDim S200000x7 ![] bcast_S_S200000x7 (constant (F := Ideal) S_ .f32 0x00000000#32)) (idxCol col) msg2)
    (broadcastInDim S200000x7 ![0, 1] bcast_S1x7_S200000x7_0_1 (broadcastInDim S1x7 ![1] bcast_S7_S1x7_1 a6))

end Cert.KernelIdeal.Hand

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«164169_j52767968199326_1_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.Ideal.Payloads.lean ====
/-
  The arithmetic of the four regions read at one index of a block, and the two arrays the host prepares for them
  (the three per-edge columns packed side by side, and the bias as a one-row matrix) read at one index.
  On the extended reals, where a change of float format is the identity.

  * The dense region: a block of features times the first weight matrix, at (p, j) the sum over the 3 input columns.
  * The two message regions: a block of gathered rows, each row scaled by the product of the three numbers
    packed for its edge (columns 0, 2, 1, multiplied in that order).
  * The hidden region: max(aggregate + bias, 0) times the second weight matrix, at (p, j) the sum over the 16
    hidden columns.
-/
import proofs.«164169_j52767968199326_1_alg».proof.Proof.Gen.KernelIdeal.Skeleton
import proofs.«164169_j52767968199326_1_alg».proof.Proof.LibHostRead
import proofs.«164169_j52767968199326_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx
open Cert.LibHostRead Cert.LibPlainDot

/-! ## Two layout readings used below -/

/-- A column [a, 1] repeated along [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Three columns [n, 1] laid side by side as [n, 3]: column c of the result is the c-th piece. -/
theorem cols3_apply {α : Type} {n : ℕ} (A B C : (⟨2, ![n, 1]⟩ : Shape).Idx → α)
    (h : Shape.Concatenates (([⟨⟨2, ![n, 1]⟩, A⟩, ⟨⟨2, ![n, 1]⟩, B⟩, ⟨⟨2, ![n, 1]⟩, C⟩] :
      List ((s : Shape) × (s.Idx → α))).map (·.1)) ⟨2, ![n, 3]⟩ 1) (e : Fin n) :
    concatenate ⟨2, ![n, 3]⟩ 1 [⟨⟨2, ![n, 1]⟩, A⟩, ⟨⟨2, ![n, 1]⟩, B⟩, ⟨⟨2, ![n, 1]⟩, C⟩] h (ix2 e 0) = A (ix2 e 0)
    ∧ concatenate ⟨2, ![n, 3]⟩ 1 [⟨⟨2, ![n, 1]⟩, A⟩, ⟨⟨2, ![n, 1]⟩, B⟩, ⟨⟨2, ![n, 1]⟩, C⟩] h (ix2 e 1) = B (ix2 e 0)
    ∧ concatenate ⟨2, ![n, 3]⟩ 1 [⟨⟨2, ![n, 1]⟩, A⟩, ⟨⟨2, ![n, 1]⟩, B⟩, ⟨⟨2, ![n, 1]⟩, C⟩] h (ix2 e 2) = C (ix2 e 0) := by
  have hi : ∀ (c : Fin 3) (b : Fin 2), b.cast (rfl : (2 : ℕ) = 2) ≠ (1 : Fin 2) →
      ((ix2 e (0 : Fin 1) : (⟨2, ![n, 1]⟩ : Shape).Idx) b).val
        = ((ix2 e c : (⟨2, ![n, 3]⟩ : Shape).Idx) (b.cast (rfl : (2 : ℕ) = 2))).val := by
    intro c b hb
    match b with
    | ⟨0, _⟩ => rfl
    | ⟨1, _⟩ => exact absurd rfl hb
  refine ⟨?_, ?_, ?_⟩
  · exact concatenate_apply_piece 1 _ h (ix2 e 0) 0 (by show (0 : ℕ) < 3; omega) ⟨2, ![n, 1]⟩ A rfl rfl 0 rfl (ix2 e 0) (hi 0) rfl
  · exact concatenate_apply_piece 1 _ h (ix2 e 1) 1 (by show (1 : ℕ) < 3; omega) ⟨2, ![n, 1]⟩ B rfl rfl 1 rfl (ix2 e 0) (hi 1) rfl
  · exact concatenate_apply_piece 1 _ h (ix2 e 2) 2 (by show (2 : ℕ) < 3; omega) ⟨2, ![n, 1]⟩ C rfl rfl 2 rfl (ix2 e 0) (hi 2) rfl

/-! ## The two matrix products' dimension numbers are rows times columns -/

/-- The dense region's product contracts the 3 input columns. -/
theorem plainDot_dense : PlainDot dot_S10000x3_S3x16_S10000x16_1_0_0_1_n_n where
  hr := rfl
  hs := rfl
  hl0 := fun _ _ => rfl
  hl1 := fun _ _ => rfl
  hr0 := fun _ _ => rfl
  hr1 := fun _ _ => rfl

/-- The hidden region's product contracts the 16 hidden columns. -/
theorem plainDot_hidden : PlainDot dot_S10000x16_S16x7_S10000x7_1_0_0_1_n_n where
  hr := rfl
  hs := rfl
  hl0 := fun _ _ => rfl
  hl1 := fun _ _ => rfl
  hr0 := fun _ _ => rfl
  hr1 := fun _ _ => rfl

/-! ## The regions' arithmetic at an index -/

/-- The dense region at (p, j): the row p of the block times the column j of the weights. -/
theorem dense_pay_apply (x : Vec Ideal S10000x3 .f32) (w : Vec Ideal S3x16 .f32) (p : Fin 10000) (j : Fin 16) :
    k0_pay1 (F := Ideal) x w (ix2 p j) = ∑ k : Fin 3, x (ix2 p k) * w (ix2 k j) := by
  show matmul dot_S10000x3_S3x16_S10000x16_1_0_0_1_n_n none _ _ (constant S10000x16 .f32 0x00000000#32) (ix2 p j) = _
  rw [vmatmul_apply _ plainDot_dense]
  rfl

/-- The first message region at (e, f): the gathered row's entry times the product of the edge's three packed
    numbers, columns 0 and 2 first, then column 1. -/
theorem scale16_pay_apply (r : Vec Ideal S10400x3 .f32) (h : Vec Ideal S10400x16 .f32) (e : Fin 10400) (f : Fin 16) :
    k1_pay1 (F := Ideal) r h (ix2 e f) = h (ix2 e f) * ((r (ix2 e 0) * r (ix2 e 2)) * r (ix2 e 1)) := by
  show mulf (F := Ideal) _ (broadcastTo S10400x16 _ broadcasts_S10400x1_S10400x16) (ix2 e f) = _
  rw [shapeCast_self, shapeCast_self, mulf_apply, broadcastTo_a1_ab_apply, mulf_apply, mulf_apply,
    slice2_axis1_apply 0 r _ e 0 0 rfl, slice2_axis1_apply 2 r _ e 0 2 rfl, slice2_axis1_apply 1 r _ e 0 1 rfl]

/-- The hidden region at (p, j): the row p of max(aggregate + bias, 0) times the column j of the weights. -/
theorem hidden_pay_apply (a : Vec Ideal S10000x16 .f32) (b : Vec Ideal S1x16 .f32) (w : Vec Ideal S16x7 .f32)
    (p : Fin 10000) (j : Fin 7) :
    k2_pay1 (F := Ideal) a b w (ix2 p j)
      = ∑ k : Fin 16, max (a (ix2 p k) + b (ix2 0 k)) (Ideal.ofBits .f32 0x00000000#32) * w (ix2 k j) := by
  show matmul dot_S10000x16_S16x7_S10000x7_1_0_0_1_n_n none _ _ (constant S10000x7 .f32 0x00000000#32) (ix2 p j) = _
  rw [vmatmul_apply _ plainDot_hidden]
  refine Finset.sum_congr rfl fun k _ => ?_
  rw [truncf_apply, truncf_apply, maximumf_apply, addf_apply, shapeCast_self, shapeCast_self,
    broadcastTo_1b_ab_apply, broadcast_apply]
  rfl

/-- The second message region at (e, f): as the first, on rows of 7 entries. -/
theorem scale7_pay_apply (r : Vec Ideal S10400x3 .f32) (h : Vec Ideal S10400x7 .f32) (e : Fin 10400) (f : Fin 7) :
    k3_pay1 (F := Ideal) r h (ix2 e f) = h (ix2 e f) * ((r (ix2 e 0) * r (ix2 e 2)) * r (ix2 e 1)) := by
  show mulf (F := Ideal) _ (broadcastTo S10400x7 _ broadcasts_S10400x1_S10400x7) (ix2 e f) = _
  rw [shapeCast_self, shapeCast_self, mulf_apply, broadcastTo_a1_ab_apply, mulf_apply, mulf_apply,
    slice2_axis1_apply 0 r _ e 0 0 rfl, slice2_axis1_apply 2 r _ e 0 2 rfl, slice2_axis1_apply 1 r _ e 0 1 rfl]

/-! ## The host's two prepared arrays at an index -/

/-- The packed array: three per-edge vectors, each made a column, side by side. Row e holds the three vectors' entries at e. -/
theorem packed_apply (a b c : FVec Ideal S5200000 .f32) (e : Fin 5200000) :
    let P := concatenate S5200000x3 1
      [⟨S5200000x1, broadcastInDim S5200000x1 ![0] bcast_S5200000_S5200000x1_0 a⟩,
       ⟨S5200000x1, broadcastInDim S5200000x1 ![0] bcast_S5200000_S5200000x1_0 b⟩,
       ⟨S5200000x1, broadcastInDim S5200000x1 ![0] bcast_S5200000_S5200000x1_0 c⟩]
      concatenates_S5200000x1_S5200000x1_S5200000x1_S5200000x3_d1
    P (ix2 e 0) = a (ix1 e) ∧ P (ix2 e 1) = b (ix1 e) ∧ P (ix2 e 2) = c (ix1 e) := by
  intro P
  obtain ⟨h0, h1, h2⟩ := cols3_apply (broadcastInDim S5200000x1 ![0] bcast_S5200000_S5200000x1_0 a)
    (broadcastInDim S5200000x1 ![0] bcast_S5200000_S5200000x1_0 b)
    (broadcastInDim S5200000x1 ![0] bcast_S5200000_S5200000x1_0 c)
    concatenates_S5200000x1_S5200000x1_S5200000x1_S5200000x3_d1 e
  exact ⟨h0.trans (bid_a_a1_apply a _ e 0), h1.trans (bid_a_a1_apply b _ e 0), h2.trans (bid_a_a1_apply c _ e 0)⟩

/-- The bias as a one-row matrix reads, at (0, k), the bias at k. -/
theorem biasRow_apply (b : FVec Ideal S16 .f32) (k : Fin 16) :
    shapeCast S1x16 b shapeCasts_S16_S1x16 (ix2 0 k) = b (ix1 k) :=
  shapeCast_a_1a_apply b _ 0 k

end Cert.KernelIdeal.Hand

end
-- ==== Proof.Ideal.DenseArrays.lean ====
/-
  From blocks to whole arrays, for the two dense regions, on the extended reals.

  Each of the two regions walks 20 grid points; point t overwrites rows 10000 t … 10000 t + 9999 of its output
  array with a matrix product whose left factor is the same rows of an input array and whose other operands are
  whole small arrays (the weights, the bias row). The blocks therefore are the restrictions of ONE function of the
  input arrays, and together they fill the output array: the array ends equal to that function.
-/
import proofs.«164169_j52767968199326_1_alg».proof.Proof.Ideal.Region0
import proofs.«164169_j52767968199326_1_alg».proof.Proof.Ideal.Region2
import proofs.«164169_j52767968199326_1_alg».proof.Proof.Ideal.ArrayFns
import proofs.«164169_j52767968199326_1_alg».proof.Proof.Ideal.Payloads
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

-- what the core's buffers hold when a region is entered
variable (V : (c : Dev nD) → (b : Ref sig .tc) → Buf (Elt Ideal) ((c : Thread nD τ).loc b))

/-- The offset vector of a whole-buffer access is zero on both axes. -/
theorem zeros2 : (![0, 0] : Fin 2 → Nat) = fun _ => 0 := funext fun a => by fin_cases a <;> rfl

/-! # The first dense layer -/

/-- Where the three windows sit at grid point t: the feature block and the output block are both block-row t
    (column block 0); the weights are always block (0, 0). Checked point by point over the 20 points. -/
theorem dense_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of one block. If row p of the feature block is row (i 0) of the feature array, and the weight
    block is the weight array, then entry (p, j) of the block product is entry i of the array product
    (where i 1 = j is carried by the hypothesis on the weights). -/
theorem dense_point (X : S200000x3.Idx → EReal) (W : S3x16.Idx → EReal)
    (x : Vec Ideal S10000x3 .f32) (w : Vec Ideal S3x16 .f32) (p : Fin 10000) (j : Fin 16) (i : S200000x16.Idx)
    (hx : ∀ k : Fin 3, x (ix2 p k) = X (ix2 (i 0) k)) (hw : ∀ k : Fin 3, w (ix2 k j) = W (ix2 k (i 1))) :
    k0_pay1 (F := Ideal) x w (ix2 p j) = denseArr X W i := by
  rw [dense_pay_apply]
  unfold denseArr
  exact Finset.sum_congr rfl fun k _ => by rw [hx k, hw k]

/-- What point t writes back is block t of the array product. The single whole-buffer store leaves its payload;
    the loads read the blocks as they are; then entry by entry, with each block's coordinate being
    (block index) × (block extent) + (coordinate inside the block). -/
theorem dense_flushed (c : Dev nD) (t : Fin cfg0.N) :
    (pdat0 V c).flushed 2 t
      = ((cfg0.win 2).blk t).view.read (Elt Ideal) (denseArr (V c main_arg0) (V c main_arg3)) := by
  show (cfg0.win 2).cut (grid0.coords t) ((pdat0 V c).after 2 t) = _
  rw [pdat0_after_2]
  unfold stored0
  rw [View.canon_unit_zero zeros2]
  simp only [View.ld_unit_zero (S := S10000x3) zeros2, View.ld_unit_zero (S := S3x16) zeros2]
  obtain ⟨e00, e01, e10, e11, e20, e21⟩ := dense_index t
  funext j
  obtain ⟨p, q, rfl⟩ : ∃ (p : Fin 10000) (q : Fin 16), j = ix2 p q := ⟨j 0, j 1, eq_ix2 j⟩
  show k0_pay1 (F := Ideal) (blk0 V c 0 t) (blk0 V c 1 t) (ix2 p q)
    = denseArr (V c main_arg0) (V c main_arg3) (((cfg0.win 2).blk t).view.emb (ix2 p q))
  refine dense_point _ _ _ _ p q _ (fun k => ?_) (fun k => ?_)
  · show V c main_arg0 (((cfg0.win 0).blk t).view.emb (ix2 p k)) = V c main_arg0 _
    refine congrArg _ (funext fun a => Fin.ext ?_)
    match a with
    | ⟨0, _⟩ =>
      show win0_0.index t (0 : Fin 2) * 10000 + 1 * p.val = win0_2.index t (0 : Fin 2) * 10000 + 1 * p.val
      rw [e00, e20]
    | ⟨1, _⟩ =>
      show win0_0.index t (1 : Fin 2) * 3 + 1 * k.val = k.val
      rw [e01]; omega
  · show V c main_arg3 (((cfg0.win 1).blk t).view.emb (ix2 k q)) = V c main_arg3 _
    refine congrArg _ (funext fun a => Fin.ext ?_)
    match a with
    | ⟨0, _⟩ =>
      show win0_1.index t (0 : Fin 2) * 3 + 1 * k.val = k.val
      rw [e10]; omega
    | ⟨1, _⟩ =>
      show win0_1.index t (1 : Fin 2) * 16 + 1 * q.val = win0_2.index t (1 : Fin 2) * 16 + 1 * q.val
      rw [e11, e21]

/-- An index of the output array lies in point t's block exactly when each coordinate lies in the block's range. -/
theorem dense_mem_blk (t : Fin cfg0.N) (i : S200000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v37).slice (win0_2.rect t)).set ↔ _
  rw [View.set_slice_whole, Rect.mem_set_unit]
  exact Iff.rfl

/-- Every index of the output array is in some point's block: row r is in the block of point r / 10000. -/
theorem dense_cover (i : S200000x16.Idx) :
    ∃ t : Fin cfg0.N, (cfg0.win 2).flush t = true ∧ i ∈ ((cfg0.win 2).blk t).view.set := by
  have h0 : (i 0).val < 200000 := (i 0).isLt
  have h1 : (i 1).val < 16 := (i 1).isLt
  have hlt : (i 0).val / 10000 < cfg0.N := by
    show (i 0).val / 10000 < grid0.N
    rw [N_0]; omega
  obtain ⟨-, -, -, -, e20, e21⟩ := dense_index ⟨(i 0).val / 10000, hlt⟩
  refine ⟨⟨(i 0).val / 10000, hlt⟩, flush0_2 _, ?_⟩
  rw [dense_mem_blk]
  intro a
  match a with
  | ⟨0, _⟩ =>
    show win0_2.index ⟨(i 0).val / 10000, hlt⟩ (0 : Fin 2) * 10000 ≤ (i 0).val
      ∧ (i 0).val < win0_2.index ⟨(i 0).val / 10000, hlt⟩ (0 : Fin 2) * 10000 + 10000
    rw [e20]
    show (i 0).val / 10000 * 10000 ≤ (i 0).val ∧ (i 0).val < (i 0).val / 10000 * 10000 + 10000
    omega
  | ⟨1, _⟩ =>
    show win0_2.index ⟨(i 0).val / 10000, hlt⟩ (1 : Fin 2) * 16 ≤ (i 1).val
      ∧ (i 1).val < win0_2.index ⟨(i 0).val / 10000, hlt⟩ (1 : Fin 2) * 16 + 16
    rw [e21]; omega

/-- After the region, its output array is the feature array times the first weights, entry by entry. -/
theorem dense_final (c : Dev nD) :
    (pdat0 V c).arrAt 2 cfg0.N = denseArr (V c main_arg0) (V c main_arg3) :=
  (pdat0 V c).arrAt_eq_of_cover 2 (denseArr (V c main_arg0) (V c main_arg3))
    (fun t _ => dense_flushed V c t) dense_cover

/-! # The hidden layer -/

/-- Where the four windows sit at grid point t: the aggregate block and the output block are both block-row t
    (column block 0); the bias row and the weights are always block (0, 0). Checked over the 20 points. -/
theorem hidden_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One entry of one block. If row p of the aggregate block is row (i 0) of the aggregate array, and the bias
    and weight blocks are the bias and weight arrays, then entry (p, j) of the block's rectified product is
    entry i of the array's. -/
theorem hidden_point (G : S200000x16.Idx → EReal) (B : S1x16.Idx → EReal) (W : S16x7.Idx → EReal)
    (a : Vec Ideal S10000x16 .f32) (b : Vec Ideal S1x16 .f32) (w : Vec Ideal S16x7 .f32)
    (p : Fin 10000) (j : Fin 7) (i : S200000x7.Idx)
    (ha : ∀ k : Fin 16, a (ix2 p k) = G (ix2 (i 0) k)) (hb : ∀ k : Fin 16, b (ix2 0 k) = B (ix2 0 k))
    (hw : ∀ k : Fin 16, w (ix2 k j) = W (ix2 k (i 1))) :
    k2_pay1 (F := Ideal) a b w (ix2 p j) = hiddenArr G B W i := by
  rw [hidden_pay_apply]
  unfold hiddenArr
  exact Finset.sum_congr rfl fun k _ => by rw [ha k, hb k, hw k]

/-- What point t writes back is block t of the array function, by the same steps as for the first layer. -/
theorem hidden_flushed (c : Dev nD) (t : Fin cfg2.N) :
    (pdat2 V c).flushed 3 t
      = ((cfg2.win 3).blk t).view.read (Elt Ideal) (hiddenArr (V c main_v48) (V c main_v49) (V c main_arg5)) := by
  show (cfg2.win 3).cut (grid2.coords t) ((pdat2 V c).after 3 t) = _
  rw [pdat2_after_3]
  unfold stored2
  rw [View.canon_unit_zero zeros2]
  simp only [View.ld_unit_zero (S := S10000x16) zeros2, View.ld_unit_zero (S := S1x16) zeros2,
    View.ld_unit_zero (S := S16x7) zeros2]
  obtain ⟨e00, e01, e10, e11, e20, e21, e30, e31⟩ := hidden_index t
  funext j
  obtain ⟨p, q, rfl⟩ : ∃ (p : Fin 10000) (q : Fin 7), j = ix2 p q := ⟨j 0, j 1, eq_ix2 j⟩
  show k2_pay1 (F := Ideal) (blk2 V c 0 t) (blk2 V c 1 t) (blk2 V c 2 t) (ix2 p q)
    = hiddenArr (V c main_v48) (V c main_v49) (V c main_arg5) (((cfg2.win 3).blk t).view.emb (ix2 p q))
  refine hidden_point _ _ _ _ _ _ p q _ (fun k => ?_) (fun k => ?_) (fun k => ?_)
  · show V c main_v48 (((cfg2.win 0).blk t).view.emb (ix2 p k)) = V c main_v48 _
    refine congrArg _ (funext fun a => Fin.ext ?_)
    match a with
    | ⟨0, _⟩ =>
      show win2_0.index t (0 : Fin 2) * 10000 + 1 * p.val = win2_3.index t (0 : Fin 2) * 10000 + 1 * p.val
      rw [e00, e30]
    | ⟨1, _⟩ =>
      show win2_0.index t (1 : Fin 2) * 16 + 1 * k.val = k.val
      rw [e01]; omega
  · show V c main_v49 (((cfg2.win 1).blk t).view.emb (ix2 0 k)) = V c main_v49 _
    refine congrArg _ (funext fun a => Fin.ext ?_)
    match a with
    | ⟨0, _⟩ =>
      show win2_1.index t (0 : Fin 2) * 1 + 1 * 0 = 0
      rw [e10]
    | ⟨1, _⟩ =>
      show win2_1.index t (1 : Fin 2) * 16 + 1 * k.val = k.val
      rw [e11]; omega
  · show V c main_arg5 (((cfg2.win 2).blk t).view.emb (ix2 k q)) = V c main_arg5 _
    refine congrArg _ (funext fun a => Fin.ext ?_)
    match a with
    | ⟨0, _⟩ =>
      show win2_2.index t (0 : Fin 2) * 16 + 1 * k.val = k.val
      rw [e20]; omega
    | ⟨1, _⟩ =>
      show win2_2.index t (1 : Fin 2) * 7 + 1 * q.val = win2_3.index t (1 : Fin 2) * 7 + 1 * q.val
      rw [e21, e31]

/-- An index of the output array lies in point t's block exactly when each coordinate lies in the block's range. -/
theorem hidden_mem_blk (t : Fin cfg2.N) (i : S200000x7.Idx) :
    i ∈ ((cfg2.win 3).blk t).view.set ↔ ∀ a : Fin 2, win2_3.index t a * S10000x7.size a ≤ (i a).val
      ∧ (i a).val < win2_3.index t a * S10000x7.size a + S10000x7.size a := by
  show i ∈ ((View.whole main_v50).slice (win2_3.rect t)).set ↔ _
  rw [View.set_slice_whole, Rect.mem_set_unit]
  exact Iff.rfl

/-- Every index of the output array is in some point's block: row r is in the block of point r / 10000. -/
theorem hidden_cover (i : S200000x7.Idx) :
    ∃ t : Fin cfg2.N, (cfg2.win 3).flush t = true ∧ i ∈ ((cfg2.win 3).blk t).view.set := by
  have h0 : (i 0).val < 200000 := (i 0).isLt
  have h1 : (i 1).val < 7 := (i 1).isLt
  have hlt : (i 0).val / 10000 < cfg2.N := by
    show (i 0).val / 10000 < grid2.N
    rw [N_2]; omega
  obtain ⟨-, -, -, -, -, -, e30, e31⟩ := hidden_index ⟨(i 0).val / 10000, hlt⟩
  refine ⟨⟨(i 0).val / 10000, hlt⟩, flush2_3 _, ?_⟩
  rw [hidden_mem_blk]
  intro a
  match a with
  | ⟨0, _⟩ =>
    show win2_3.index ⟨(i 0).val / 10000, hlt⟩ (0 : Fin 2) * 10000 ≤ (i 0).val
      ∧ (i 0).val < win2_3.index ⟨(i 0).val / 10000, hlt⟩ (0 : Fin 2) * 10000 + 10000
    rw [e30]
    show (i 0).val / 10000 * 10000 ≤ (i 0).val ∧ (i 0).val < (i 0).val / 10000 * 10000 + 10000
    omega
  | ⟨1, _⟩ =>
    show win2_3.index ⟨(i 0).val / 10000, hlt⟩ (1 : Fin 2) * 7 ≤ (i 1).val
      ∧ (i 1).val < win2_3.index ⟨(i 0).val / 10000, hlt⟩ (1 : Fin 2) * 7 + 7
    rw [e31]; omega

/-- After the region, its output array is max(aggregate + bias, 0) times the second weights, entry by entry. -/
theorem hidden_final (c : Dev nD) :
    (pdat2 V c).arrAt 3 cfg2.N = hiddenArr (V c main_v48) (V c main_v49) (V c main_arg5) :=
  (pdat2 V c).arrAt_eq_of_cover 3 (hiddenArr (V c main_v48) (V c main_v49) (V c main_arg5))
    (fun t _ => hidden_flushed V c t) hidden_cover

end Cert.KernelIdeal.Hand

end
-- ==== Proof.Ideal.ScaleArrays.lean ====
/-
  The two edge-message regions, from blocks to whole arrays, on the extended reals.

  Each region runs over 500 grid points; point t reads rows 10400 t … 10400 t + 10399 of the gathered features and of
  the packed per-edge scalars, and writes the same rows of the output. Row by row the output is the feature row times
  (column 0 · column 2) · column 1 of the scalars' row, so every block written back is the matching block of one
  whole-array function, and the 500 blocks cover all 5200000 rows: after the region the output array IS that function
  of the two input arrays.
-/
import proofs.«164169_j52767968199326_1_alg».proof.Proof.Ideal.Region1
import proofs.«164169_j52767968199326_1_alg».proof.Proof.Ideal.Region3
import proofs.«164169_j52767968199326_1_alg».proof.Proof.Ideal.ArrayFns
import proofs.«164169_j52767968199326_1_alg».proof.Proof.Ideal.Payloads
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The two zero offsets, as the constant function. -/
theorem scale_zero_offsets : (![0, 0] : Fin 2 → Nat) = fun _ => 0 := funext fun a => by fin_cases a <;> rfl

/-! # Region 1: from the 500 blocks of 10400 rows to the whole array of 5200000 rows and 16 columns -/

/-- The block the body leaves, at row `p` and column `q` of the block: the feature entry there times the row's factor,
    the product of the scalar block's entries at columns 0 and 2, then column 1, of the same row. -/
theorem stored1_apply (x0 : Vec Ideal S10400x16 .f32) (x1 : Vec Ideal S10400x3 .f32) (p : Fin 10400) (q : Fin 16) :
    stored1 x0 x1 (ix2 p q) = x0 (ix2 p q) * ((x1 (ix2 p 0) * x1 (ix2 p 2)) * x1 (ix2 p 1)) := by
  unfold stored1
  rw [View.canon_unit_zero scale_zero_offsets]
  simp only [View.ld_unit_zero (S := S10400x16) scale_zero_offsets, View.ld_unit_zero (S := S10400x3) scale_zero_offsets]
  exact scale16_pay_apply x1 x0 p q

/-- The same entry as an entry of the whole-array function: if the feature block's entry at (p, q) is the features'
    entry at array index `i`, and row `p` of the scalar block is row `i 0` of the scalars, then the block the body
    leaves holds at (p, q) the whole-array scaling at `i`. -/
theorem scale16_point (H : S5200000x16.Idx → EReal) (P : S5200000x3.Idx → EReal)
    (x0 : Vec Ideal S10400x16 .f32) (x1 : Vec Ideal S10400x3 .f32) (p : Fin 10400) (q : Fin 16) (i : S5200000x16.Idx)
    (h0 : x0 (ix2 p q) = H i) (h1 : ∀ k : Fin 3, x1 (ix2 p k) = P (ix2 (i 0) k)) :
    stored1 x0 x1 (ix2 p q) = scaleArr16 H P i := by
  rw [stored1_apply, h0, h1 0, h1 1, h1 2]
  rfl

/-- At grid point `t` all three windows are on block row `t` and block column 0. -/
theorem scale16_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array function: row `p` of the block is row
    `10400 t + p` of the array, in the features, in the scalars and in the output alike. -/
theorem scale16_block (c : Dev nD) (t : Fin cfg1.N) :
    (pdat1 V c).flushed 2 t = ((cfg1.win 2).blk t).view.read (Elt Ideal) (scaleArr16 (V c main_v44) (V c main_v36)) := by
  show (cfg1.win 2).cut (grid1.coords t) ((pdat1 V c).after 2 t) = _
  rw [pdat1_after_2]
  obtain ⟨e0, e1, e2, e3, e4, e5⟩ := scale16_idx t
  funext j
  obtain ⟨p, q, rfl⟩ : ∃ (p : Fin 10400) (q : Fin 16), j = ix2 p q := ⟨j 0, j 1, eq_ix2 j⟩
  show stored1 (blk1 V c 0 t) (blk1 V c 1 t) (ix2 p q)
    = scaleArr16 (V c main_v44) (V c main_v36) (((cfg1.win 2).blk t).view.emb (ix2 p q))
  have hH : ((cfg1.win 0).blk t).view.emb (ix2 p q) = ((cfg1.win 2).blk t).view.emb (ix2 p q) := by
    funext a; apply Fin.ext
    match a with
    | ⟨0, _⟩ => show win1_0.index t (0 : Fin 2) * 10400 + 1 * p.val = win1_2.index t (0 : Fin 2) * 10400 + 1 * p.val; omega
    | ⟨1, _⟩ => show win1_0.index t (1 : Fin 2) * 16 + 1 * q.val = win1_2.index t (1 : Fin 2) * 16 + 1 * q.val; omega
  have hP : ∀ k : Fin 3, ((cfg1.win 1).blk t).view.emb (ix2 p k) = ix2 ((((cfg1.win 2).blk t).view.emb (ix2 p q)) 0) k := by
    intro k
    funext a; apply Fin.ext
    match a with
    | ⟨0, _⟩ => show win1_1.index t (0 : Fin 2) * 10400 + 1 * p.val = win1_2.index t (0 : Fin 2) * 10400 + 1 * p.val; omega
    | ⟨1, _⟩ => show win1_1.index t (1 : Fin 2) * 3 + 1 * k.val = k.val; omega
  refine scale16_point (V c main_v44) (V c main_v36) (blk1 V c 0 t) (blk1 V c 1 t) p q
    (((cfg1.win 2).blk t).view.emb (ix2 p q)) ?_ ?_
  · show V c main_v44 (((cfg1.win 0).blk t).view.emb (ix2 p q)) = V c main_v44 (((cfg1.win 2).blk t).view.emb (ix2 p q))
    rw [hH]
  · intro k
    show V c main_v36 (((cfg1.win 1).blk t).view.emb (ix2 p k))
      = V c main_v36 (ix2 ((((cfg1.win 2).blk t).view.emb (ix2 p q)) 0) k)
    rw [hP k]
    rfl

/-- An index of the array lies in point `t`'s block exactly when, on each axis, its coordinate lies in the block's range. -/
theorem scale16_mem_blk (t : Fin cfg1.N) (i : S5200000x16.Idx) :
    i ∈ ((cfg1.win 2).blk t).view.set ↔ ∀ a : Fin 2, win1_2.index t a * S10400x16.size a ≤ (i a).val ∧ (i a).val < win1_2.index t a * S10400x16.size a + S10400x16.size a := by
  show i ∈ ((View.whole main_v45).slice (win1_2.rect t)).set ↔ _
  rw [View.set_slice_whole, Rect.mem_set_unit]
  exact Iff.rfl

/-- Every index of the array is written back by some point: row `r` by point `r / 10400`. -/
theorem scale16_cover (i : S5200000x16.Idx) :
    ∃ t : Fin cfg1.N, (cfg1.win 2).flush t = true ∧ i ∈ ((cfg1.win 2).blk t).view.set := by
  have hi0 : (i 0).val < 5200000 := (i 0).isLt
  have hi1 : (i 1).val < 16 := (i 1).isLt
  have hN : cfg1.N = 500 := N_1
  have ht : (i 0).val / 10400 < cfg1.N := by rw [hN]; omega
  obtain ⟨-, -, -, -, e4, e5⟩ := scale16_idx ⟨(i 0).val / 10400, ht⟩
  refine ⟨⟨(i 0).val / 10400, ht⟩, flush1_2 _, ?_⟩
  rw [scale16_mem_blk]
  intro a
  match a with
  | ⟨0, _⟩ =>
    show win1_2.index ⟨(i 0).val / 10400, ht⟩ (0 : Fin 2) * 10400 ≤ (i 0).val
      ∧ (i 0).val < win1_2.index ⟨(i 0).val / 10400, ht⟩ (0 : Fin 2) * 10400 + 10400
    rw [e4]; show (i 0).val / 10400 * 10400 ≤ (i 0).val ∧ (i 0).val < (i 0).val / 10400 * 10400 + 10400; omega
  | ⟨1, _⟩ =>
    show win1_2.index ⟨(i 0).val / 10400, ht⟩ (1 : Fin 2) * 16 ≤ (i 1).val
      ∧ (i 1).val < win1_2.index ⟨(i 0).val / 10400, ht⟩ (1 : Fin 2) * 16 + 16
    rw [e5]; omega

/-- After the region the output array is the whole-array scaling of the features by the per-edge factors. -/
theorem scale16_final (V : (c : Dev nD) → (b : Ref sig .tc) → Buf (Elt Ideal) ((c : Thread nD τ).loc b)) (c : Dev nD) :
    (pdat1 V c).arrAt 2 cfg1.N = scaleArr16 (V c main_v44) (V c main_v36) :=
  (pdat1 V c).arrAt_eq_of_cover 2 (scaleArr16 (V c main_v44) (V c main_v36)) (fun t _ => scale16_block V c t) scale16_cover

/-! # Region 3: from the 500 blocks of 10400 rows to the whole array of 5200000 rows and 7 columns -/

/-- The block the body leaves, at row `p` and column `q` of the block: the feature entry there times the row's factor,
    the product of the scalar block's entries at columns 0 and 2, then column 1, of the same row. -/
theorem stored3_apply (x0 : Vec Ideal S10400x7 .f32) (x1 : Vec Ideal S10400x3 .f32) (p : Fin 10400) (q : Fin 7) :
    stored3 x0 x1 (ix2 p q) = x0 (ix2 p q) * ((x1 (ix2 p 0) * x1 (ix2 p 2)) * x1 (ix2 p 1)) := by
  unfold stored3
  rw [View.canon_unit_zero scale_zero_offsets]
  simp only [View.ld_unit_zero (S := S10400x7) scale_zero_offsets, View.ld_unit_zero (S := S10400x3) scale_zero_offsets]
  exact scale7_pay_apply x1 x0 p q

/-- The same entry as an entry of the whole-array function: if the feature block's entry at (p, q) is the features'
    entry at array index `i`, and row `p` of the scalar block is row `i 0` of the scalars, then the block the body
    leaves holds at (p, q) the whole-array scaling at `i`. -/
theorem scale7_point (H : S5200000x7.Idx → EReal) (P : S5200000x3.Idx → EReal)
    (x0 : Vec Ideal S10400x7 .f32) (x1 : Vec Ideal S10400x3 .f32) (p : Fin 10400) (q : Fin 7) (i : S5200000x7.Idx)
    (h0 : x0 (ix2 p q) = H i) (h1 : ∀ k : Fin 3, x1 (ix2 p k) = P (ix2 (i 0) k)) :
    stored3 x0 x1 (ix2 p q) = scaleArr7 H P i := by
  rw [stored3_apply, h0, h1 0, h1 1, h1 2]
  rfl

/-- At grid point `t` all three windows are on block row `t` and block column 0. -/
theorem scale7_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole-array function: row `p` of the block is row
    `10400 t + p` of the array, in the features, in the scalars and in the output alike. -/
theorem scale7_block (c : Dev nD) (t : Fin cfg3.N) :
    (pdat3 V c).flushed 2 t = ((cfg3.win 2).blk t).view.read (Elt Ideal) (scaleArr7 (V c main_v57) (V c main_v36)) := by
  show (cfg3.win 2).cut (grid3.coords t) ((pdat3 V c).after 2 t) = _
  rw [pdat3_after_2]
  obtain ⟨e0, e1, e2, e3, e4, e5⟩ := scale7_idx t
  funext j
  obtain ⟨p, q, rfl⟩ : ∃ (p : Fin 10400) (q : Fin 7), j = ix2 p q := ⟨j 0, j 1, eq_ix2 j⟩
  show stored3 (blk3 V c 0 t) (blk3 V c 1 t) (ix2 p q)
    = scaleArr7 (V c main_v57) (V c main_v36) (((cfg3.win 2).blk t).view.emb (ix2 p q))
  have hH : ((cfg3.win 0).blk t).view.emb (ix2 p q) = ((cfg3.win 2).blk t).view.emb (ix2 p q) := by
    funext a; apply Fin.ext
    match a with
    | ⟨0, _⟩ => show win3_0.index t (0 : Fin 2) * 10400 + 1 * p.val = win3_2.index t (0 : Fin 2) * 10400 + 1 * p.val; omega
    | ⟨1, _⟩ => show win3_0.index t (1 : Fin 2) * 7 + 1 * q.val = win3_2.index t (1 : Fin 2) * 7 + 1 * q.val; omega
  have hP : ∀ k : Fin 3, ((cfg3.win 1).blk t).view.emb (ix2 p k) = ix2 ((((cfg3.win 2).blk t).view.emb (ix2 p q)) 0) k := by
    intro k
    funext a; apply Fin.ext
    match a with
    | ⟨0, _⟩ => show win3_1.index t (0 : Fin 2) * 10400 + 1 * p.val = win3_2.index t (0 : Fin 2) * 10400 + 1 * p.val; omega
    | ⟨1, _⟩ => show win3_1.index t (1 : Fin 2) * 3 + 1 * k.val = k.val; omega
  refine scale7_point (V c main_v57) (V c main_v36) (blk3 V c 0 t) (blk3 V c 1 t) p q
    (((cfg3.win 2).blk t).view.emb (ix2 p q)) ?_ ?_
  · show V c main_v57 (((cfg3.win 0).blk t).view.emb (ix2 p q)) = V c main_v57 (((cfg3.win 2).blk t).view.emb (ix2 p q))
    rw [hH]
  · intro k
    show V c main_v36 (((cfg3.win 1).blk t).view.emb (ix2 p k))
      = V c main_v36 (ix2 ((((cfg3.win 2).blk t).view.emb (ix2 p q)) 0) k)
    rw [hP k]
    rfl

/-- An index of the array lies in point `t`'s block exactly when, on each axis, its coordinate lies in the block's range. -/
theorem scale7_mem_blk (t : Fin cfg3.N) (i : S5200000x7.Idx) :
    i ∈ ((cfg3.win 2).blk t).view.set ↔ ∀ a : Fin 2, win3_2.index t a * S10400x7.size a ≤ (i a).val ∧ (i a).val < win3_2.index t a * S10400x7.size a + S10400x7.size a := by
  show i ∈ ((View.whole main_v58).slice (win3_2.rect t)).set ↔ _
  rw [View.set_slice_whole, Rect.mem_set_unit]
  exact Iff.rfl

/-- Every index of the array is written back by some point: row `r` by point `r / 10400`. -/
theorem scale7_cover (i : S5200000x7.Idx) :
    ∃ t : Fin cfg3.N, (cfg3.win 2).flush t = true ∧ i ∈ ((cfg3.win 2).blk t).view.set := by
  have hi0 : (i 0).val < 5200000 := (i 0).isLt
  have hi1 : (i 1).val < 7 := (i 1).isLt
  have hN : cfg3.N = 500 := N_3
  have ht : (i 0).val / 10400 < cfg3.N := by rw [hN]; omega
  obtain ⟨-, -, -, -, e4, e5⟩ := scale7_idx ⟨(i 0).val / 10400, ht⟩
  refine ⟨⟨(i 0).val / 10400, ht⟩, flush3_2 _, ?_⟩
  rw [scale7_mem_blk]
  intro a
  match a with
  | ⟨0, _⟩ =>
    show win3_2.index ⟨(i 0).val / 10400, ht⟩ (0 : Fin 2) * 10400 ≤ (i 0).val
      ∧ (i 0).val < win3_2.index ⟨(i 0).val / 10400, ht⟩ (0 : Fin 2) * 10400 + 10400
    rw [e4]; show (i 0).val / 10400 * 10400 ≤ (i 0).val ∧ (i 0).val < (i 0).val / 10400 * 10400 + 10400; omega
  | ⟨1, _⟩ =>
    show win3_2.index ⟨(i 0).val / 10400, ht⟩ (1 : Fin 2) * 7 ≤ (i 1).val
      ∧ (i 1).val < win3_2.index ⟨(i 0).val / 10400, ht⟩ (1 : Fin 2) * 7 + 7
    rw [e5]; omega

/-- After the region the output array is the whole-array scaling of the features by the per-edge factors. -/
theorem scale7_final (V : (c : Dev nD) → (b : Ref sig .tc) → Buf (Elt Ideal) ((c : Thread nD τ).loc b)) (c : Dev nD) :
    (pdat3 V c).arrAt 2 cfg3.N = scaleArr7 (V c main_v57) (V c main_v36) :=
  (pdat3 V c).arrAt_eq_of_cover 2 (scaleArr7 (V c main_v57) (V c main_v36)) (fun t _ => scale7_block V c t) scale7_cover

end Cert.KernelIdeal.Hand

end
-- ==== Proof.Ideal.Value.lean ====
/-
  The value of the kernel's run: what the result buffer holds at the end, as one function of the seven arguments.

  The boundaries of the run are read one item at a time: a host stretch leaves its function of what it found, a region
  leaves its whole-array function of the arrays it read; a buffer nobody writes in between is carried along. Composed,
  the result is: the second layer's messages summed into their targets plus the second bias, where each layer's messages
  are the rows of (features · weights) at the edges' sources, scaled by the packed per-edge factors.
-/
import proofs.«164169_j52767968199326_1_alg».proof.Proof.Ideal.Run
import proofs.«164169_j52767968199326_1_alg».proof.Proof.Ideal.HostReads
import proofs.«164169_j52767968199326_1_alg».proof.Proof.Ideal.ArrayFns
import proofs.«164169_j52767968199326_1_alg».proof.Proof.Ideal.KernelOut
import proofs.«164169_j52767968199326_1_alg».proof.Proof.Ideal.DenseArrays
import proofs.«164169_j52767968199326_1_alg».proof.Proof.Ideal.ScaleArrays

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## Buffers carried unchanged from where they were written to where they are read -/

theorem keep_pos13 : B3 m c (Proc.devRef .tc main_v13) = B1 m c (Proc.devRef .tc main_v13) :=
  (B3_of m c main_v13 (by decide)).trans <| (B2_of m c main_v13 (by decide))

theorem keep_row4 : B4 m c (Proc.devRef .tc main_v5) = B1 m c (Proc.devRef .tc main_v5) :=
  (B4_of m c main_v5 (by decide)).trans <| (B3_of m c main_v5 (by decide)).trans <| (B2_of m c main_v5 (by decide))

theorem keep_col4 : B4 m c (Proc.devRef .tc main_v6) = B1 m c (Proc.devRef .tc main_v6) :=
  (B4_of m c main_v6 (by decide)).trans <| (B3_of m c main_v6 (by decide)).trans <| (B2_of m c main_v6 (by decide))

theorem keep_ew4 : B4 m c (Proc.devRef .tc main_v8) = B1 m c (Proc.devRef .tc main_v8) :=
  (B4_of m c main_v8 (by decide)).trans <| (B3_of m c main_v8 (by decide)).trans <| (B2_of m c main_v8 (by decide))

theorem keep_row6 : B6 m c (Proc.devRef .tc main_v5) = B1 m c (Proc.devRef .tc main_v5) :=
  (B6_of_ne m c main_v5 (by decide)).trans <| (B5_of m c main_v5 (by decide)).trans <| (B4_of m c main_v5 (by decide)).trans <| (B3_of m c main_v5 (by decide)).trans <| (B2_of m c main_v5 (by decide))

theorem keep_row10 : B10 m c (Proc.devRef .tc main_v5) = B1 m c (Proc.devRef .tc main_v5) :=
  (B10_of_ne m c main_v5 (by decide)).trans <| (B9_of m c main_v5 (by decide)).trans <| (B8_of_ne m c main_v5 (by decide)).trans <| (B7_of m c main_v5 (by decide)).trans <| (B6_of_ne m c main_v5 (by decide)).trans <| (B5_of m c main_v5 (by decide)).trans <| (B4_of m c main_v5 (by decide)).trans <| (B3_of m c main_v5 (by decide)).trans <| (B2_of m c main_v5 (by decide))

theorem keep_col8 : B8 m c (Proc.devRef .tc main_v6) = B1 m c (Proc.devRef .tc main_v6) :=
  (B8_of_ne m c main_v6 (by decide)).trans <| (B7_of m c main_v6 (by decide)).trans <| (B6_of_ne m c main_v6 (by decide)).trans <| (B5_of m c main_v6 (by decide)).trans <| (B4_of m c main_v6 (by decide)).trans <| (B3_of m c main_v6 (by decide)).trans <| (B2_of m c main_v6 (by decide))

theorem keep_col12 : B12 m c (Proc.devRef .tc main_v6) = B1 m c (Proc.devRef .tc main_v6) :=
  (B12_of_ne m c main_v6 (by decide)).trans <| (B11_of m c main_v6 (by decide)).trans <| (B10_of_ne m c main_v6 (by decide)).trans <| (B9_of m c main_v6 (by decide)).trans <| (B8_of_ne m c main_v6 (by decide)).trans <| (B7_of m c main_v6 (by decide)).trans <| (B6_of_ne m c main_v6 (by decide)).trans <| (B5_of m c main_v6 (by decide)).trans <| (B4_of m c main_v6 (by decide)).trans <| (B3_of m c main_v6 (by decide)).trans <| (B2_of m c main_v6 (by decide))

theorem keep_packed7 : B7 m c (Proc.devRef .tc main_v36) = B5 m c (Proc.devRef .tc main_v36) :=
  (B7_of m c main_v36 (by decide)).trans <| (B6_of_ne m c main_v36 (by decide))

theorem keep_packed11 : B11 m c (Proc.devRef .tc main_v36) = B5 m c (Proc.devRef .tc main_v36) :=
  (B11_of m c main_v36 (by decide)).trans <| (B10_of_ne m c main_v36 (by decide)).trans <| (B9_of m c main_v36 (by decide)).trans <| (B8_in m c 1 rfl).trans <| (B7_of m c main_v36 (by decide)).trans <| (B6_of_ne m c main_v36 (by decide))

theorem keep_x5 : B5 m c (Proc.devRef .tc main_arg0) = B0 m c (Proc.devRef .tc main_arg0) :=
  (B5_of m c main_arg0 (by decide)).trans <| (B4_of m c main_arg0 (by decide)).trans <| (B3_of m c main_arg0 (by decide)).trans <| (B2_of m c main_arg0 (by decide)).trans <| (B1_of m c main_arg0 (by decide))

theorem keep_w1_5 : B5 m c (Proc.devRef .tc main_arg3) = B0 m c (Proc.devRef .tc main_arg3) :=
  (B5_of m c main_arg3 (by decide)).trans <| (B4_of m c main_arg3 (by decide)).trans <| (B3_of m c main_arg3 (by decide)).trans <| (B2_of m c main_arg3 (by decide)).trans <| (B1_of m c main_arg3 (by decide))

theorem keep_b1_8 : B8 m c (Proc.devRef .tc main_arg4) = B0 m c (Proc.devRef .tc main_arg4) :=
  (B8_of_ne m c main_arg4 (by decide)).trans <| (B7_of m c main_arg4 (by decide)).trans <| (B6_of_ne m c main_arg4 (by decide)).trans <| (B5_of m c main_arg4 (by decide)).trans <| (B4_of m c main_arg4 (by decide)).trans <| (B3_of m c main_arg4 (by decide)).trans <| (B2_of m c main_arg4 (by decide)).trans <| (B1_of m c main_arg4 (by decide))

theorem keep_w2_9 : B9 m c (Proc.devRef .tc main_arg5) = B0 m c (Proc.devRef .tc main_arg5) :=
  (B9_of m c main_arg5 (by decide)).trans <| (B8_of_ne m c main_arg5 (by decide)).trans <| (B7_of m c main_arg5 (by decide)).trans <| (B6_of_ne m c main_arg5 (by decide)).trans <| (B5_of m c main_arg5 (by decide)).trans <| (B4_of m c main_arg5 (by decide)).trans <| (B3_of m c main_arg5 (by decide)).trans <| (B2_of m c main_arg5 (by decide)).trans <| (B1_of m c main_arg5 (by decide))

theorem keep_b2_12 : B12 m c (Proc.devRef .tc main_arg6) = B0 m c (Proc.devRef .tc main_arg6) :=
  (B12_of_ne m c main_arg6 (by decide)).trans <| (B11_of m c main_arg6 (by decide)).trans <| (B10_of_ne m c main_arg6 (by decide)).trans <| (B9_of m c main_arg6 (by decide)).trans <| (B8_of_ne m c main_arg6 (by decide)).trans <| (B7_of m c main_arg6 (by decide)).trans <| (B6_of_ne m c main_arg6 (by decide)).trans <| (B5_of m c main_arg6 (by decide)).trans <| (B4_of m c main_arg6 (by decide)).trans <| (B3_of m c main_arg6 (by decide)).trans <| (B2_of m c main_arg6 (by decide)).trans <| (B1_of m c main_arg6 (by decide))

/-! ## What each boundary holds, in terms of the arguments -/

set_option quotPrecheck false

local notation "x₀" => B0 m c (Proc.devRef .tc main_arg0)
local notation "e₀" => B0 m c (Proc.devRef .tc main_arg1)
local notation "w₀" => B0 m c (Proc.devRef .tc main_arg2)
local notation "W₁" => B0 m c (Proc.devRef .tc main_arg3)
local notation "b₁" => B0 m c (Proc.devRef .tc main_arg4)
local notation "W₂" => B0 m c (Proc.devRef .tc main_arg5)
local notation "b₂" => B0 m c (Proc.devRef .tc main_arg6)
local notation "degK" => degOf (colOf e₀) (ewOf w₀)
local notation "oneK" => constant (F := Ideal) S_ .f32 0x3F800000#32
local notation "zeroK" => constant (F := Ideal) S_ .f32 0x00000000#32
local notation "disK" => disOf (posOf degK) (Host.rsqrt (safeOf (posOf degK) degK oneK)) zeroK
local notation "packedK" => packedOf disK (rowOf e₀) (colOf e₀) (ewOf w₀)
local notation "msg1K" => scaleArr16 (Host.gather gather_S200000x16_S5200000x1_S5200000x16_1_0_n_n_0_1_116 (denseArr x₀ W₁) (wrap (rowOf e₀))) packedK
local notation "agg1K" => (Host.scatterAdd scatter_S200000x16_S5200000x1_S5200000x16_1_0_0_1 (broadcastInDim S200000x16 ![] bcast_S_S200000x16 (constant (F := Ideal) S_ .f32 0x00000000#32)) (idxCol (colOf e₀)) msg1K : FV S200000x16)
local notation "h2K" => hiddenArr agg1K (shapeCast S1x16 b₁ shapeCasts_S16_S1x16) W₂
local notation "msg2K" => scaleArr7 (Host.gather gather_S200000x7_S5200000x1_S5200000x7_1_0_n_n_0_1_17 h2K (wrap (rowOf e₀))) packedK

theorem at1_row : B1 m c (Proc.devRef .tc main_v5) = rowOf e₀ := ops0_row (B0 m c)
theorem at1_col : B1 m c (Proc.devRef .tc main_v6) = colOf e₀ := ops0_col (B0 m c)
theorem at1_ew : B1 m c (Proc.devRef .tc main_v8) = ewOf w₀ := ops0_ew (B0 m c)
theorem at1_deg : B1 m c (Proc.devRef .tc main_v11) = degK := ops0_deg (B0 m c)
theorem at1_pos13 : B1 m c (Proc.devRef .tc main_v13) = posOf degK := ops0_pos13 (B0 m c)
theorem at1_pos15 : B1 m c (Proc.devRef .tc main_v15) = posOf degK := ops0_pos15 (B0 m c)
theorem at1_one : B1 m c (Proc.devRef .tc main_cst_3) = oneK := ops0_one (B0 m c)
theorem at2_safe : B2 m c (Proc.devRef .tc main_v16) = safeOf (posOf degK) degK oneK := by
  refine (ops01_safe (B1 m c)).trans ?_
  rw [at1_pos15 m c, at1_deg m c, at1_one m c]
theorem at3_rsqrt : B3 m c (Proc.devRef .tc main_v17) = (Host.rsqrt (safeOf (posOf degK) degK oneK) : FV S200000) := by
  refine (ops02_rsqrt (B2 m c)).trans ?_
  rw [at2_safe m c]
theorem at3_zero : B3 m c (Proc.devRef .tc main_cst_4) = zeroK := ops02_zero (B2 m c)
theorem at4_dis : B4 m c (Proc.devRef .tc main_v18) = disK := by
  refine (ops03_dis (B3 m c)).trans ?_
  rw [keep_pos13 m c, at1_pos13 m c, at3_rsqrt m c, at3_zero m c]
theorem at5_packed : B5 m c (Proc.devRef .tc main_v36) = packedK := by
  refine (ops04_packed (B4 m c)).trans ?_
  rw [at4_dis m c, keep_row4 m c, at1_row m c, keep_col4 m c, at1_col m c, keep_ew4 m c, at1_ew m c]
/-- After region 0: the first layer's features. -/
theorem at6_h1 : B6 m c (Proc.devRef .tc main_v37) = denseArr x₀ W₁ := by
  refine (B6_arr m c 2).trans ((dense_final (E5 m) c).trans ?_)
  show denseArr (B5 m c (Proc.devRef .tc main_arg0)) (B5 m c (Proc.devRef .tc main_arg3)) = _
  rw [keep_x5 m c, keep_w1_5 m c]
theorem at7_h1g : B7 m c (Proc.devRef .tc main_v44)
    = (Host.gather gather_S200000x16_S5200000x1_S5200000x16_1_0_n_n_0_1_116 (denseArr x₀ W₁) (wrap (rowOf e₀)) : FV S5200000x16) := by
  refine (ops1_gather (B6 m c)).trans ?_
  rw [at6_h1 m c, keep_row6 m c, at1_row m c]
/-- After region 1: the first layer's messages. -/
theorem at8_msg1 : B8 m c (Proc.devRef .tc main_v45) = msg1K := by
  refine (B8_arr m c 2).trans ((scale16_final (E7 m) c).trans ?_)
  show scaleArr16 (B7 m c (Proc.devRef .tc main_v44)) (B7 m c (Proc.devRef .tc main_v36)) = _
  rw [at7_h1g m c, keep_packed7 m c, at5_packed m c]
theorem at9_agg1 : B9 m c (Proc.devRef .tc main_v48) = agg1K := by
  refine (ops2_sum (B8 m c)).trans ?_
  rw [keep_col8 m c, at1_col m c, at8_msg1 m c]
theorem at9_bias : B9 m c (Proc.devRef .tc main_v49) = (shapeCast S1x16 b₁ shapeCasts_S16_S1x16 : FV S1x16) := by
  refine (ops2_bias (B8 m c)).trans ?_
  rw [keep_b1_8 m c]
/-- After region 2: the second layer's features. -/
theorem at10_h2 : B10 m c (Proc.devRef .tc main_v50) = h2K := by
  refine (B10_arr m c 3).trans ((hidden_final (E9 m) c).trans ?_)
  show hiddenArr (B9 m c (Proc.devRef .tc main_v48)) (B9 m c (Proc.devRef .tc main_v49)) (B9 m c (Proc.devRef .tc main_arg5)) = _
  rw [at9_agg1 m c, at9_bias m c, keep_w2_9 m c]
theorem at11_h2g : B11 m c (Proc.devRef .tc main_v57)
    = (Host.gather gather_S200000x7_S5200000x1_S5200000x7_1_0_n_n_0_1_17 h2K (wrap (rowOf e₀)) : FV S5200000x7) := by
  refine (ops3_gather (B10 m c)).trans ?_
  rw [at10_h2 m c, keep_row10 m c, at1_row m c]
/-- After region 3: the second layer's messages. -/
theorem at12_msg2 : B12 m c (Proc.devRef .tc main_v58) = msg2K := by
  refine (B12_arr m c 2).trans ((scale7_final (E11 m) c).trans ?_)
  show scaleArr7 (B11 m c (Proc.devRef .tc main_v57)) (B11 m c (Proc.devRef .tc main_v36)) = _
  rw [at11_h2g m c, keep_packed11 m c, at5_packed m c]
/-- At the end: the result buffer holds the kernel's function of the arguments. -/
theorem at13_out : B13 m c (Proc.devRef .tc main_v64) = kernelOut x₀ e₀ w₀ W₁ b₁ W₂ b₂ := by
  refine (ops4_out (B12 m c)).trans ?_
  rw [keep_col12 m c, at1_col m c, at12_msg2 m c, keep_b2_12 m c]
  rfl

/-! ## The run, read -/

/-- Every weakly fair execution of @main terminates, nothing faulting, with the result at the kernel's function of the
    arguments and every argument as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v64) = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v64 (by decide))).trans (at13_out m c),
    (h c _ (mem_uc main_arg0 (by decide))).trans (B13_main_arg0 m c),
    (h c _ (mem_uc main_arg1 (by decide))).trans (B13_main_arg1 m c),
    (h c _ (mem_uc main_arg2 (by decide))).trans (B13_main_arg2 m c),
    (h c _ (mem_uc main_arg3 (by decide))).trans (B13_main_arg3 m c),
    (h c _ (mem_uc main_arg4 (by decide))).trans (B13_main_arg4 m c),
    (h c _ (mem_uc main_arg5 (by decide))).trans (B13_main_arg5 m c),
    (h c _ (mem_uc main_arg6 (by decide))).trans (B13_main_arg6 m c)⟩) (run_all m ρ)

end Cert.KernelIdeal.Hand

end
-- ==== Proof.Ideal.HostForms.lean ====
/-
  The reference's array operations, in the form its composed result has them, read at one index. On the extended reals.

  * The two matrix products at (p, j): a sum over the contracted axis.
  * The hidden layer: max(g + bias, 0) with the bias made a row and repeated along the rows, and the zero a scalar
    spread over the whole matrix, then the product with the second weight matrix.
  * The message scaling: each row of the gathered features times the product of three per-edge numbers, the product
    taken on vectors, made a column, and repeated along the columns.
-/
import proofs.«164169_j52767968199326_1_alg».proof.ReferenceIdeal
import proofs.«164169_j52767968199326_1_alg».proof.Proof.LibHostRead
import proofs.«164169_j52767968199326_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.RefForms

open Cert.ReferenceIdeal Idealize.ShloMosaic Idealize.ShloMosaic.ValueIdx
open Cert.LibHostRead Cert.LibPlainDot

variable [Cert.ReferenceIdeal.Facts₀]
open Cert.ReferenceIdeal.Facts₀

/-! ## The two products' dimension numbers are rows times columns -/

/-- The first layer's product contracts the 3 input columns. -/
theorem plainDot_dot1 : PlainDot dot_S200000x3_S3x16_S200000x16_1_0_0_1_n_n where
  hr := rfl
  hs := rfl
  hl0 := fun _ _ => rfl
  hl1 := fun _ _ => rfl
  hr0 := fun _ _ => rfl
  hr1 := fun _ _ => rfl

/-- The second layer's product contracts the 16 hidden columns. -/
theorem plainDot_dot2 : PlainDot dot_S200000x16_S16x7_S200000x7_1_0_0_1_n_n where
  hr := rfl
  hs := rfl
  hl0 := fun _ _ => rfl
  hl1 := fun _ _ => rfl
  hr0 := fun _ _ => rfl
  hr1 := fun _ _ => rfl

/-! ## The operations at an index -/

/-- The first layer's product at (p, j): row p of the features times column j of the weights. -/
theorem dot1_apply (x : FVec Ideal S200000x3 .f32) (w : FVec Ideal S3x16 .f32) (p : Fin 200000) (j : Fin 16) :
    Host.dotGeneral (F := Ideal) dot_S200000x3_S3x16_S200000x16_1_0_0_1_n_n none x w (ix2 p j)
      = ∑ k : Fin 3, x (ix2 p k) * w (ix2 k j) :=
  hdot_apply _ plainDot_dot1 x w p j

/-- The hidden layer followed by the second product, at (p, j): row p of max(g + bias, 0) times column j of the weights. -/
theorem hidden_apply (g : FVec Ideal S200000x16 .f32) (b : FVec Ideal S16 .f32) (w : FVec Ideal S16x7 .f32)
    (p : Fin 200000) (j : Fin 7) :
    Host.dotGeneral (F := Ideal) dot_S200000x16_S16x7_S200000x7_1_0_0_1_n_n none
        (maximumf (addf g (broadcastInDim S200000x16 ![0, 1] bcast_S1x16_S200000x16_0_1
            (broadcastInDim S1x16 ![1] bcast_S16_S1x16_1 b)))
          (broadcastInDim S200000x16 ![] bcast_S_S200000x16 (constant (F := Ideal) S_ .f32 0x00000000#32))) w (ix2 p j)
      = ∑ k : Fin 16, max (g (ix2 p k) + b (ix1 k)) (Ideal.ofBits .f32 0x00000000#32) * w (ix2 k j) := by
  rw [hdot_apply _ plainDot_dot2]
  refine Finset.sum_congr rfl fun k _ => ?_
  rw [maximumf_apply, addf_apply, bid_1b_ab_apply, bid_b_1b_apply, bid_scalar_apply, constant_apply]

/-- The first message scaling at (e, f): the gathered entry times the product of the edge's three numbers. -/
theorem scale16_apply (h : FVec Ideal S5200000x16 .f32) (a c b : FVec Ideal S5200000 .f32) (e : Fin 5200000) (f : Fin 16) :
    mulf h (broadcastInDim S5200000x16 ![0, 1] bcast_S5200000x1_S5200000x16_0_1
        (broadcastInDim S5200000x1 ![0] bcast_S5200000_S5200000x1_0 (mulf (mulf a c) b))) (ix2 e f)
      = h (ix2 e f) * ((a (ix1 e) * c (ix1 e)) * b (ix1 e)) := by
  rw [mulf_apply, bid_a1_ab_apply, bid_a_a1_apply, mulf_apply, mulf_apply]

/-- The second message scaling at (e, f): as the first, on rows of 7 entries. -/
theorem scale7_apply (h : FVec Ideal S5200000x7 .f32) (a c b : FVec Ideal S5200000 .f32) (e : Fin 5200000) (f : Fin 7) :
    mulf h (broadcastInDim S5200000x7 ![0, 1] bcast_S5200000x1_S5200000x7_0_1
        (broadcastInDim S5200000x1 ![0] bcast_S5200000_S5200000x1_0 (mulf (mulf a c) b))) (ix2 e f)
      = h (ix2 e f) * ((a (ix1 e) * c (ix1 e)) * b (ix1 e)) := by
  rw [mulf_apply, bid_a1_ab_apply, bid_a_a1_apply, mulf_apply, mulf_apply]

end Cert.RefForms

end
-- ==== Proof.Ideal.Bridge.lean ====
/-
  Each region's whole-array function is the reference's array operation, as functions.

  The kernel side describes a region's result entry by entry (a row times a column; a row scaled by its edge's
  factor); the reference builds the same array from whole-array operations (a matrix product; broadcasts and an
  elementwise product). Both are read at an index (p, j) and the readings agree:
  * the dense layer and the hidden layer at (p, j) are the same sum over the contracted axis; the kernel's bias is the
    one-row matrix made from the bias vector, and the reference's is that vector made a row and repeated along the rows;
  * the edge scaling multiplies (column 0 · column 2) · column 1 of the packed array, whose columns are the three
    per-edge vectors a, b, c: that is (a · c) · b, the order in which the reference multiplies them.
  The two programs name their shapes independently; a kernel-side array is used at the reference's shape of the same
  extents.
-/
import proofs.«164169_j52767968199326_1_alg».proof.Proof.Ideal.ArrayFns
import proofs.«164169_j52767968199326_1_alg».proof.Proof.Ideal.Payloads
import proofs.«164169_j52767968199326_1_alg».proof.Proof.Ideal.HostForms

noncomputable section

namespace Cert.Bridge

open Idealize.ShloMosaic Idealize.ShloMosaic.ValueIdx

variable [Cert.ReferenceIdeal.Facts₀]

/-! ## The whole-array functions at an index written by coordinates -/

theorem denseArr_apply (X : Cert.KernelIdeal.S200000x3.Idx → EReal) (W : Cert.KernelIdeal.S3x16.Idx → EReal)
    (p : Fin 200000) (j : Fin 16) :
    Cert.KernelIdeal.Hand.denseArr X W (ix2 p j) = ∑ k : Fin 3, X (ix2 p k) * W (ix2 k j) := rfl

theorem hiddenArr_apply (G : Cert.KernelIdeal.S200000x16.Idx → EReal) (Brow : Cert.KernelIdeal.S1x16.Idx → EReal)
    (W : Cert.KernelIdeal.S16x7.Idx → EReal) (p : Fin 200000) (j : Fin 7) :
    Cert.KernelIdeal.Hand.hiddenArr G Brow W (ix2 p j)
      = ∑ k : Fin 16, max (G (ix2 p k) + Brow (ix2 0 k)) (Ideal.ofBits .f32 0x00000000#32) * W (ix2 k j) := rfl

theorem scaleArr16_apply (Hg : Cert.KernelIdeal.S5200000x16.Idx → EReal) (P : Cert.KernelIdeal.S5200000x3.Idx → EReal)
    (e : Fin 5200000) (f : Fin 16) :
    Cert.KernelIdeal.Hand.scaleArr16 Hg P (ix2 e f) = Hg (ix2 e f) * ((P (ix2 e 0) * P (ix2 e 2)) * P (ix2 e 1)) := rfl

theorem scaleArr7_apply (Hg : Cert.KernelIdeal.S5200000x7.Idx → EReal) (P : Cert.KernelIdeal.S5200000x3.Idx → EReal)
    (e : Fin 5200000) (f : Fin 7) :
    Cert.KernelIdeal.Hand.scaleArr7 Hg P (ix2 e f) = Hg (ix2 e f) * ((P (ix2 e 0) * P (ix2 e 2)) * P (ix2 e 1)) := rfl

/-! ## The four regions against the reference's operations -/

/-- The dense layer is the reference's first matrix product. -/
theorem dense_eq (X : Cert.KernelIdeal.S200000x3.Idx → EReal) (W : Cert.KernelIdeal.S3x16.Idx → EReal) :
    Cert.KernelIdeal.Hand.denseArr X W
      = Host.dotGeneral (F := Ideal) (φ₁ := .f32) (φ₂ := .f32) Cert.ReferenceIdeal.dot_S200000x3_S3x16_S200000x16_1_0_0_1_n_n none
          (X : FVec Ideal Cert.ReferenceIdeal.S200000x3 .f32) (W : FVec Ideal Cert.ReferenceIdeal.S3x16 .f32) := by
  funext i
  obtain ⟨p, j, rfl⟩ : ∃ p j, i = ix2 p j := ⟨i 0, i 1, eq_ix2 i⟩
  rw [denseArr_apply]
  exact (Cert.RefForms.dot1_apply X W p j).symm

/-- The hidden layer is the reference's bias, rectification and second matrix product. -/
theorem hidden_eq (G : Cert.KernelIdeal.S200000x16.Idx → EReal) (b : Cert.KernelIdeal.S16.Idx → EReal)
    (W : Cert.KernelIdeal.S16x7.Idx → EReal) :
    Cert.KernelIdeal.Hand.hiddenArr G
        (shapeCast Cert.KernelIdeal.S1x16 b Cert.KernelIdeal.Gen.shapeCasts_S16_S1x16) W
      = Host.dotGeneral (F := Ideal) (φ₁ := .f32) (φ₂ := .f32) Cert.ReferenceIdeal.dot_S200000x16_S16x7_S200000x7_1_0_0_1_n_n none
          (maximumf (F := Ideal) (φ := .f32) (addf (F := Ideal) (φ := .f32) G
              (broadcastInDim Cert.ReferenceIdeal.S200000x16 ![0, 1] Cert.ReferenceIdeal.Facts₀.bcast_S1x16_S200000x16_0_1
                (broadcastInDim Cert.ReferenceIdeal.S1x16 ![1] Cert.ReferenceIdeal.Facts₀.bcast_S16_S1x16_1
                  (b : FVec Ideal Cert.ReferenceIdeal.S16 .f32))))
            (broadcastInDim Cert.ReferenceIdeal.S200000x16 ![] Cert.ReferenceIdeal.Facts₀.bcast_S_S200000x16
              (constant (F := Ideal) Cert.ReferenceIdeal.S_ .f32 0x00000000#32)))
          (W : FVec Ideal Cert.ReferenceIdeal.S16x7 .f32) := by
  funext i
  obtain ⟨p, j, rfl⟩ : ∃ p j, i = ix2 p j := ⟨i 0, i 1, eq_ix2 i⟩
  rw [hiddenArr_apply]
  refine Eq.trans ?_ (Cert.RefForms.hidden_apply G b W p j).symm
  refine Finset.sum_congr rfl fun k _ => ?_
  rw [Cert.KernelIdeal.Hand.biasRow_apply b k]

/-- The sixteen-wide edge scaling is the reference's elementwise product with the broadcast edge factor. -/
theorem scale16_eq (Hg : Cert.KernelIdeal.S5200000x16.Idx → EReal) (a b c : Cert.KernelIdeal.S5200000.Idx → EReal) :
    Cert.KernelIdeal.Hand.scaleArr16 Hg
        (concatenate Cert.KernelIdeal.S5200000x3 1
          [⟨Cert.KernelIdeal.S5200000x1, broadcastInDim Cert.KernelIdeal.S5200000x1 ![0] Cert.KernelIdeal.Gen.bcast_S5200000_S5200000x1_0 a⟩,
           ⟨Cert.KernelIdeal.S5200000x1, broadcastInDim Cert.KernelIdeal.S5200000x1 ![0] Cert.KernelIdeal.Gen.bcast_S5200000_S5200000x1_0 b⟩,
           ⟨Cert.KernelIdeal.S5200000x1, broadcastInDim Cert.KernelIdeal.S5200000x1 ![0] Cert.KernelIdeal.Gen.bcast_S5200000_S5200000x1_0 c⟩]
          Cert.KernelIdeal.Gen.concatenates_S5200000x1_S5200000x1_S5200000x1_S5200000x3_d1)
      = mulf (F := Ideal) (φ := .f32) (Hg : FVec Ideal Cert.ReferenceIdeal.S5200000x16 .f32)
          (broadcastInDim Cert.ReferenceIdeal.S5200000x16 ![0, 1] Cert.ReferenceIdeal.Facts₀.bcast_S5200000x1_S5200000x16_0_1
            (broadcastInDim Cert.ReferenceIdeal.S5200000x1 ![0] Cert.ReferenceIdeal.Facts₀.bcast_S5200000_S5200000x1_0
              (mulf (F := Ideal) (φ := .f32) (mulf (F := Ideal) (φ := .f32) a c) b))) := by
  funext i
  obtain ⟨e, f, rfl⟩ : ∃ e f, i = ix2 e f := ⟨i 0, i 1, eq_ix2 i⟩
  obtain ⟨h0, h1, h2⟩ := Cert.KernelIdeal.Hand.packed_apply a b c e
  rw [scaleArr16_apply, h0, h1, h2]
  exact (Cert.RefForms.scale16_apply Hg a c b e f).symm

/-- The seven-wide edge scaling, likewise. -/
theorem scale7_eq (Hg : Cert.KernelIdeal.S5200000x7.Idx → EReal) (a b c : Cert.KernelIdeal.S5200000.Idx → EReal) :
    Cert.KernelIdeal.Hand.scaleArr7 Hg
        (concatenate Cert.KernelIdeal.S5200000x3 1
          [⟨Cert.KernelIdeal.S5200000x1, broadcastInDim Cert.KernelIdeal.S5200000x1 ![0] Cert.KernelIdeal.Gen.bcast_S5200000_S5200000x1_0 a⟩,
           ⟨Cert.KernelIdeal.S5200000x1, broadcastInDim Cert.KernelIdeal.S5200000x1 ![0] Cert.KernelIdeal.Gen.bcast_S5200000_S5200000x1_0 b⟩,
           ⟨Cert.KernelIdeal.S5200000x1, broadcastInDim Cert.KernelIdeal.S5200000x1 ![0] Cert.KernelIdeal.Gen.bcast_S5200000_S5200000x1_0 c⟩]
          Cert.KernelIdeal.Gen.concatenates_S5200000x1_S5200000x1_S5200000x1_S5200000x3_d1)
      = mulf (F := Ideal) (φ := .f32) (Hg : FVec Ideal Cert.ReferenceIdeal.S5200000x7 .f32)
          (broadcastInDim Cert.ReferenceIdeal.S5200000x7 ![0, 1] Cert.ReferenceIdeal.Facts₀.bcast_S5200000x1_S5200000x7_0_1
            (broadcastInDim Cert.ReferenceIdeal.S5200000x1 ![0] Cert.ReferenceIdeal.Facts₀.bcast_S5200000_S5200000x1_0
              (mulf (F := Ideal) (φ := .f32) (mulf (F := Ideal) (φ := .f32) a c) b))) := by
  funext i
  obtain ⟨e, f, rfl⟩ : ∃ e f, i = ix2 e f := ⟨i 0, i 1, eq_ix2 i⟩
  obtain ⟨h0, h1, h2⟩ := Cert.KernelIdeal.Hand.packed_apply a b c e
  rw [scaleArr7_apply, h0, h1, h2]
  exact (Cert.RefForms.scale7_apply Hg a c b e f).symm

end Cert.Bridge

end
-- ==== Proof.RefStages.lean ====
/-
  The reference's result as named stages of its seven arguments, on the extended reals.

  The reference is a two-layer graph convolution with self loops and symmetric normalisation:
  * row, col: the edge list's sources and targets, each followed by the 200000 self loops (node i to node i);
  * ew: the edge weights followed by weight 1 for each self loop;
  * deg: for each node the sum of the weights of the edges that end there; dis: its inverse square root where the
    degree is positive, and 0 elsewhere;
  * norm: per edge, dis at the source times the weight times dis at the target (indices read with negative values
    wrapped by the node count);
  * conv: gather the rows of the features at the sources, scale each by the edge's norm, and add them up at the targets;
  * the result: conv of (features times the first weights), plus the first bias, rectified at zero, times the second
    weights, conv again, plus the second bias.
  The composed term of the reference's run is these stages written out in full; the last statement says so.
-/
import proofs.«164169_j52767968199326_1_alg».proof.Proof.Gen.ReferenceIdeal.Run
import Idealize.ShloMosaic.PureOps.Ideal

noncomputable section

namespace Cert.ReferenceIdeal.Stages

open Cert.ReferenceIdeal Cert.ReferenceIdeal.Gen Idealize.ShloMosaic Idealize.ShloMosaic.TcCoe Idealize.SL.Sem
  Idealize.ShloMosaic.StableHlo

/-- An integer array of shape S on the host. -/
abbrev IV (S : Shape) := (⟨S, .i32⟩ : BufTy).Contents (Elt Ideal)
/-- A float array of shape S on the host, its entries extended reals. -/
abbrev FV (S : Shape) := (⟨S, .f32⟩ : BufTy).Contents (Elt Ideal)

/-- The edges' sources, then the self loops' (node i). -/
def row (a1 : IV S2x5000000) : IV S5200000 :=
  concatenate S5200000 0 [⟨S5000000, (shapeCast _ (extractStridedSlice S1x5000000 ![0, 0] a1 slices_S2x5000000_S1x5000000_0_0) shapeCasts_S1x5000000_S5000000)⟩, ⟨S200000, (iotaInDim S200000 32 0)⟩] concatenates_S5000000_S200000_S5200000_d0

/-- The edges' targets, then the self loops' (node i). -/
def col (a1 : IV S2x5000000) : IV S5200000 :=
  concatenate S5200000 0 [⟨S5000000, (shapeCast _ (extractStridedSlice S1x5000000 ![1, 0] a1 slices_S2x5000000_S1x5000000_1_0) shapeCasts_S1x5000000_S5000000)⟩, ⟨S200000, (iotaInDim S200000 32 0)⟩] concatenates_S5000000_S200000_S5200000_d0

/-- The edges' weights, then weight 1 for each self loop. -/
def ew (a2 : FV S5000000) : FV S5200000 :=
  concatenate S5200000 0 [⟨S5000000, a2⟩, ⟨S200000, (broadcastInDim S200000 ![] bcast_S_S200000 (constant (F := Ideal) S_ .f32 0x3F800000#32))⟩] concatenates_S5000000_S200000_S5200000_d0

/-- The targets as a column: where the sums are accumulated. -/
def colIdx (a1 : IV S2x5000000) : IV S5200000x1 :=
  broadcastInDim S5200000x1 ![0] bcast_S5200000_S5200000x1_0 (col a1)

/-- An index vector with its negative entries moved up by the node count, as a column: where rows are read. -/
def wrap (v : IV S5200000) : IV S5200000x1 :=
  broadcastInDim S5200000x1 ![0] bcast_S5200000_S5200000x1_0 (select (cmpi .slt v (broadcastInDim S5200000 ![] bcast_S_S5200000 (constantI S_ 32 0#32))) (addi v (broadcastInDim S5200000 ![] bcast_S_S5200000 (constantI S_ 32 200000#32))) v)

/-- Each node's weighted in-degree. -/
def deg (a1 : IV S2x5000000) (a2 : FV S5000000) : FV S200000 :=
  Host.scatterAdd (F := Ideal) (φ := .f32) scatter_S200000_S5200000x1_S5200000_n_0_0_1 (broadcastInDim S200000 ![] bcast_S_S200000 (constant (F := Ideal) S_ .f32 0x00000000#32)) (colIdx a1) (ew a2)

/-- The inverse square root of the degree where it is positive, 0 elsewhere. -/
def dis (a1 : IV S2x5000000) (a2 : FV S5000000) : FV S200000 :=
  select (cmpf (F := Ideal) (φ := .f32) .ogt (deg a1 a2) (broadcastInDim S200000 ![] bcast_S_S200000 (constant (F := Ideal) S_ .f32 0x00000000#32))) (Host.rsqrt (F := Ideal) (φ := .f32) (select (cmpf (F := Ideal) (φ := .f32) .ogt (deg a1 a2) (broadcastInDim S200000 ![] bcast_S_S200000 (constant (F := Ideal) S_ .f32 0x00000000#32))) (deg a1 a2) (broadcastInDim S200000 ![] bcast_S_S200000 (id (constant (F := Ideal) S_ .f32 0x3F800000#32))))) (broadcastInDim S200000 ![] bcast_S_S200000 (id (constant (F := Ideal) S_ .f32 0x00000000#32)))

/-- Per edge: dis at the source, times the weight, times dis at the target. -/
def norm (a1 : IV S2x5000000) (a2 : FV S5000000) : FV S5200000 :=
  mulf (F := Ideal) (φ := .f32) (mulf (F := Ideal) (φ := .f32) (Host.gather gather_S200000_S5200000x1_S5200000_n_0_n_n_0_1_1 (dis a1 a2) (wrap (row a1))) (ew a2)) (Host.gather gather_S200000_S5200000x1_S5200000_n_0_n_n_0_1_1 (dis a1 a2) (wrap (col a1)))

/-- One propagation of sixteen-wide features: rows gathered at the sources, scaled by norm, summed at the targets. -/
def conv16 (h : FV S200000x16) (a1 : IV S2x5000000) (a2 : FV S5000000) : FV S200000x16 :=
  Host.scatterAdd (F := Ideal) (φ := .f32) scatter_S200000x16_S5200000x1_S5200000x16_1_0_0_1 (broadcastInDim S200000x16 ![] bcast_S_S200000x16 (constant (F := Ideal) S_ .f32 0x00000000#32)) (colIdx a1) (mulf (F := Ideal) (φ := .f32) (Host.gather gather_S200000x16_S5200000x1_S5200000x16_1_0_n_n_0_1_116 h (wrap (row a1))) (broadcastInDim S5200000x16 ![0, 1] bcast_S5200000x1_S5200000x16_0_1 (broadcastInDim S5200000x1 ![0] bcast_S5200000_S5200000x1_0 (norm a1 a2))))

/-- One propagation of seven-wide features. -/
def conv7 (h : FV S200000x7) (a1 : IV S2x5000000) (a2 : FV S5000000) : FV S200000x7 :=
  Host.scatterAdd (F := Ideal) (φ := .f32) scatter_S200000x7_S5200000x1_S5200000x7_1_0_0_1 (broadcastInDim S200000x7 ![] bcast_S_S200000x7 (constant (F := Ideal) S_ .f32 0x00000000#32)) (colIdx a1) (mulf (F := Ideal) (φ := .f32) (Host.gather gather_S200000x7_S5200000x1_S5200000x7_1_0_n_n_0_1_17 h (wrap (row a1))) (broadcastInDim S5200000x7 ![0, 1] bcast_S5200000x1_S5200000x7_0_1 (broadcastInDim S5200000x1 ![0] bcast_S5200000_S5200000x1_0 (norm a1 a2))))

/-- The reference's result: two propagations with a rectified hidden layer between them, each followed by its bias. -/
def refOut (a0 : FV S200000x3) (a1 : IV S2x5000000) (a2 : FV S5000000) (a3 : FV S3x16) (a4 : FV S16) (a5 : FV S16x7)
    (a6 : FV S7) : FV S200000x7 :=
  addf (F := Ideal) (φ := .f32) (conv7 (Host.dotGeneral (F := Ideal) (φ₁ := .f32) (φ₂ := .f32) dot_S200000x16_S16x7_S200000x7_1_0_0_1_n_n none (maximumf (F := Ideal) (φ := .f32) (addf (F := Ideal) (φ := .f32) (conv16 (Host.dotGeneral (F := Ideal) (φ₁ := .f32) (φ₂ := .f32) dot_S200000x3_S3x16_S200000x16_1_0_0_1_n_n none a0 a3) a1 a2) (broadcastInDim S200000x16 ![0, 1] bcast_S1x16_S200000x16_0_1 (broadcastInDim S1x16 ![1] bcast_S16_S1x16_1 a4))) (broadcastInDim S200000x16 ![] bcast_S_S200000x16 (constant (F := Ideal) S_ .f32 0x00000000#32))) a5) a1 a2) (broadcastInDim S200000x7 ![0, 1] bcast_S1x7_S200000x7_0_1 (broadcastInDim S1x7 ![1] bcast_S7_S1x7_1 a6))

set_option maxRecDepth 8192 in
/-- The composed term of the reference's run is the stages above, of the seven arguments' contents. -/
theorem res_eq (m : (ℓ : Loc nD τ sig) → Buf (Elt Ideal) ℓ) (c : Dev nD) :
    Cert.ReferenceIdeal.Value.res_main_v69 (F := Ideal) m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Cert.ReferenceIdeal.Value.res_main_v69 refOut conv7 conv16 norm dis deg wrap colIdx ew col row
  rfl

end Cert.ReferenceIdeal.Stages

end
-- ==== Proof.Ideal.Cross.lean ====
/-
  The kernel's result and the reference's result are the same function of the seven arguments.

  Both sides are built from the same stages: the edge list extended by self loops (sources, targets, weights), the
  weighted in-degrees, their inverse square roots, and two rounds of "gather the rows at the sources, scale each by
  its edge's factor, add them up at the targets". They differ in two ways only. The kernel computes the two matrix
  products, the per-edge scalings and the hidden layer entry by entry, where the reference uses whole-array
  operations: the four equalities proved before turn one into the other. And each program names its shapes and its
  gather / scatter dimension numbers independently, with the same literal values: stage by stage the two spellings are
  definitionally equal. The edge's factor is (source factor · weight) · target factor on both sides.
-/
import proofs.«164169_j52767968199326_1_alg».proof.Proof.Ideal.KernelOut
import proofs.«164169_j52767968199326_1_alg».proof.Proof.Ideal.Bridge
import proofs.«164169_j52767968199326_1_alg».proof.Proof.RefStages

set_option maxRecDepth 16384

noncomputable section

namespace Cert.Bridge

open Idealize.ShloMosaic Idealize.ShloMosaic.ValueIdx

/-! ## The stages, one by one: the kernel's spelling is the reference's -/

theorem rowOf_eq (a1 : Cert.KernelIdeal.Hand.IV Cert.KernelIdeal.S2x5000000) : Cert.KernelIdeal.Hand.rowOf a1 = Cert.ReferenceIdeal.Stages.row a1 := rfl

theorem colOf_eq (a1 : Cert.KernelIdeal.Hand.IV Cert.KernelIdeal.S2x5000000) : Cert.KernelIdeal.Hand.colOf a1 = Cert.ReferenceIdeal.Stages.col a1 := rfl

theorem ewOf_eq (a2 : Cert.KernelIdeal.Hand.FV Cert.KernelIdeal.S5000000) : Cert.KernelIdeal.Hand.ewOf a2 = Cert.ReferenceIdeal.Stages.ew a2 := rfl

theorem idxCol_eq (a1 : Cert.KernelIdeal.Hand.IV Cert.KernelIdeal.S2x5000000) : Cert.KernelIdeal.Hand.idxCol (Cert.ReferenceIdeal.Stages.col a1) = Cert.ReferenceIdeal.Stages.colIdx a1 := rfl

theorem wrap_eq (v : Cert.KernelIdeal.Hand.IV Cert.KernelIdeal.S5200000) : Cert.KernelIdeal.Hand.wrap v = Cert.ReferenceIdeal.Stages.wrap v := rfl

/-- The degrees. -/
theorem degOf_eq (a1 : Cert.KernelIdeal.Hand.IV Cert.KernelIdeal.S2x5000000) (a2 : Cert.KernelIdeal.Hand.FV Cert.KernelIdeal.S5000000) :
    Cert.KernelIdeal.Hand.degOf (Cert.ReferenceIdeal.Stages.col a1) (Cert.ReferenceIdeal.Stages.ew a2) = Cert.ReferenceIdeal.Stages.deg a1 a2 := rfl

/-- The inverse square roots of the positive degrees, zero elsewhere. -/
theorem disOf_eq (a1 : Cert.KernelIdeal.Hand.IV Cert.KernelIdeal.S2x5000000) (a2 : Cert.KernelIdeal.Hand.FV Cert.KernelIdeal.S5000000) :
    Cert.KernelIdeal.Hand.disOf (Cert.KernelIdeal.Hand.posOf (Cert.ReferenceIdeal.Stages.deg a1 a2))
        (Host.rsqrt (Cert.KernelIdeal.Hand.safeOf (Cert.KernelIdeal.Hand.posOf (Cert.ReferenceIdeal.Stages.deg a1 a2)) (Cert.ReferenceIdeal.Stages.deg a1 a2) (constant (F := Ideal) Cert.KernelIdeal.S_ .f32 0x3F800000#32))) (constant (F := Ideal) Cert.KernelIdeal.S_ .f32 0x00000000#32)
      = Cert.ReferenceIdeal.Stages.dis a1 a2 := rfl

/-- The factor of an edge: (source factor · weight) · target factor. -/
theorem norm_eq (a1 : Cert.KernelIdeal.Hand.IV Cert.KernelIdeal.S2x5000000) (a2 : Cert.KernelIdeal.Hand.FV Cert.KernelIdeal.S5000000) :
    mulf (F := Ideal) (φ := .f32) (mulf (F := Ideal) (φ := .f32) (Host.gather Cert.KernelIdeal.gather_S200000_S5200000x1_S5200000_n_0_n_n_0_1_1 (Cert.ReferenceIdeal.Stages.dis a1 a2) (Cert.ReferenceIdeal.Stages.wrap (Cert.ReferenceIdeal.Stages.row a1))) (Cert.ReferenceIdeal.Stages.ew a2)) (Host.gather Cert.KernelIdeal.gather_S200000_S5200000x1_S5200000_n_0_n_n_0_1_1 (Cert.ReferenceIdeal.Stages.dis a1 a2) (Cert.ReferenceIdeal.Stages.wrap (Cert.ReferenceIdeal.Stages.col a1))) = Cert.ReferenceIdeal.Stages.norm a1 a2 := rfl

/-- One round on sixteen-wide features, the scaling already in the reference's form. -/
theorem conv16_eq (h : Cert.KernelIdeal.Hand.FV Cert.KernelIdeal.S200000x16) (a1 : Cert.KernelIdeal.Hand.IV Cert.KernelIdeal.S2x5000000) (a2 : Cert.KernelIdeal.Hand.FV Cert.KernelIdeal.S5000000) :
    Host.scatterAdd (F := Ideal) (φ := .f32) Cert.KernelIdeal.scatter_S200000x16_S5200000x1_S5200000x16_1_0_0_1
        (broadcastInDim Cert.KernelIdeal.S200000x16 ![] Cert.KernelIdeal.Gen.bcast_S_S200000x16 (constant (F := Ideal) Cert.KernelIdeal.S_ .f32 0x00000000#32)) (Cert.ReferenceIdeal.Stages.colIdx a1)
        (mulf (F := Ideal) (φ := .f32)
          (Host.gather Cert.KernelIdeal.gather_S200000x16_S5200000x1_S5200000x16_1_0_n_n_0_1_116 h (Cert.ReferenceIdeal.Stages.wrap (Cert.ReferenceIdeal.Stages.row a1)))
          (broadcastInDim Cert.ReferenceIdeal.S5200000x16 ![0, 1] Cert.ReferenceIdeal.Gen.bcast_S5200000x1_S5200000x16_0_1
            (broadcastInDim Cert.ReferenceIdeal.S5200000x1 ![0] Cert.ReferenceIdeal.Gen.bcast_S5200000_S5200000x1_0 (Cert.ReferenceIdeal.Stages.norm a1 a2))))
      = Cert.ReferenceIdeal.Stages.conv16 h a1 a2 := rfl

/-- One round on seven-wide features, likewise. -/
theorem conv7_eq (h : Cert.KernelIdeal.Hand.FV Cert.KernelIdeal.S200000x7) (a1 : Cert.KernelIdeal.Hand.IV Cert.KernelIdeal.S2x5000000) (a2 : Cert.KernelIdeal.Hand.FV Cert.KernelIdeal.S5000000) :
    Host.scatterAdd (F := Ideal) (φ := .f32) Cert.KernelIdeal.scatter_S200000x7_S5200000x1_S5200000x7_1_0_0_1
        (broadcastInDim Cert.KernelIdeal.S200000x7 ![] Cert.KernelIdeal.Gen.bcast_S_S200000x7 (constant (F := Ideal) Cert.KernelIdeal.S_ .f32 0x00000000#32)) (Cert.ReferenceIdeal.Stages.colIdx a1)
        (mulf (F := Ideal) (φ := .f32)
          (Host.gather Cert.KernelIdeal.gather_S200000x7_S5200000x1_S5200000x7_1_0_n_n_0_1_17 h (Cert.ReferenceIdeal.Stages.wrap (Cert.ReferenceIdeal.Stages.row a1)))
          (broadcastInDim Cert.ReferenceIdeal.S5200000x7 ![0, 1] Cert.ReferenceIdeal.Gen.bcast_S5200000x1_S5200000x7_0_1
            (broadcastInDim Cert.ReferenceIdeal.S5200000x1 ![0] Cert.ReferenceIdeal.Gen.bcast_S5200000_S5200000x1_0 (Cert.ReferenceIdeal.Stages.norm a1 a2))))
      = Cert.ReferenceIdeal.Stages.conv7 h a1 a2 := rfl

/-! ## The per-edge scalings over the packed array -/

/-- Sixteen-wide rows scaled through the packed array of (source factor, target factor, weight). -/
theorem msg16_eq (Hg : Cert.KernelIdeal.Hand.FV Cert.KernelIdeal.S5200000x16) (dis : Cert.KernelIdeal.Hand.FV Cert.KernelIdeal.S200000) (row col : Cert.KernelIdeal.Hand.IV Cert.KernelIdeal.S5200000)
    (ew : Cert.KernelIdeal.Hand.FV Cert.KernelIdeal.S5200000) :
    Cert.KernelIdeal.Hand.scaleArr16 Hg (Cert.KernelIdeal.Hand.packedOf dis row col ew)
      = mulf (F := Ideal) (φ := .f32) Hg
          (broadcastInDim Cert.ReferenceIdeal.S5200000x16 ![0, 1] Cert.ReferenceIdeal.Gen.bcast_S5200000x1_S5200000x16_0_1
            (broadcastInDim Cert.ReferenceIdeal.S5200000x1 ![0] Cert.ReferenceIdeal.Gen.bcast_S5200000_S5200000x1_0
              (mulf (F := Ideal) (φ := .f32) (mulf (F := Ideal) (φ := .f32)
                (Host.gather Cert.KernelIdeal.gather_S200000_S5200000x1_S5200000_n_0_n_n_0_1_1 dis (Cert.KernelIdeal.Hand.wrap row)) ew) (Host.gather Cert.KernelIdeal.gather_S200000_S5200000x1_S5200000_n_0_n_n_0_1_1 dis (Cert.KernelIdeal.Hand.wrap col))))) :=
  scale16_eq Hg (Host.gather Cert.KernelIdeal.gather_S200000_S5200000x1_S5200000_n_0_n_n_0_1_1 dis (Cert.KernelIdeal.Hand.wrap row)) (Host.gather Cert.KernelIdeal.gather_S200000_S5200000x1_S5200000_n_0_n_n_0_1_1 dis (Cert.KernelIdeal.Hand.wrap col)) ew

/-- Seven-wide rows, likewise. -/
theorem msg7_eq (Hg : Cert.KernelIdeal.Hand.FV Cert.KernelIdeal.S5200000x7) (dis : Cert.KernelIdeal.Hand.FV Cert.KernelIdeal.S200000) (row col : Cert.KernelIdeal.Hand.IV Cert.KernelIdeal.S5200000)
    (ew : Cert.KernelIdeal.Hand.FV Cert.KernelIdeal.S5200000) :
    Cert.KernelIdeal.Hand.scaleArr7 Hg (Cert.KernelIdeal.Hand.packedOf dis row col ew)
      = mulf (F := Ideal) (φ := .f32) Hg
          (broadcastInDim Cert.ReferenceIdeal.S5200000x7 ![0, 1] Cert.ReferenceIdeal.Gen.bcast_S5200000x1_S5200000x7_0_1
            (broadcastInDim Cert.ReferenceIdeal.S5200000x1 ![0] Cert.ReferenceIdeal.Gen.bcast_S5200000_S5200000x1_0
              (mulf (F := Ideal) (φ := .f32) (mulf (F := Ideal) (φ := .f32)
                (Host.gather Cert.KernelIdeal.gather_S200000_S5200000x1_S5200000_n_0_n_n_0_1_1 dis (Cert.KernelIdeal.Hand.wrap row)) ew) (Host.gather Cert.KernelIdeal.gather_S200000_S5200000x1_S5200000_n_0_n_n_0_1_1 dis (Cert.KernelIdeal.Hand.wrap col))))) :=
  scale7_eq Hg (Host.gather Cert.KernelIdeal.gather_S200000_S5200000x1_S5200000_n_0_n_n_0_1_1 dis (Cert.KernelIdeal.Hand.wrap row)) (Host.gather Cert.KernelIdeal.gather_S200000_S5200000x1_S5200000_n_0_n_n_0_1_1 dis (Cert.KernelIdeal.Hand.wrap col)) ew

/-! ## The two results -/

/-- The kernel's result is the reference's, as functions of the seven arguments. -/
theorem kernelOut_eq_refOut (a0 : Cert.KernelIdeal.Hand.FV Cert.KernelIdeal.S200000x3) (a1 : Cert.KernelIdeal.Hand.IV Cert.KernelIdeal.S2x5000000) (a2 : Cert.KernelIdeal.Hand.FV Cert.KernelIdeal.S5000000)
    (a3 : Cert.KernelIdeal.Hand.FV Cert.KernelIdeal.S3x16) (a4 : Cert.KernelIdeal.Hand.FV Cert.KernelIdeal.S16) (a5 : Cert.KernelIdeal.Hand.FV Cert.KernelIdeal.S16x7) (a6 : Cert.KernelIdeal.Hand.FV Cert.KernelIdeal.S7) :
    Cert.KernelIdeal.Hand.kernelOut a0 a1 a2 a3 a4 a5 a6 = Cert.ReferenceIdeal.Stages.refOut a0 a1 a2 a3 a4 a5 a6 := by
  unfold Cert.KernelIdeal.Hand.kernelOut
  dsimp only
  rw [rowOf_eq, colOf_eq, ewOf_eq, degOf_eq, disOf_eq, msg16_eq, msg7_eq, dense_eq, hidden_eq, idxCol_eq]
  simp only [wrap_eq]
  rw [norm_eq, conv16_eq, conv7_eq]
  rfl

end Cert.Bridge

end
-- ==== Proof.lean ====
/-
  A two-layer graph convolution with edge weights and symmetric degree normalisation, computed two ways.

  Both programs extend the edge list by one self-loop of weight one per node, sum the weights into their targets to get
  the degrees, take the inverse square root of each positive degree (zero elsewhere), and then twice do the same round:
  multiply the node features by a weight matrix, take the rows at the edges' sources, scale row e by
  (factor of the source · weight of e) · factor of the target, sum the scaled rows into the edges' targets, add a bias;
  between the rounds the features are rectified at zero.

  The reference does every step as one host operation. The kernel does four of them in pallas regions, block by block:
  the two matrix products (the second with the first bias and the rectification fused in front of it) over blocks of
  10000 nodes, and the two per-edge scalings over blocks of 10400 edges, reading the three factors of an edge off a
  packed three-column array. On the extended reals a region's output array is, entry by entry, the same function of the
  arrays it reads as the host operations it replaces: a product of two matrices is the same finite sum however it is
  tiled over the rows, a change of float format is the identity, and the per-edge factor is multiplied in the same
  order on both sides. Everything else — the gathers, the scatter-adds, the selections — is the same operation on both
  sides applied to equal arrays. No law that needs finite values is used, so the precondition is never opened.

  The three frames: the reference's is its run with the result dropped; the kernel's (at both instances) is the run of
  its thirteen items, no item writing an argument.
-/
import proofs.«164169_j52767968199326_1_alg».proof.Defs
import proofs.«164169_j52767968199326_1_alg».proof.Proof.Gen.Kernel
import proofs.«164169_j52767968199326_1_alg».proof.Proof.Gen.KernelIdeal
import proofs.«164169_j52767968199326_1_alg».proof.Proof.Gen.ReferenceIdeal
import proofs.«164169_j52767968199326_1_alg».proof.Proof.Gen.Pre_finite_inputs
import proofs.«164169_j52767968199326_1_alg».proof.Proof.Gen.ReferenceIdeal.Run
import proofs.«164169_j52767968199326_1_alg».proof.Proof.Bits.Run
import proofs.«164169_j52767968199326_1_alg».proof.Proof.Ideal.Run
import proofs.«164169_j52767968199326_1_alg».proof.Proof.Ideal.Value
import proofs.«164169_j52767968199326_1_alg».proof.Proof.Ideal.Cross
import proofs.«164169_j52767968199326_1_alg».proof.Proof.RefStages
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel := fun m ρ _ => Cert.Kernel.Hand.frame m ρ

/-- So does the kernel read on the extended reals. -/
theorem frame_kernelIdeal : Cert.frame_KernelIdeal := fun m ρ _ => Cert.KernelIdeal.Hand.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From memories that agree on the arguments both programs end with the same result: the kernel's function of the
    arguments is the reference's composed term. -/
theorem algebraic : Cert.algebraic_KernelIdeal_ReferenceIdeal := by
  intro m ρ m' ρ' _ hagree
  refine ⟨fun c => Cert.KernelIdeal.Hand.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Stages.res_eq, (hagree c).1, (hagree c).2.1, (hagree c).2.2.1, (hagree c).2.2.2.1,
    (hagree c).2.2.2.2.1, (hagree c).2.2.2.2.2.1, (hagree c).2.2.2.2.2.2]
  exact (Cert.Bridge.kernelOut_eq_refOut _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
